-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v18_1)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v18_1) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_v143) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1536 : Shape := ⟨2, ![16384, 1536]⟩
abbrev S16384x12 : Shape := ⟨2, ![16384, 12]⟩
abbrev S16384x1 : Shape := ⟨2, ![16384, 1]⟩
abbrev S16384x1024 : Shape := ⟨2, ![16384, 1024]⟩
abbrev S16384x32 : Shape := ⟨2, ![16384, 32]⟩
abbrev S1024x44 : Shape := ⟨2, ![1024, 44]⟩
abbrev S1024 : Shape := ⟨1, ![1024]⟩
abbrev S3072x1024 : Shape := ⟨2, ![3072, 1024]⟩
abbrev S1024x1024 : Shape := ⟨2, ![1024, 1024]⟩
abbrev S64x1024 : Shape := ⟨2, ![64, 1024]⟩
abbrev S64 : Shape := ⟨1, ![64]⟩
abbrev S1024x2560 : Shape := ⟨2, ![1024, 2560]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x12 : S_.BroadcastsInDim S16384x12 (![] : Fin 0 → Fin S16384x12.rank)
  reducesTo_S16384x12_S_d0_1 : S16384x12.ReducesTo [0, 1] S_
  bcast_S_S16384x1 : S_.BroadcastsInDim S16384x1 (![] : Fin 0 → Fin S16384x1.rank)
  reducesTo_S16384x1_S_d0_1 : S16384x1.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384x32 : S_.BroadcastsInDim S16384x32 (![] : Fin 0 → Fin S16384x32.rank)
  reducesTo_S16384x32_S_d0_1 : S16384x32.ReducesTo [0, 1] S_
  bcast_S_S1024x44 : S_.BroadcastsInDim S1024x44 (![] : Fin 0 → Fin S1024x44.rank)
  reducesTo_S1024x44_S_d0_1 : S1024x44.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x2560 : S_.BroadcastsInDim S1024x2560 (![] : Fin 0 → Fin S1024x2560.rank)
  reducesTo_S1024x2560_S_d0_1 : S1024x2560.ReducesTo [0, 1] S_

variable [Facts]

def fn_part6 {F : FTy → Type} [FloatOps F] (main_arg21 : FVec F S64x1024 .f32) (main_arg22 : FVec F S64 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S64x1024 .f32 := Host.absf main_arg21
  let main_cst_40 : FVec F S_ .f32 := constant S_ .f32 0x7F800000#32
  let main_v105 : FVec F S64x1024 .f32 := broadcastInDim S64x1024 ![] bcast_S_S64x1024 main_cst_40
  let main_v106 : IVec S64x1024 1 := cmpf .olt main_v104 main_v105
  let main_c_41 : IVec S_ 1 := constantI S_ 1 1#1
  let main_v107 : IVec S_ 1 := (fun x v => Host.reduce IntOp.andi x v reducesTo_S64x1024_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  main_v113

def fn_part5 {F : FTy → Type} [FloatOps F] (main_arg18 : FVec F S64 .f32) (main_arg19 : FVec F S1024x2560 .f32) (main_arg20 : FVec F S1024 .f32) (main_arg21 : FVec F S64x1024 .f32) (main_arg22 : FVec F S64 .f32) (main_v83 : IVec S_ 1) (main_v84 : FVec F S64x1024 .f32) (main_cst_32 : FVec F S_ .f32) : IVec S_ 1 :=
  let main_v85 : FVec F S64x1024 .f32 := broadcastInDim S64x1024 ![] bcast_S_S64x1024 main_cst_32
  let main_v86 : IVec S64x1024 1 := cmpf .olt main_v84 main_v85
  let main_c_33 : IVec S_ 1 := constantI S_ 1 1#1
  let main_v87 : IVec S_ 1 := (fun x v => Host.reduce IntOp.andi x v reducesTo_S64x1024_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1024x2560 .f32 := Host.absf main_arg19
  let main_cst_36 : FVec F S_ .f32 := constant S_ .f32 0x7F800000#32
  let main_v95 : FVec F S1024x2560 .f32 := broadcastInDim S1024x2560 ![] bcast_S_S1024x2560 main_cst_36
  let main_v96 : IVec S1024x2560 1 := cmpf .olt main_v94 main_v95
  let main_c_37 : IVec S_ 1 := constantI S_ 1 1#1
  let main_v97 : IVec S_ 1 := (fun x v => Host.reduce IntOp.andi x v reducesTo_S1024x2560_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S1024 .f32) (main_arg15 : FVec F S1024x1024 .f32) (main_arg16 : FVec F S1024 .f32) (main_arg17 : FVec F S64x1024 .f32) (main_arg18 : FVec F S64 .f32) (main_arg19 : FVec F S1024x2560 .f32) (main_arg20 : FVec F S1024 .f32) (main_arg21 : FVec F S64x1024 .f32) (main_arg22 : FVec F S64 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S64x1024 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024x1024 .f32) (main_arg16 : FVec F S1024 .f32) (main_arg17 : FVec F S64x1024 .f32) (main_arg18 : FVec F S64 .f32) (main_arg19 : FVec F S1024x2560 .f32) (main_arg20 : FVec F S1024 .f32) (main_arg21 : FVec F S64x1024 .f32) (main_arg22 : FVec F S64 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S3072x1024 .f32) (main_arg8 : FVec F S3072x1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024x1024 .f32) (main_arg16 : FVec F S1024 .f32) (main_arg17 : FVec F S64x1024 .f32) (main_arg18 : FVec F S64 .f32) (main_arg19 : FVec F S1024x2560 .f32) (main_arg20 : FVec F S1024 .f32) (main_arg21 : FVec F S64x1024 .f32) (main_arg22 : FVec F S64 .f32) (main_v33 : IVec S_ 1) : IVec S_ 1 :=
  let main_v34 : FVec F S3072x1024 .f32 := Host.absf main_arg7
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg8
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S16384x32 .f32) (main_arg5 : FVec F S1024x44 .f32) (main_arg6 : FVec F S1024 .f32) (main_arg7 : FVec F S3072x1024 .f32) (main_arg8 : FVec F S3072x1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024x1024 .f32) (main_arg16 : FVec F S1024 .f32) (main_arg17 : FVec F S64x1024 .f32) (main_arg18 : FVec F S64 .f32) (main_arg19 : FVec F S1024x2560 .f32) (main_arg20 : FVec F S1024 .f32) (main_arg21 : FVec F S64x1024 .f32) (main_arg22 : FVec F S64 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x32 .f32 := Host.absf main_arg4
  let main_cst_6 : FVec F S_ .f32 := constant S_ .f32 0x7F800000#32
  let main_v20 : FVec F S16384x32 .f32 := broadcastInDim S16384x32 ![] bcast_S_S16384x32 main_cst_6
  let main_v21 : IVec S16384x32 1 := cmpf .olt main_v19 main_v20
  let main_c_7 : IVec S_ 1 := constantI S_ 1 1#1
  let main_v22 : IVec S_ 1 := (fun x v => Host.reduce IntOp.andi x v reducesTo_S16384x32_S_d0_1 h_S_) main_v21 main_c_7
  let main_v23 : IVec S_ 1 := andi main_v18 main_v22
  let main_v24 : FVec F S1024x44 .f32 := Host.absf main_arg5
  let main_cst_8 : FVec F S_ .f32 := constant S_ .f32 0x7F800000#32
  let main_v25 : FVec F S1024x44 .f32 := broadcastInDim S1024x44 ![] bcast_S_S1024x44 main_cst_8
  let main_v26 : IVec S1024x44 1 := cmpf .olt main_v24 main_v25
  let main_c_9 : IVec S_ 1 := constantI S_ 1 1#1
  let main_v27 : IVec S_ 1 := (fun x v => Host.reduce IntOp.andi x v reducesTo_S1024x44_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S16384x1536 .f32) (main_arg1 : FVec F S16384x12 .f32) (main_arg2 : FVec F S16384x1 .f32) (main_arg3 : FVec F S16384x1024 .f32) (main_arg4 : FVec F S16384x32 .f32) (main_arg5 : FVec F S1024x44 .f32) (main_arg6 : FVec F S1024 .f32) (main_arg7 : FVec F S3072x1024 .f32) (main_arg8 : FVec F S3072x1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024x1024 .f32) (main_arg16 : FVec F S1024 .f32) (main_arg17 : FVec F S64x1024 .f32) (main_arg18 : FVec F S64 .f32) (main_arg19 : FVec F S1024x2560 .f32) (main_arg20 : FVec F S1024 .f32) (main_arg21 : FVec F S64x1024 .f32) (main_arg22 : FVec F S64 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S16384x12 .f32 := Host.absf main_arg1
  let main_cst_0 : FVec F S_ .f32 := constant S_ .f32 0x7F800000#32
  let main_v5 : FVec F S16384x12 .f32 := broadcastInDim S16384x12 ![] bcast_S_S16384x12 main_cst_0
  let main_v6 : IVec S16384x12 1 := cmpf .olt main_v4 main_v5
  let main_c_1 : IVec S_ 1 := constantI S_ 1 1#1
  let main_v7 : IVec S_ 1 := (fun x v => Host.reduce IntOp.andi x v reducesTo_S16384x12_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S16384x1536 : Shape := ⟨2, ![16384, 1536]⟩
abbrev S16384x12 : Shape := ⟨2, ![16384, 12]⟩
abbrev S16384x1 : Shape := ⟨2, ![16384, 1]⟩
abbrev S16384x1024 : Shape := ⟨2, ![16384, 1024]⟩
abbrev S16384x32 : Shape := ⟨2, ![16384, 32]⟩
abbrev S1024x44 : Shape := ⟨2, ![1024, 44]⟩
abbrev S1024 : Shape := ⟨1, ![1024]⟩
abbrev S3072x1024 : Shape := ⟨2, ![3072, 1024]⟩
abbrev S1024x1024 : Shape := ⟨2, ![1024, 1024]⟩
abbrev S64x1024 : Shape := ⟨2, ![64, 1024]⟩
abbrev S64 : Shape := ⟨1, ![64]⟩
abbrev S1024x2560 : Shape := ⟨2, ![1024, 2560]⟩
abbrev S44x1024 : Shape := ⟨2, ![44, 1024]⟩
abbrev S32x1024 : Shape := ⟨2, ![32, 1024]⟩
abbrev S12x1024 : Shape := ⟨2, ![12, 1024]⟩
abbrev S1024x3072 : Shape := ⟨2, ![1024, 3072]⟩
abbrev S1024x64 : Shape := ⟨2, ![1024, 64]⟩
abbrev S2560x1024 : Shape := ⟨2, ![2560, 1024]⟩
abbrev S1536x1024 : Shape := ⟨2, ![1536, 1024]⟩
abbrev S16384x128 : Shape := ⟨2, ![16384, 128]⟩
abbrev S512x1536 : Shape := ⟨2, ![512, 1536]⟩
abbrev S512x12 : Shape := ⟨2, ![512, 12]⟩
abbrev S512x1 : Shape := ⟨2, ![512, 1]⟩
abbrev S512x1024 : Shape := ⟨2, ![512, 1024]⟩
abbrev S512x32 : Shape := ⟨2, ![512, 32]⟩
abbrev S512x128 : Shape := ⟨2, ![512, 128]⟩
abbrev S1x1024 : Shape := ⟨2, ![1, 1024]⟩
abbrev S512x3072 : Shape := ⟨2, ![512, 3072]⟩
abbrev S512 : Shape := ⟨1, ![512]⟩
abbrev S512x64 : Shape := ⟨2, ![512, 64]⟩
abbrev S1x64 : Shape := ⟨2, ![1, 64]⟩

abbrev nBuf : Space → Nat
  | .hbm => 47
  | .vmem => 34
  | .smem => 0
  | _ => 0

abbrev bufTy : (tb : Table) → Fin (tcTables nBuf tb) → BufTy
  | .hbm, ⟨0, _⟩ => ⟨S16384x1536, .f32⟩
  | .hbm, ⟨1, _⟩ => ⟨S16384x12, .f32⟩
  | .hbm, ⟨2, _⟩ => ⟨S16384x1, .f32⟩
  | .hbm, ⟨3, _⟩ => ⟨S16384x1024, .f32⟩
  | .hbm, ⟨4, _⟩ => ⟨S16384x32, .f32⟩
  | .hbm, ⟨5, _⟩ => ⟨S1024x44, .f32⟩
  | .hbm, ⟨6, _⟩ => ⟨S1024, .f32⟩
  | .hbm, ⟨7, _⟩ => ⟨S3072x1024, .f32⟩
  | .hbm, ⟨8, _⟩ => ⟨S3072x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S64x1024, .f32⟩
  | .hbm, ⟨18, _⟩ => ⟨S64, .f32⟩
  | .hbm, ⟨19, _⟩ => ⟨S1024x2560, .f32⟩
  | .hbm, ⟨20, _⟩ => ⟨S1024, .f32⟩
  | .hbm, ⟨21, _⟩ => ⟨S64x1024, .f32⟩
  | .hbm, ⟨22, _⟩ => ⟨S64, .f32⟩
  | .hbm, ⟨23, _⟩ => ⟨S44x1024, .f32⟩
  | .hbm, ⟨24, _⟩ => ⟨S44x1024, .bf16⟩
  | .hbm, ⟨25, _⟩ => ⟨S32x1024, .bf16⟩
  | .hbm, ⟨26, _⟩ => ⟨S12x1024, .bf16⟩
  | .hbm, ⟨27, _⟩ => ⟨S1024x3072, .f32⟩
  | .hbm, ⟨28, _⟩ => ⟨S1024x3072, .bf16⟩
  | .hbm, ⟨29, _⟩ => ⟨S1024x3072, .f32⟩
  | .hbm, ⟨30, _⟩ => ⟨S1024x3072, .bf16⟩
  | .hbm, ⟨31, _⟩ => ⟨S1024x1024, .f32⟩
  | .hbm, ⟨32, _⟩ => ⟨S1024x1024, .bf16⟩
  | .hbm, ⟨33, _⟩ => ⟨S1024x64, .f32⟩
  | .hbm, ⟨34, _⟩ => ⟨S1024x64, .bf16⟩
  | .hbm, ⟨35, _⟩ => ⟨S2560x1024, .f32⟩
  | .hbm, ⟨36, _⟩ => ⟨S2560x1024, .bf16⟩
  | .hbm, ⟨37, _⟩ => ⟨S1024x1024, .bf16⟩
  | .hbm, ⟨38, _⟩ => ⟨S1536x1024, .bf16⟩
  | .hbm, ⟨39, _⟩ => ⟨S1024x64, .f32⟩
  | .hbm, ⟨40, _⟩ => ⟨S1024x64, .bf16⟩
  | .hbm, ⟨41, _⟩ => ⟨S16384x128, .f32⟩
  | .hbm, ⟨42, _⟩ => ⟨S16384x1024, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .local _ .vmem, ⟨0, _⟩ => ⟨S512x1536, .f32⟩
  | .local _ .vmem, ⟨1, _⟩ => ⟨S512x1536, .f32⟩
  | .local _ .vmem, ⟨2, _⟩ => ⟨S512x12, .f32⟩
  | .local _ .vmem, ⟨3, _⟩ => ⟨S512x12, .f32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | .local _ .vmem, ⟨8, _⟩ => ⟨S512x32, .f32⟩
  | .local _ .vmem, ⟨9, _⟩ => ⟨S512x32, .f32⟩
  | .local _ .vmem, ⟨10, _⟩ => ⟨S32x1024, .bf16⟩
  | .local _ .vmem, ⟨11, _⟩ => ⟨S12x1024, .bf16⟩
  | .local _ .vmem, ⟨12, _⟩ => ⟨S1024, .f32⟩
  | .local _ .vmem, ⟨13, _⟩ => ⟨S1024x3072, .bf16⟩
  | .local _ .vmem, ⟨14, _⟩ => ⟨S1024x3072, .bf16⟩
  | .local _ .vmem, ⟨15, _⟩ => ⟨S1024, .f32⟩
  | .local _ .vmem, ⟨16, _⟩ => ⟨S1024, .f32⟩
  | .local _ .vmem, ⟨17, _⟩ => ⟨S1024, .f32⟩
  | .local _ .vmem, ⟨18, _⟩ => ⟨S1024, .f32⟩
  | .local _ .vmem, ⟨19, _⟩ => ⟨S1024, .f32⟩
  | .local _ .vmem, ⟨20, _⟩ => ⟨S1024, .f32⟩
  | .local _ .vmem, ⟨21, _⟩ => ⟨S1024x1024, .bf16⟩
  | .local _ .vmem, ⟨22, _⟩ => ⟨S1024, .f32⟩
  | .local _ .vmem, ⟨23, _⟩ => ⟨S1024x64, .bf16⟩
  | .local _ .vmem, ⟨24, _⟩ => ⟨S64, .f32⟩
  | .local _ .vmem, ⟨25, _⟩ => ⟨S1024x1024, .bf16⟩
  | .local _ .vmem, ⟨26, _⟩ => ⟨S1536x1024, .bf16⟩
  | .local _ .vmem, ⟨27, _⟩ => ⟨S1024, .f32⟩
  | .local _ .vmem, ⟨28, _⟩ => ⟨S1024x64, .bf16⟩
  | .local _ .vmem, ⟨29, _⟩ => ⟨S64, .f32⟩
  | .local _ .vmem, ⟨30, _⟩ => ⟨S512x128, .f32⟩
  | .local _ .vmem, ⟨31, _⟩ => ⟨S512x128, .f32⟩
  | .local _ .vmem, ⟨32, _⟩ => ⟨S512x1024, .f32⟩
  | .local _ .vmem, ⟨33, _⟩ => ⟨S512x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem25_1 : DmaSem sig := 31
abbrev cc0_sem26_0 : DmaSem sig := 32
abbrev cc0_sem26_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1536x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x64 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  transposes_S1024x44_S44x1024_1_0 : S1024x44.Transposes [1, 0] S44x1024
  bitsLt_bf16_f32 : FTy.bits .bf16 < FTy.bits .f32
  slices_S44x1024_S32x1024_0_0 : S44x1024.Slices ![0, 0] S32x1024
  slices_S44x1024_S12x1024_32_0 : S44x1024.Slices ![32, 0] S12x1024
  transposes_S3072x1024_S1024x3072_1_0 : S3072x1024.Transposes [1, 0] S1024x3072
  transposes_S1024x1024_S1024x1024_1_0 : S1024x1024.Transposes [1, 0] S1024x1024
  transposes_S64x1024_S1024x64_1_0 : S64x1024.Transposes [1, 0] S1024x64
  transposes_S1024x2560_S2560x1024_1_0 : S1024x2560.Transposes [1, 0] S2560x1024
  slices_S2560x1024_S1024x1024_0_0 : S2560x1024.Slices ![0, 0] S1024x1024
  slices_S2560x1024_S1536x1024_1024_0 : S2560x1024.Slices ![1024, 0] S1536x1024
  inb_S512x1_S512x1_0_0 : ∀ a, (![0, 0] : Fin 2 → Nat) a + S512x1.size a ≤ S512x1.size a
  h_S512x1 : 0 < S512x1.numel
  inb_S512x1024_S512x1024_0_0 : ∀ a, (![0, 0] : Fin 2 → Nat) a + S512x1024.size a ≤ S512x1024.size a
  h_S512x1024 : 0 < S512x1024.numel
  broadcasts_S512x1_S512x1024 : S512x1.Broadcasts S512x1024
  inb_S512x32_S512x32_0_0 : ∀ a, (![0, 0] : Fin 2 → Nat) a + S512x32.size a ≤ S512x32.size a
  h_S512x32 : 0 < S512x32.numel
  broadcasts_S512x1_S512x32 : S512x1.Broadcasts S512x32
  inb_S512x12_S512x12_0_0 : ∀ a, (![0, 0] : Fin 2 → Nat) a + S512x12.size a ≤ S512x12.size a
  h_S512x12 : 0 < S512x12.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  slices_S512x64_o0_0_S512x32 : S512x64.Slices ![0, 0] S512x32
  slices_S512x64_o0_32_S512x32 : S512x64.Slices ![0, 32] S512x32
  inb_S512x1536_S512x1536_0_0 : ∀ a, (![0, 0] : Fin 2 → Nat) a + S512x1536.size a ≤ S512x1536.size a
  h_S512x1536 : 0 < S512x1536.numel
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  concatenates_S512x32_S512x32_S512x32_S512x32_S512x128_d1 : Shape.Concatenates [S512x32, S512x32, S512x32, S512x32] S512x128 1
  inb_S512x128_S512x128_0_0 : ∀ a, (![0, 0] : Fin 2 → Nat) a + S512x128.size a ≤ S512x128.size a
  h_S512x128 : 0 < S512x128.numel
  slices_S16384x128_S16384x32_0_0 : S16384x128.Slices ![0, 0] S16384x32
  slices_S16384x128_S16384x32_0_32 : S16384x128.Slices ![0, 32] S16384x32
  slices_S16384x128_S16384x32_0_64 : S16384x128.Slices ![0, 64] S16384x32
  slices_S16384x128_S16384x32_0_96 : S16384x128.Slices ![0, 96] S16384x32
  dot_S512x32_S32x1024_S512x1024_1_0_0_1_n_n_wf : DotDims.WF S512x32 S32x1024 S512x1024 [1] [0] [0] [1] [] []
  dot_S512x12_S12x1024_S512x1024_1_0_0_1_n_n_wf : DotDims.WF S512x12 S12x1024 S512x1024 [1] [0] [0] [1] [] []
  dot_S512x1024_S1024x3072_S512x3072_1_0_0_1_n_n_wf : DotDims.WF S512x1024 S1024x3072 S512x3072 [1] [0] [0] [1] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  dot_S512x1536_S1536x1024_S512x1024_1_0_0_1_n_n_wf : DotDims.WF S512x1536 S1536x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S16384x1536.size a
  hwx0_0 : ∀ i : grid0.Coords, EltTy.bits .f32 = 32 ∨ (Rect.block (s := S16384x1536) S512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x12.size a ≤ S16384x12.size a
  hwx0_1 : ∀ i : grid0.Coords, EltTy.bits .f32 = 32 ∨ (Rect.block (s := S16384x12) S512x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S16384x32.size a
  hwx0_4 : ∀ i : grid0.Coords, EltTy.bits .f32 = 32 ∨ (Rect.block (s := S16384x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x1024.size a ≤ S12x1024.size a
  hwx0_6 : ∀ i : grid0.Coords, EltTy.bits .bf16 = 32 ∨ (Rect.block (s := S12x1024) S12x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x3072.size a ≤ S1024x3072.size a
  hwx0_8 : ∀ i : grid0.Coords, EltTy.bits .bf16 = 32 ∨ (Rect.block (s := S1024x3072) S1024x3072.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x3072.size a ≤ S1024x3072.size a
  hwx0_9 : ∀ i : grid0.Coords, EltTy.bits .bf16 = 32 ∨ (Rect.block (s := S1024x3072) S1024x3072.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S1024.size a
  hwx0_15 : ∀ i : grid0.Coords, EltTy.bits .f32 = 32 ∨ (Rect.block (s := S1024) S1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x1024.size a ≤ S1024x1024.size a
  hwx0_16 : ∀ i : grid0.Coords, EltTy.bits .bf16 = 32 ∨ (Rect.block (s := S1024x1024) S1024x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1024.size a ≤ S1024.size a
  hwx0_17 : ∀ i : grid0.Coords, EltTy.bits .f32 = 32 ∨ (Rect.block (s := S1024) S1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x64.size a ≤ S1024x64.size a
  hwx0_18 : ∀ i : grid0.Coords, EltTy.bits .bf16 = 32 ∨ (Rect.block (s := S1024x64) S1024x64.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1024x1024.size a ≤ S1024x1024.size a
  hwx0_20 : ∀ i : grid0.Coords, EltTy.bits .bf16 = 32 ∨ (Rect.block (s := S1024x1024) S1024x1024.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1536x1024.size a ≤ S1536x1024.size a
  hwx0_21 : ∀ i : grid0.Coords, EltTy.bits .bf16 = 32 ∨ (Rect.block (s := S1536x1024) S1536x1024.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024.size a ≤ S1024.size a
  hwx0_22 : ∀ i : grid0.Coords, EltTy.bits .f32 = 32 ∨ (Rect.block (s := S1024) S1024.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1024x64.size a ≤ S1024x64.size a
  hwx0_23 : ∀ i : grid0.Coords, EltTy.bits .bf16 = 32 ∨ (Rect.block (s := S1024x64) S1024x64.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S64.size a ≤ S64.size a
  hwx0_24 : ∀ i : grid0.Coords, EltTy.bits .f32 = 32 ∨ (Rect.block (s := S64) S64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x128.size a ≤ S16384x128.size a
  hwx0_25 : ∀ i : grid0.Coords, EltTy.bits .f32 = 32 ∨ (Rect.block (s := S16384x128) S512x128.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x1024.size a ≤ S16384x1024.size a
  hwx0_26 : ∀ i : grid0.Coords, EltTy.bits .f32 = 32 ∨ (Rect.block (s := S16384x1024) S512x1024.size (cc0_transform_26 i) (hinb0_26 i)).WholeWords (EltTy.packing .f32)

variable [Facts₀]

def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf
def dot_S512x12_S12x1024_S512x1024_1_0_0_1_n_n : DotDims S512x12 S12x1024 S512x1024 where
  lhsContracting := [1]
  rhsContracting := [0]
  lhsNonContracting := [0]
  rhsNonContracting := [1]
  lhsBatch := []
  rhsBatch := []
  wf := dot_S512x12_S12x1024_S512x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1536_S1536x1024_S512x1024_1_0_0_1_n_n : DotDims S512x1536 S1536x1024 S512x1024 where
  lhsContracting := [1]
  rhsContracting := [0]
  lhsNonContracting := [0]
  rhsNonContracting := [1]
  lhsBatch := []
  rhsBatch := []
  wf := dot_S512x1536_S1536x1024_S512x1024_1_0_0_1_n_n_wf

abbrev win0_0 : Pipeline.Window sig grid0 :=
  Pipeline.Window.ofSpec (Memref.whole main_arg0) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S12x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1024x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S1024x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v14) S1024x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S1536x1024.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg20) S1024.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v17) S1024x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg22) S64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v18_0) S512x128.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v18_1) S512x1024.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S16384x1536 : Shape := ⟨2, ![16384, 1536]⟩
abbrev S16384x12 : Shape := ⟨2, ![16384, 12]⟩
abbrev S16384x1 : Shape := ⟨2, ![16384, 1]⟩
abbrev S16384x1024 : Shape := ⟨2, ![16384, 1024]⟩
abbrev S16384x32 : Shape := ⟨2, ![16384, 32]⟩
abbrev S1024x44 : Shape := ⟨2, ![1024, 44]⟩
abbrev S1024 : Shape := ⟨1, ![1024]⟩
abbrev S3072x1024 : Shape := ⟨2, ![3072, 1024]⟩
abbrev S1024x1024 : Shape := ⟨2, ![1024, 1024]⟩
abbrev S64x1024 : Shape := ⟨2, ![64, 1024]⟩
abbrev S64 : Shape := ⟨1, ![64]⟩
abbrev S1024x2560 : Shape := ⟨2, ![1024, 2560]⟩
abbrev S16384x44 : Shape := ⟨2, ![16384, 44]⟩
abbrev S44x1024 : Shape := ⟨2, ![44, 1024]⟩
abbrev S1x1024 : Shape := ⟨2, ![1, 1024]⟩
abbrev S_ : Shape := ⟨0, ![]⟩
abbrev S1024x3072 : Shape := ⟨2, ![1024, 3072]⟩
abbrev S16384x3072 : Shape := ⟨2, ![16384, 3072]⟩
abbrev S16384 : Shape := ⟨1, ![16384]⟩
abbrev S1024x64 : Shape := ⟨2, ![1024, 64]⟩
abbrev S16384x64 : Shape := ⟨2, ![16384, 64]⟩
abbrev S1x64 : Shape := ⟨2, ![1, 64]⟩
abbrev S16384x2560 : Shape := ⟨2, ![16384, 2560]⟩
abbrev S2560x1024 : Shape := ⟨2, ![2560, 1024]⟩

abbrev nBuf : Space → Nat
  | .hbm => 225
  | .vmem => 0
  | .smem => 0
  | _ => 0

abbrev hbmTy0_0 (i : Nat) : BufTy := match i % 128 with
  | 0 => ⟨S16384x1536, .f32⟩
  | 1 => ⟨S16384x12, .f32⟩
  | 2 => ⟨S16384x1, .f32⟩
  | 3 => ⟨S16384x1024, .f32⟩
  | 4 => ⟨S16384x32, .f32⟩
  | 5 => ⟨S1024x44, .f32⟩
  | 6 => ⟨S1024, .f32⟩
  | 7 => ⟨S3072x1024, .f32⟩
  | 8 => ⟨S3072x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024x1024, .f32⟩
  | 16 => ⟨S1024, .f32⟩
  | 17 => ⟨S64x1024, .f32⟩
  | 18 => ⟨S64, .f32⟩
  | 19 => ⟨S1024x2560, .f32⟩
  | 20 => ⟨S1024, .f32⟩
  | 21 => ⟨S64x1024, .f32⟩
  | 22 => ⟨S64, .f32⟩
  | 23 => ⟨S16384x1024, .f32⟩
  | 24 => ⟨S16384x1024, .f32⟩
  | 25 => ⟨S16384x32, .f32⟩
  | 26 => ⟨S16384x32, .f32⟩
  | 27 => ⟨S16384x44, .f32⟩
  | 28 => ⟨S44x1024, .f32⟩
  | 29 => ⟨S16384x1024, .f32⟩
  | 30 => ⟨S1x1024, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S1024x3072, .f32⟩
  | 37 => ⟨S16384x3072, .f32⟩
  | 38 => ⟨S1024x3072, .f32⟩
  | 39 => ⟨S16384x3072, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x1024, .f32⟩
  | 54 => ⟨S16384x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S_, .f32⟩
  | 82 => ⟨S16384x1024, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S16384x1024, .f32⟩
  | 92 => ⟨S16384x1024, .f32⟩
  | 93 => ⟨S16384x1024, .f32⟩
  | 94 => ⟨S_, .f32⟩
  | 95 => ⟨S16384, .f32⟩
  | 96 => ⟨S16384x1, .f32⟩
  | 97 => ⟨S_, .f32⟩
  | 98 => ⟨S16384x1, .f32⟩
  | 99 => ⟨S16384x1, .f32⟩
  | 100 => ⟨S16384x1024, .f32⟩
  | 101 => ⟨S16384x1024, .f32⟩
  | 102 => ⟨S_, .f32⟩
  | 103 => ⟨S16384x1, .f32⟩
  | 104 => ⟨S16384x1, .f32⟩
  | 105 => ⟨S16384x1, .f32⟩
  | 106 => ⟨S16384x1024, .f32⟩
  | 107 => ⟨S16384x1024, .f32⟩
  | 108 => ⟨S1x1024, .f32⟩
  | 109 => ⟨S16384x1024, .f32⟩
  | 110 => ⟨S16384x1024, .f32⟩
  | 111 => ⟨S1x1024, .f32⟩
  | 112 => ⟨S16384x1024, .f32⟩
  | 113 => ⟨S16384x1024, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S16384x1024, .f32⟩
  | 123 => ⟨S16384x1024, .f32⟩
  | 124 => ⟨S_, .f32⟩
  | 125 => ⟨S16384, .f32⟩
  | 126 => ⟨S16384x1, .f32⟩
  | 127 => ⟨S_, .f32⟩
  | _ => ⟨S16384x1536, .f32⟩

abbrev hbmTy0_1 (i : Nat) : BufTy := match i % 128 with
  | 0 => ⟨S16384x1, .f32⟩
  | 1 => ⟨S16384x1, .f32⟩
  | 2 => ⟨S16384x1024, .f32⟩
  | 3 => ⟨S16384x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x1024, .f32⟩
  | 12 => ⟨S16384x1024, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S1024x1024, .f32⟩
  | 33 => ⟨S16384x1024, .f32⟩
  | 34 => ⟨S1x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S1024x64, .f32⟩
  | 41 => ⟨S16384x64, .f32⟩
  | 42 => ⟨S1x64, .f32⟩
  | 43 => ⟨S16384x64, .f32⟩
  | 44 => ⟨S16384x64, .f32⟩
  | 45 => ⟨S16384x32, .f32⟩
  | 46 => ⟨S16384x32, .f32⟩
  | 47 => ⟨S_, .f32⟩
  | 48 => ⟨S16384x32, .f32⟩
  | 49 => ⟨S16384x32, .f32⟩
  | 50 => ⟨S16384x32, .f32⟩
  | 51 => ⟨S16384x32, .f32⟩
  | 52 => ⟨S16384x32, .i1⟩
  | 53 => ⟨S16384x32, .f32⟩
  | 54 => ⟨S16384x32, .f32⟩
  | 55 => ⟨S16384x32, .f32⟩
  | 56 => ⟨S16384x32, .f32⟩
  | 57 => ⟨S16384x32, .f32⟩
  | 58 => ⟨S16384x32, .f32⟩
  | 59 => ⟨S16384x32, .f32⟩
  | 60 => ⟨S16384x32, .f32⟩
  | 61 => ⟨S_, .f32⟩
  | 62 => ⟨S16384x32, .f32⟩
  | 63 => ⟨S16384x32, .f32⟩
  | 64 => ⟨S16384x2560, .f32⟩
  | 65 => ⟨S2560x1024, .f32⟩
  | 66 => ⟨S16384x1024, .f32⟩
  | 67 => ⟨S1x1024, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S1024x64, .f32⟩
  | 74 => ⟨S16384x64, .f32⟩
  | 75 => ⟨S1x64, .f32⟩
  | 76 => ⟨S16384x64, .f32⟩
  | 77 => ⟨S16384x64, .f32⟩
  | 78 => ⟨S16384x32, .f32⟩
  | 79 => ⟨S16384x32, .f32⟩
  | 80 => ⟨S_, .f32⟩
  | 81 => ⟨S16384x32, .f32⟩
  | 82 => ⟨S16384x32, .f32⟩
  | 83 => ⟨S16384x32, .f32⟩
  | 84 => ⟨S16384x32, .f32⟩
  | 85 => ⟨S16384x32, .i1⟩
  | 86 => ⟨S16384x32, .f32⟩
  | 87 => ⟨S16384x32, .f32⟩
  | 88 => ⟨S16384x32, .f32⟩
  | 89 => ⟨S16384x32, .f32⟩
  | 90 => ⟨S16384x32, .f32⟩
  | 91 => ⟨S16384x32, .f32⟩
  | 92 => ⟨S16384x32, .f32⟩
  | 93 => ⟨S16384x32, .f32⟩
  | 94 => ⟨S_, .f32⟩
  | 95 => ⟨S16384x32, .f32⟩
  | 96 => ⟨S16384x32, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call0_cst : Ref sig .tc := ⟨.hbm, 33, rfl⟩
abbrev main_call0_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_11 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_13 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_15 : Ref sig .tc := ⟨.hbm, 133, rfl⟩
abbrev main_v92 : Ref sig .tc := ⟨.hbm, 134, rfl⟩
abbrev main_v93 : Ref sig .tc := ⟨.hbm, 135, rfl⟩
abbrev main_cst_16 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_17 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_18 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_call1_cst : Ref sig .tc := ⟨.hbm, 165, rfl⟩
abbrev main_call1_v0 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_v8 : Ref sig .tc := ⟨.hbm, 184, rfl⟩
abbrev main_call2_v9 : Ref sig .tc := ⟨.hbm, 185, rfl⟩
abbrev main_call2_v10 : Ref sig .tc := ⟨.hbm, 186, rfl⟩
abbrev main_call2_v11 : Ref sig .tc := ⟨.hbm, 187, rfl⟩
abbrev main_v128 : Ref sig .tc := ⟨.hbm, 188, rfl⟩
abbrev main_cst_19 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_call3_cst : Ref sig .tc := ⟨.hbm, 198, rfl⟩
abbrev main_call3_v0 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_call4_cst : Ref sig .tc := ⟨.hbm, 208, rfl⟩
abbrev main_call4_v0 : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_call4_v11 : Ref sig .tc := ⟨.hbm, 220, rfl⟩
abbrev main_v145 : Ref sig .tc := ⟨.hbm, 221, rfl⟩
abbrev main_cst_20 : Ref sig .tc := ⟨.hbm, 222, rfl⟩
abbrev main_v146 : Ref sig .tc := ⟨.hbm, 223, rfl⟩
abbrev main_v147 : Ref sig .tc := ⟨.hbm, 224, rfl⟩

abbrev nD : Nat := 1
abbrev τ : Topo := Topo.v7x

variable {F : FTy → Type} [FloatOps F]

class Facts₀ : Prop where
  bcast_S16384x1_S16384x1024_0_1 : S16384x1.BroadcastsInDim S16384x1024 (![0, 1] : Fin 2 → Fin S16384x1024.rank)
  bcast_S16384x1_S16384x32_0_1 : S16384x1.BroadcastsInDim S16384x32 (![0, 1] : Fin 2 → Fin S16384x32.rank)
  concatenates_S16384x32_S16384x12_S16384x44_d1 : Shape.Concatenates [S16384x32, S16384x12] S16384x44 1
  transposes_S1024x44_S44x1024_1_0 : S1024x44.Transposes [1, 0] S44x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  transposes_S1024x1024_S1024x1024_1_0 : S1024x1024.Transposes [1, 0] S1024x1024
  transposes_S64x1024_S1024x64_1_0 : S64x1024.Transposes [1, 0] S1024x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S16384x64_S16384x32_0_0 : S16384x64.Slices ![0, 0] S16384x32
  slices_S16384x64_S16384x32_0_32 : S16384x64.Slices ![0, 32] S16384x32
  bcast_S_S16384x32 : S_.BroadcastsInDim S16384x32 (![] : Fin 0 → Fin S16384x32.rank)
  concatenates_S16384x1024_S16384x1536_S16384x2560_d1 : Shape.Concatenates [S16384x1024, S16384x1536] S16384x2560 1
  transposes_S1024x2560_S2560x1024_1_0 : S1024x2560.Transposes [1, 0] S2560x1024
  dot_S16384x44_S44x1024_S16384x1024_1_0_0_1_n_n_wf : DotDims.WF S16384x44 S44x1024 S16384x1024 [1] [0] [0] [1] [] []
  dot_S16384x1024_S1024x3072_S16384x3072_1_0_0_1_n_n_wf : DotDims.WF S16384x1024 S1024x3072 S16384x3072 [1] [0] [0] [1] [] []
  dot_S16384x1024_S1024x1024_S16384x1024_1_0_0_1_n_n_wf : DotDims.WF S16384x1024 S1024x1024 S16384x1024 [1] [0] [0] [1] [] []
  dot_S16384x1024_S1024x64_S16384x64_1_0_0_1_n_n_wf : DotDims.WF S16384x1024 S1024x64 S16384x64 [1] [0] [0] [1] [] []
  dot_S16384x2560_S2560x1024_S16384x1024_1_0_0_1_n_n_wf : DotDims.WF S16384x2560 S2560x1024 S16384x1024 [1] [0] [0] [1] [] []

variable [Facts₀]

def dot_S16384x44_S44x1024_S16384x1024_1_0_0_1_n_n : DotDims S16384x44 S44x1024 S16384x1024 where
  lhsContracting := [1]
  rhsContracting := [0]
  lhsNonContracting := [0]
  rhsNonContracting := [1]
  lhsBatch := []
  rhsBatch := []
  wf := dot_S16384x44_S44x1024_S16384x1024_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x2560_S2560x1024_S16384x1024_1_0_0_1_n_n : DotDims S16384x2560 S2560x1024 S16384x1024 where
  lhsContracting := [1]
  rhsContracting := [0]
  lhsNonContracting := [0]
  rhsNonContracting := [1]
  lhsBatch := []
  rhsBatch := []
  wf := dot_S16384x2560_S2560x1024_S16384x1024_1_0_0_1_n_n_wf

class Facts : Prop extends Facts₀ where

variable [Facts]
-- ==== Proof.BlockRead.lean ====
/-
  The kernel's input blocks as entries of the argument arrays, at the ideal instance.

  At grid point t the five batch inputs are staged as their rows 512 t … 512 t + 511, so entry (p, k) of such a block
  is entry (512 t + p, k) of the argument. Every other input is staged whole at every point. Nine of those are weight
  arrays the program prepares before the region: a weight argument transposed, its format changed (the identity on
  extended reals) and, for the two weights applied to joined lanes, cut in two along the contracted axis; so entry
  (i, k) of such a block is entry (k, i) of the weight argument, shifted by the cut's offset.
-/
import proofs.«111823_j61529701482720_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.BlockRead

open Cert.KernelIdeal Cert.KernelIdeal.Gen

variable (m : (ℓ : Loc nD τ sig) → Buf (Elt Ideal) ℓ)

/-- Row p of the block of point t is row 512 t + p of the batch. -/
def row (t : Fin cfg0.N) (p : Fin 512) : Fin 16384 :=
  ⟨512 * t.val + p.val, by have := t.isLt; have hN : cfg0.N = 32 := N_0; have := p.isLt; omega⟩

theorem row_val (t : Fin cfg0.N) (p : Fin 512) : (row t p).val = 512 * t.val + p.val := rfl

/-- The batch windows' block index is the point itself on the row axis and 0 on the lane axis. -/
theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_25.index t (0 : Fin 2) = t.val ∧ win0_25.index t (1 : Fin 2) = 0
    ∧ win0_26.index t (0 : Fin 2) = t.val ∧ win0_26.index t (1 : Fin 2) = 0 :=
  (by decide +kernel : ∀ t : Fin grid0.N, _)

/-- The embedding block of point t, entry (p, k). -/
theorem iblk0_apply (c : Dev nD) (t : Fin cfg0.N) (p : Fin 512) (k : Fin 1536) :
    (iblk m c 0 t : Vec Ideal S512x1536 .f32) (ix2 p k)
      = (m ((c : Thread nD τ).loc main_arg0) : S16384x1536.Idx → EReal) (ix2 (row t p) k) := by
  obtain ⟨e0, e1, -⟩ := idx_batch t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1536 + 1 * k.val = k.val; rw [e1]; omega

/-- Block 1 of point t, entry (p, k): row 512 t + p of its argument. -/
theorem iblk1_apply (c : Dev nD) (t : Fin cfg0.N) (p : Fin 512) (k : Fin 12) :
    (iblk m c 1 t : Vec Ideal S512x12 .f32) (ix2 p k)
      = (m ((c : Thread nD τ).loc main_arg1) : S16384x12.Idx → EReal) (ix2 (row t p) k) := by
  obtain ⟨-, -, e0, e1, -⟩ := idx_batch t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 12 + 1 * k.val = k.val; rw [e1]; omega

/-- Block 2 of point t, entry (p, k): row 512 t + p of its argument. -/
theorem iblk2_apply (c : Dev nD) (t : Fin cfg0.N) (p : Fin 512) (k : Fin 1) :
    (iblk m c 2 t : Vec Ideal S512x1 .f32) (ix2 p k)
      = (m ((c : Thread nD τ).loc main_arg2) : S16384x1.Idx → EReal) (ix2 (row t p) k) := by
  obtain ⟨-, -, -, -, e0, e1, -⟩ := idx_batch t
  unfold iblk
  rw [View.read_apply]
  show V m c main_arg2 _ = _
  rw [V_main_arg2]
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1 + 1 * k.val = k.val; rw [e1]; omega

/-- Block 3 of point t, entry (p, k): row 512 t + p of its argument. -/
theorem iblk3_apply (c : Dev nD) (t : Fin cfg0.N) (p : Fin 512) (k : Fin 1024) :
    (iblk m c 3 t : Vec Ideal S512x1024 .f32) (ix2 p k)
      = (m ((c : Thread nD τ).loc main_arg3) : S16384x1024.Idx → EReal) (ix2 (row t p) k) := by
  obtain ⟨-, -, -, -, -, -, e0, e1, -⟩ := idx_batch t
  unfold iblk
  rw [View.read_apply]
  show V m c main_arg3 _ = _
  rw [V_main_arg3]
  refine congrArg _ (funext fun a => Fin.ext ?_)
  match a with
  | ⟨0, _⟩ => show win0_3.index t (0 : Fin 2) * 512 + 1 * p.val = 512 * t.val + p.val; rw [e0]; omega
  | ⟨1, _⟩ => show win0_3.index t (1 : Fin 2) * 1024 + 1 * k.val = k.val; rw [e1]; omega

/-- Block 4 of point t, entry (p, k): row 512 t + p of its argument. -/
theorem iblk4_apply (c : Dev nD) (t : Fin cfg0.N) (p : Fin 512) (k : Fin 32) :
    (iblk m c 4 t : Vec Ideal S512x32 .f32) (ix2 p k)
      = (m ((c : Thread nD τ).loc main_arg4) : S16384x32.Idx → EReal) (ix2 (row t p) k) := by
  obtain ⟨-, -, -, -, -, -, -, -, e0, e1, -⟩ := idx_batch t
  unfold iblk
  rw [View.read_apply]
  show V m c main_arg4 _ = _
  rw [V_main_arg4]
  refine congrArg _ (funext fun a => Fin.ext ?_)
  match a with
  | ⟨0, _⟩ => show win0_4.index t (0 : Fin 2) * 512 + 1 * p.val = 512 * t.val + p.val; rw [e0]; omega
  | ⟨1, _⟩ => show win0_4.index t (1 : Fin 2) * 32 + 1 * k.val = k.val; rw [e1]; omega

/-- The windows staged whole have block index 0 on every axis, at every point. -/
theorem idx_vec : ∀ t : Fin cfg0.N,
    win0_7.index t (0 : Fin 1) = 0
    ∧ win0_10.index t (0 : Fin 1) = 0
    ∧ win0_11.index t (0 : Fin 1) = 0
    ∧ win0_12.index t (0 : Fin 1) = 0
    ∧ win0_13.index t (0 : Fin 1) = 0
    ∧ win0_14.index t (0 : Fin 1) = 0
    ∧ win0_15.index t (0 : Fin 1) = 0
    ∧ win0_17.index t (0 : Fin 1) = 0
    ∧ win0_19.index t (0 : Fin 1) = 0
    ∧ win0_22.index t (0 : Fin 1) = 0
    ∧ win0_24.index t (0 : Fin 1) = 0 :=
  (by decide +kernel : ∀ t : Fin grid0.N, _)

/-- Block 7 is its whole argument, at every point. -/
theorem iblk7_apply (c : Dev nD) (t : Fin cfg0.N) (k : Fin 1024) :
    (iblk m c 7 t : Vec Ideal S1024 .f32) (ix1 k) = (m ((c : Thread nD τ).loc main_arg6) : S1024.Idx → EReal) (ix1 k) := by
  obtain ⟨e0, -⟩ := idx_vec t
  unfold iblk
  rw [View.read_apply]
  show V m c main_arg6 _ = _
  rw [V_main_arg6]
  refine congrArg _ (funext fun a => Fin.ext ?_)
  match a with
  | ⟨0, _⟩ => show win0_7.index t (0 : Fin 1) * 1024 + 1 * k.val = k.val; rw [e0]; omega

/-- Block 10 is its whole argument, at every point. -/
theorem iblk10_apply (c : Dev nD) (t : Fin cfg0.N) (k : Fin 1024) :
    (iblk m c 10 t : Vec Ideal S1024 .f32) (ix1 k) = (m ((c : Thread nD τ).loc main_arg9) : S1024.Idx → EReal) (ix1 k) := by
  obtain ⟨-, e0, -⟩ := idx_vec t
  unfold iblk
  rw [View.read_apply]
  show V m c main_arg9 _ = _
  rw [V_main_arg9]
  refine congrArg _ (funext fun a => Fin.ext ?_)
  match a with
  | ⟨0, _⟩ => show win0_10.index t (0 : Fin 1) * 1024 + 1 * k.val = k.val; rw [e0]; omega

/-- Block 11 is its whole argument, at every point. -/
theorem iblk11_apply (c : Dev nD) (t : Fin cfg0.N) (k : Fin 1024) :
    (iblk m c 11 t : Vec Ideal S1024 .f32) (ix1 k) = (m ((c : Thread nD τ).loc main_arg10) : S1024.Idx → EReal) (ix1 k) := by
  obtain ⟨-, -, e0, -⟩ := idx_vec t
  unfold iblk
  rw [View.read_apply]
  show V m c main_arg10 _ = _
  rw [V_main_arg10]
  refine congrArg _ (funext fun a => Fin.ext ?_)
  match a with
  | ⟨0, _⟩ => show win0_11.index t (0 : Fin 1) * 1024 + 1 * k.val = k.val; rw [e0]; omega

/-- Block 12 is its whole argument, at every point. -/
theorem iblk12_apply (c : Dev nD) (t : Fin cfg0.N) (k : Fin 1024) :
    (iblk m c 12 t : Vec Ideal S1024 .f32) (ix1 k) = (m ((c : Thread nD τ).loc main_arg11) : S1024.Idx → EReal) (ix1 k) := by
  obtain ⟨-, -, -, e0, -⟩ := idx_vec t
  unfold iblk
  rw [View.read_apply]
  show V m c main_arg11 _ = _
  rw [V_main_arg11]
  refine congrArg _ (funext fun a => Fin.ext ?_)
  match a with
  | ⟨0, _⟩ => show win0_12.index t (0 : Fin 1) * 1024 + 1 * k.val = k.val; rw [e0]; omega

/-- Block 13 is its whole argument, at every point. -/
theorem iblk13_apply (c : Dev nD) (t : Fin cfg0.N) (k : Fin 1024) :
    (iblk m c 13 t : Vec Ideal S1024 .f32) (ix1 k) = (m ((c : Thread nD τ).loc main_arg12) : S1024.Idx → EReal) (ix1 k) := by
  obtain ⟨-, -, -, -, e0, -⟩ := idx_vec t
  unfold iblk
  rw [View.read_apply]
  show V m c main_arg12 _ = _
  rw [V_main_arg12]
  refine congrArg _ (funext fun a => Fin.ext ?_)
  match a with
  | ⟨0, _⟩ => show win0_13.index t (0 : Fin 1) * 1024 + 1 * k.val = k.val; rw [e0]; omega

/-- Block 14 is its whole argument, at every point. -/
theorem iblk14_apply (c : Dev nD) (t : Fin cfg0.N) (k : Fin 1024) :
    (iblk m c 14 t : Vec Ideal S1024 .f32) (ix1 k) = (m ((c : Thread nD τ).loc main_arg13) : S1024.Idx → EReal) (ix1 k) := by
  obtain ⟨-, -, -, -, -, e0, -⟩ := idx_vec t
  unfold iblk
  rw [View.read_apply]
  show V m c main_arg13 _ = _
  rw [V_main_arg13]
  refine congrArg _ (funext fun a => Fin.ext ?_)
  match a with
  | ⟨0, _⟩ => show win0_14.index t (0 : Fin 1) * 1024 + 1 * k.val = k.val; rw [e0]; omega

/-- Block 15 is its whole argument, at every point. -/
theorem iblk15_apply (c : Dev nD) (t : Fin cfg0.N) (k : Fin 1024) :
    (iblk m c 15 t : Vec Ideal S1024 .f32) (ix1 k) = (m ((c : Thread nD τ).loc main_arg14) : S1024.Idx → EReal) (ix1 k) := by
  obtain ⟨-, -, -, -, -, -, e0, -⟩ := idx_vec t
  unfold iblk
  rw [View.read_apply]
  show V m c main_arg14 _ = _
  rw [V_main_arg14]
  refine congrArg _ (funext fun a => Fin.ext ?_)
  match a with
  | ⟨0, _⟩ => show win0_15.index t (0 : Fin 1) * 1024 + 1 * k.val = k.val; rw [e0]; omega

/-- Block 17 is its whole argument, at every point. -/
theorem iblk17_apply (c : Dev nD) (t : Fin cfg0.N) (k : Fin 1024) :
    (iblk m c 17 t : Vec Ideal S1024 .f32) (ix1 k) = (m ((c : Thread nD τ).loc main_arg16) : S1024.Idx → EReal) (ix1 k) := by
  obtain ⟨-, -, -, -, -, -, -, e0, -⟩ := idx_vec t
  unfold iblk
  rw [View.read_apply]
  show V m c main_arg16 _ = _
  rw [V_main_arg16]
  refine congrArg _ (funext fun a => Fin.ext ?_)
  match a with
  | ⟨0, _⟩ => show win0_17.index t (0 : Fin 1) * 1024 + 1 * k.val = k.val; rw [e0]; omega

/-- Block 19 is its whole argument, at every point. -/
theorem iblk19_apply (c : Dev nD) (t : Fin cfg0.N) (k : Fin 64) :
    (iblk m c 19 t : Vec Ideal S64 .f32) (ix1 k) = (m ((c : Thread nD τ).loc main_arg18) : S64.Idx → EReal) (ix1 k) := by
  obtain ⟨-, -, -, -, -, -, -, -, e0, -⟩ := idx_vec t
  unfold iblk
  rw [View.read_apply]
  show V m c main_arg18 _ = _
  rw [V_main_arg18]
  refine congrArg _ (funext fun a => Fin.ext ?_)
  match a with
  | ⟨0, _⟩ => show win0_19.index t (0 : Fin 1) * 64 + 1 * k.val = k.val; rw [e0]; omega

/-- Block 22 is its whole argument, at every point. -/
theorem iblk22_apply (c : Dev nD) (t : Fin cfg0.N) (k : Fin 1024) :
    (iblk m c 22 t : Vec Ideal S1024 .f32) (ix1 k) = (m ((c : Thread nD τ).loc main_arg20) : S1024.Idx → EReal) (ix1 k) := by
  obtain ⟨-, -, -, -, -, -, -, -, -, e0, -⟩ := idx_vec t
  unfold iblk
  rw [View.read_apply]
  show V m c main_arg20 _ = _
  rw [V_main_arg20]
  refine congrArg _ (funext fun a => Fin.ext ?_)
  match a with
  | ⟨0, _⟩ => show win0_22.index t (0 : Fin 1) * 1024 + 1 * k.val = k.val; rw [e0]; omega

/-- Block 24 is its whole argument, at every point. -/
theorem iblk24_apply (c : Dev nD) (t : Fin cfg0.N) (k : Fin 64) :
    (iblk m c 24 t : Vec Ideal S64 .f32) (ix1 k) = (m ((c : Thread nD τ).loc main_arg22) : S64.Idx → EReal) (ix1 k) := by
  obtain ⟨-, -, -, -, -, -, -, -, -, -, e0⟩ := idx_vec t
  unfold iblk
  rw [View.read_apply]
  show V m c main_arg22 _ = _
  rw [V_main_arg22]
  refine congrArg _ (funext fun a => Fin.ext ?_)
  match a with
  | ⟨0, _⟩ => show win0_24.index t (0 : Fin 1) * 64 + 1 * k.val = k.val; rw [e0]; omega

/-- The weight windows are staged whole too: block index 0 on both axes, at every point. -/
theorem idx_wt : ∀ t : Fin cfg0.N,
    win0_5.index t (0 : Fin 2) = 0 ∧ win0_5.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_16.index t (0 : Fin 2) = 0 ∧ win0_16.index t (1 : Fin 2) = 0
    ∧ win0_18.index t (0 : Fin 2) = 0 ∧ win0_18.index t (1 : Fin 2) = 0
    ∧ win0_20.index t (0 : Fin 2) = 0 ∧ win0_20.index t (1 : Fin 2) = 0
    ∧ win0_21.index t (0 : Fin 2) = 0 ∧ win0_21.index t (1 : Fin 2) = 0
    ∧ win0_23.index t (0 : Fin 2) = 0 ∧ win0_23.index t (1 : Fin 2) = 0 :=
  (by decide +kernel : ∀ t : Fin grid0.N, _)

/-- What the program leaves in the weight array of window 5 before the region. -/
theorem V_main_v2 (c : Dev nD) : (V m c main_v2 : FVec Ideal S32x1024 .bf16) = (extractStridedSlice S32x1024 ![0, 0] (truncf (F := Ideal) .bf16 (transpose S44x1024 [1, 0] (m ((c : Thread nD τ).loc main_arg5)) transposes_S1024x44_S44x1024_1_0 : FVec Ideal S44x1024 .f32) bitsLt_bf16_f32) slices_S44x1024_S32x1024_0_0 : FVec Ideal S32x1024 .bf16) := by
  show StableHlo.after hostOps0 (fun b => m (c, b)) (Proc.devRef .tc main_v2) = _
  after_results

/-- Block 5, entry (i, k): the weight argument at the swapped index. -/
theorem iblk5_apply (c : Dev nD) (t : Fin cfg0.N) (i : Fin 32) (k : Fin 1024) :
    (iblk m c 5 t : Vec Ideal S32x1024 .bf16) (ix2 i k)
      = (m ((c : Thread nD τ).loc main_arg5) : S1024x44.Idx → EReal) (ix2 k (⟨i.val, by have := i.isLt; omega⟩ : Fin 44)) := by
  obtain ⟨e0, e1, -⟩ := idx_wt t
  unfold iblk
  rw [View.read_apply]
  show V m c main_v2 _ = _
  rw [V_main_v2]
  refine (extractStridedSlice_apply _ _ slices_S44x1024_S32x1024_0_0 _ (ix2 (⟨i.val, by have := i.isLt; omega⟩ : Fin 44) k) (fun a => ?_)).trans ?_
  · match a with
    | ⟨0, _⟩ => show i.val = 0 + (win0_5.index t (0 : Fin 2) * 32 + 1 * i.val); rw [e0]; omega
    | ⟨1, _⟩ => show k.val = 0 + (win0_5.index t (1 : Fin 2) * 1024 + 1 * k.val); rw [e1]; omega
  · exact transpose_apply [1, 0] _ transposes_S1024x44_S44x1024_1_0 _ _ (fun b => match b with | ⟨0, _⟩ => rfl | ⟨1, _⟩ => rfl)

/-- What the program leaves in the weight array of window 6 before the region. -/
theorem V_main_v3 (c : Dev nD) : (V m c main_v3 : FVec Ideal S12x1024 .bf16) = (extractStridedSlice S12x1024 ![32, 0] (truncf (F := Ideal) .bf16 (transpose S44x1024 [1, 0] (m ((c : Thread nD τ).loc main_arg5)) transposes_S1024x44_S44x1024_1_0 : FVec Ideal S44x1024 .f32) bitsLt_bf16_f32) slices_S44x1024_S12x1024_32_0 : FVec Ideal S12x1024 .bf16) := by
  show StableHlo.after hostOps0 (fun b => m (c, b)) (Proc.devRef .tc main_v3) = _
  after_results

/-- Block 6, entry (i, k): the weight argument at the swapped index, past the cut's offset. -/
theorem iblk6_apply (c : Dev nD) (t : Fin cfg0.N) (i : Fin 12) (k : Fin 1024) :
    (iblk m c 6 t : Vec Ideal S12x1024 .bf16) (ix2 i k)
      = (m ((c : Thread nD τ).loc main_arg5) : S1024x44.Idx → EReal) (ix2 k (⟨32 + i.val, by have := i.isLt; omega⟩ : Fin 44)) := by
  obtain ⟨-, -, e0, e1, -⟩ := idx_wt t
  unfold iblk
  rw [View.read_apply]
  show V m c main_v3 _ = _
  rw [V_main_v3]
  refine (extractStridedSlice_apply _ _ slices_S44x1024_S12x1024_32_0 _ (ix2 (⟨32 + i.val, by have := i.isLt; omega⟩ : Fin 44) k) (fun a => ?_)).trans ?_
  · match a with
    | ⟨0, _⟩ => show 32 + i.val = 32 + (win0_6.index t (0 : Fin 2) * 12 + 1 * i.val); rw [e0]; omega
    | ⟨1, _⟩ => show k.val = 0 + (win0_6.index t (1 : Fin 2) * 1024 + 1 * k.val); rw [e1]; omega
  · exact transpose_apply [1, 0] _ transposes_S1024x44_S44x1024_1_0 _ _ (fun b => match b with | ⟨0, _⟩ => rfl | ⟨1, _⟩ => rfl)

/-- What the program leaves in the weight array of window 8 before the region. -/
theorem V_main_v5 (c : Dev nD) : (V m c main_v5 : FVec Ideal S1024x3072 .bf16) = (truncf (F := Ideal) .bf16 (transpose S1024x3072 [1, 0] (m ((c : Thread nD τ).loc main_arg7)) transposes_S3072x1024_S1024x3072_1_0 : FVec Ideal S1024x3072 .f32) bitsLt_bf16_f32 : FVec Ideal S1024x3072 .bf16) := by
  show StableHlo.after hostOps0 (fun b => m (c, b)) (Proc.devRef .tc main_v5) = _
  after_results

/-- Block 8, entry (i, k): the weight argument at the swapped index. -/
theorem iblk8_apply (c : Dev nD) (t : Fin cfg0.N) (i : Fin 1024) (k : Fin 3072) :
    (iblk m c 8 t : Vec Ideal S1024x3072 .bf16) (ix2 i k)
      = (m ((c : Thread nD τ).loc main_arg7) : S3072x1024.Idx → EReal) (ix2 k i) := by
  obtain ⟨-, -, -, -, e0, e1, -⟩ := idx_wt t
  unfold iblk
  rw [View.read_apply]
  show V m c main_v5 _ = _
  rw [V_main_v5]
  have hy : (((cfg0.win 8).blk t).view.emb (ix2 i k) : S1024x3072.Idx) = ix2 i k := funext fun a => Fin.ext (by
    match a with
    | ⟨0, _⟩ => show win0_8.index t (0 : Fin 2) * 1024 + 1 * i.val = i.val; rw [e0]; omega
    | ⟨1, _⟩ => show win0_8.index t (1 : Fin 2) * 3072 + 1 * k.val = k.val; rw [e1]; omega)
  rw [hy]
  exact transpose_apply [1, 0] _ transposes_S3072x1024_S1024x3072_1_0 _ _ (fun b => match b with | ⟨0, _⟩ => rfl | ⟨1, _⟩ => rfl)

/-- What the program leaves in the weight array of window 9 before the region. -/
theorem V_main_v7 (c : Dev nD) : (V m c main_v7 : FVec Ideal S1024x3072 .bf16) = (truncf (F := Ideal) .bf16 (transpose S1024x3072 [1, 0] (m ((c : Thread nD τ).loc main_arg8)) transposes_S3072x1024_S1024x3072_1_0 : FVec Ideal S1024x3072 .f32) bitsLt_bf16_f32 : FVec Ideal S1024x3072 .bf16) := by
  show StableHlo.after hostOps0 (fun b => m (c, b)) (Proc.devRef .tc main_v7) = _
  after_results

/-- Block 9, entry (i, k): the weight argument at the swapped index. -/
theorem iblk9_apply (c : Dev nD) (t : Fin cfg0.N) (i : Fin 1024) (k : Fin 3072) :
    (iblk m c 9 t : Vec Ideal S1024x3072 .bf16) (ix2 i k)
      = (m ((c : Thread nD τ).loc main_arg8) : S3072x1024.Idx → EReal) (ix2 k i) := by
  obtain ⟨-, -, -, -, -, -, e0, e1, -⟩ := idx_wt t
  unfold iblk
  rw [View.read_apply]
  show V m c main_v7 _ = _
  rw [V_main_v7]
  have hy : (((cfg0.win 9).blk t).view.emb (ix2 i k) : S1024x3072.Idx) = ix2 i k := funext fun a => Fin.ext (by
    match a with
    | ⟨0, _⟩ => show win0_9.index t (0 : Fin 2) * 1024 + 1 * i.val = i.val; rw [e0]; omega
    | ⟨1, _⟩ => show win0_9.index t (1 : Fin 2) * 3072 + 1 * k.val = k.val; rw [e1]; omega)
  rw [hy]
  exact transpose_apply [1, 0] _ transposes_S3072x1024_S1024x3072_1_0 _ _ (fun b => match b with | ⟨0, _⟩ => rfl | ⟨1, _⟩ => rfl)

/-- What the program leaves in the weight array of window 16 before the region. -/
theorem V_main_v9 (c : Dev nD) : (V m c main_v9 : FVec Ideal S1024x1024 .bf16) = (truncf (F := Ideal) .bf16 (transpose S1024x1024 [1, 0] (m ((c : Thread nD τ).loc main_arg15)) transposes_S1024x1024_S1024x1024_1_0 : FVec Ideal S1024x1024 .f32) bitsLt_bf16_f32 : FVec Ideal S1024x1024 .bf16) := by
  show StableHlo.after hostOps0 (fun b => m (c, b)) (Proc.devRef .tc main_v9) = _
  after_results

/-- Block 16, entry (i, k): the weight argument at the swapped index. -/
theorem iblk16_apply (c : Dev nD) (t : Fin cfg0.N) (i : Fin 1024) (k : Fin 1024) :
    (iblk m c 16 t : Vec Ideal S1024x1024 .bf16) (ix2 i k)
      = (m ((c : Thread nD τ).loc main_arg15) : S1024x1024.Idx → EReal) (ix2 k i) := by
  obtain ⟨-, -, -, -, -, -, -, -, e0, e1, -⟩ := idx_wt t
  unfold iblk
  rw [View.read_apply]
  show V m c main_v9 _ = _
  rw [V_main_v9]
  have hy : (((cfg0.win 16).blk t).view.emb (ix2 i k) : S1024x1024.Idx) = ix2 i k := funext fun a => Fin.ext (by
    match a with
    | ⟨0, _⟩ => show win0_16.index t (0 : Fin 2) * 1024 + 1 * i.val = i.val; rw [e0]; omega
    | ⟨1, _⟩ => show win0_16.index t (1 : Fin 2) * 1024 + 1 * k.val = k.val; rw [e1]; omega)
  rw [hy]
  exact transpose_apply [1, 0] _ transposes_S1024x1024_S1024x1024_1_0 _ _ (fun b => match b with | ⟨0, _⟩ => rfl | ⟨1, _⟩ => rfl)

/-- What the program leaves in the weight array of window 18 before the region. -/
theorem V_main_v11 (c : Dev nD) : (V m c main_v11 : FVec Ideal S1024x64 .bf16) = (truncf (F := Ideal) .bf16 (transpose S1024x64 [1, 0] (m ((c : Thread nD τ).loc main_arg17)) transposes_S64x1024_S1024x64_1_0 : FVec Ideal S1024x64 .f32) bitsLt_bf16_f32 : FVec Ideal S1024x64 .bf16) := by
  show StableHlo.after hostOps0 (fun b => m (c, b)) (Proc.devRef .tc main_v11) = _
  after_results

/-- Block 18, entry (i, k): the weight argument at the swapped index. -/
theorem iblk18_apply (c : Dev nD) (t : Fin cfg0.N) (i : Fin 1024) (k : Fin 64) :
    (iblk m c 18 t : Vec Ideal S1024x64 .bf16) (ix2 i k)
      = (m ((c : Thread nD τ).loc main_arg17) : S64x1024.Idx → EReal) (ix2 k i) := by
  obtain ⟨-, -, -, -, -, -, -, -, -, -, e0, e1, -⟩ := idx_wt t
  unfold iblk
  rw [View.read_apply]
  show V m c main_v11 _ = _
  rw [V_main_v11]
  have hy : (((cfg0.win 18).blk t).view.emb (ix2 i k) : S1024x64.Idx) = ix2 i k := funext fun a => Fin.ext (by
    match a with
    | ⟨0, _⟩ => show win0_18.index t (0 : Fin 2) * 1024 + 1 * i.val = i.val; rw [e0]; omega
    | ⟨1, _⟩ => show win0_18.index t (1 : Fin 2) * 64 + 1 * k.val = k.val; rw [e1]; omega)
  rw [hy]
  exact transpose_apply [1, 0] _ transposes_S64x1024_S1024x64_1_0 _ _ (fun b => match b with | ⟨0, _⟩ => rfl | ⟨1, _⟩ => rfl)

/-- What the program leaves in the weight array of window 20 before the region. -/
theorem V_main_v14 (c : Dev nD) : (V m c main_v14 : FVec Ideal S1024x1024 .bf16) = (extractStridedSlice S1024x1024 ![0, 0] (truncf (F := Ideal) .bf16 (transpose S2560x1024 [1, 0] (m ((c : Thread nD τ).loc main_arg19)) transposes_S1024x2560_S2560x1024_1_0 : FVec Ideal S2560x1024 .f32) bitsLt_bf16_f32) slices_S2560x1024_S1024x1024_0_0 : FVec Ideal S1024x1024 .bf16) := by
  show StableHlo.after hostOps0 (fun b => m (c, b)) (Proc.devRef .tc main_v14) = _
  after_results

/-- Block 20, entry (i, k): the weight argument at the swapped index. -/
theorem iblk20_apply (c : Dev nD) (t : Fin cfg0.N) (i : Fin 1024) (k : Fin 1024) :
    (iblk m c 20 t : Vec Ideal S1024x1024 .bf16) (ix2 i k)
      = (m ((c : Thread nD τ).loc main_arg19) : S1024x2560.Idx → EReal) (ix2 k (⟨i.val, by have := i.isLt; omega⟩ : Fin 2560)) := by
  obtain ⟨-, -, -, -, -, -, -, -, -, -, -, -, e0, e1, -⟩ := idx_wt t
  unfold iblk
  rw [View.read_apply]
  show V m c main_v14 _ = _
  rw [V_main_v14]
  refine (extractStridedSlice_apply _ _ slices_S2560x1024_S1024x1024_0_0 _ (ix2 (⟨i.val, by have := i.isLt; omega⟩ : Fin 2560) k) (fun a => ?_)).trans ?_
  · match a with
    | ⟨0, _⟩ => show i.val = 0 + (win0_20.index t (0 : Fin 2) * 1024 + 1 * i.val); rw [e0]; omega
    | ⟨1, _⟩ => show k.val = 0 + (win0_20.index t (1 : Fin 2) * 1024 + 1 * k.val); rw [e1]; omega
  · exact transpose_apply [1, 0] _ transposes_S1024x2560_S2560x1024_1_0 _ _ (fun b => match b with | ⟨0, _⟩ => rfl | ⟨1, _⟩ => rfl)

/-- What the program leaves in the weight array of window 21 before the region. -/
theorem V_main_v15 (c : Dev nD) : (V m c main_v15 : FVec Ideal S1536x1024 .bf16) = (extractStridedSlice S1536x1024 ![1024, 0] (truncf (F := Ideal) .bf16 (transpose S2560x1024 [1, 0] (m ((c : Thread nD τ).loc main_arg19)) transposes_S1024x2560_S2560x1024_1_0 : FVec Ideal S2560x1024 .f32) bitsLt_bf16_f32) slices_S2560x1024_S1536x1024_1024_0 : FVec Ideal S1536x1024 .bf16) := by
  show StableHlo.after hostOps0 (fun b => m (c, b)) (Proc.devRef .tc main_v15) = _
  after_results

/-- Block 21, entry (i, k): the weight argument at the swapped index, past the cut's offset. -/
theorem iblk21_apply (c : Dev nD) (t : Fin cfg0.N) (i : Fin 1536) (k : Fin 1024) :
    (iblk m c 21 t : Vec Ideal S1536x1024 .bf16) (ix2 i k)
      = (m ((c : Thread nD τ).loc main_arg19) : S1024x2560.Idx → EReal) (ix2 k (⟨1024 + i.val, by have := i.isLt; omega⟩ : Fin 2560)) := by
  obtain ⟨-, -, -, -, -, -, -, -, -, -, -, -, -, -, e0, e1, -⟩ := idx_wt t
  unfold iblk
  rw [View.read_apply]
  show V m c main_v15 _ = _
  rw [V_main_v15]
  refine (extractStridedSlice_apply _ _ slices_S2560x1024_S1536x1024_1024_0 _ (ix2 (⟨1024 + i.val, by have := i.isLt; omega⟩ : Fin 2560) k) (fun a => ?_)).trans ?_
  · match a with
    | ⟨0, _⟩ => show 1024 + i.val = 1024 + (win0_21.index t (0 : Fin 2) * 1536 + 1 * i.val); rw [e0]; omega
    | ⟨1, _⟩ => show k.val = 0 + (win0_21.index t (1 : Fin 2) * 1024 + 1 * k.val); rw [e1]; omega
  · exact transpose_apply [1, 0] _ transposes_S1024x2560_S2560x1024_1_0 _ _ (fun b => match b with | ⟨0, _⟩ => rfl | ⟨1, _⟩ => rfl)

/-- What the program leaves in the weight array of window 23 before the region. -/
theorem V_main_v17 (c : Dev nD) : (V m c main_v17 : FVec Ideal S1024x64 .bf16) = (truncf (F := Ideal) .bf16 (transpose S1024x64 [1, 0] (m ((c : Thread nD τ).loc main_arg21)) transposes_S64x1024_S1024x64_1_0 : FVec Ideal S1024x64 .f32) bitsLt_bf16_f32 : FVec Ideal S1024x64 .bf16) := by
  show StableHlo.after hostOps0 (fun b => m (c, b)) (Proc.devRef .tc main_v17) = _
  after_results

/-- Block 23, entry (i, k): the weight argument at the swapped index. -/
theorem iblk23_apply (c : Dev nD) (t : Fin cfg0.N) (i : Fin 1024) (k : Fin 64) :
    (iblk m c 23 t : Vec Ideal S1024x64 .bf16) (ix2 i k)
      = (m ((c : Thread nD τ).loc main_arg21) : S64x1024.Idx → EReal) (ix2 k i) := by
  obtain ⟨-, -, -, -, -, -, -, -, -, -, -, -, -, -, -, -, e0, e1⟩ := idx_wt t
  unfold iblk
  rw [View.read_apply]
  show V m c main_v17 _ = _
  rw [V_main_v17]
  have hy : (((cfg0.win 23).blk t).view.emb (ix2 i k) : S1024x64.Idx) = ix2 i k := funext fun a => Fin.ext (by
    match a with
    | ⟨0, _⟩ => show win0_23.index t (0 : Fin 2) * 1024 + 1 * i.val = i.val; rw [e0]; omega
    | ⟨1, _⟩ => show win0_23.index t (1 : Fin 2) * 64 + 1 * k.val = k.val; rw [e1]; omega)
  rw [hy]
  exact transpose_apply [1, 0] _ transposes_S64x1024_S1024x64_1_0 _ _ (fun b => match b with | ⟨0, _⟩ => rfl | ⟨1, _⟩ => rfl)

end Cert.KernelIdeal.BlockRead

end
-- ==== Proof.JoinBase.lean ====
/-
  The body's composite values over arbitrary blocks, and what it means for a family of blocks to be one row block of the
  arguments.

  The body's new-state value, its prior hidden product and its packed value are compositions of the body's payloads; they
  are named here over blocks that are variables. A family of blocks agrees with the arguments along a row map ρ when each
  batch block's row p is the argument's row ρ p, each bias or gain block is its argument, and each weight block is its
  weight argument read at the swapped index (past the offset 32 or 1024 for the second part of a weight that multiplies
  joined lanes).
-/
import proofs.«111823_j61529701482720_2_alg».proof.Proof.Gen.KernelIdeal.Skeleton
import proofs.«111823_j61529701482720_2_alg».proof.Proof.RefRead
import Idealize.ShloMosaic.Lib.ValueIdx

set_option maxRecDepth 16384

noncomputable section

open Idealize.ShloMosaic Idealize.ShloMosaic.ValueIdx

namespace Cert.Join

open Cert.KernelIdeal Cert.KernelIdeal.Gen

variable (b0 : Vec Ideal S512x1536 .f32) (b1 : Vec Ideal S512x12 .f32) (b2 : Vec Ideal S512x1 .f32) (b3 : Vec Ideal S512x1024 .f32) (b4 : Vec Ideal S512x32 .f32) (b5 : Vec Ideal S32x1024 .bf16) (b6 : Vec Ideal S12x1024 .bf16) (b7 : Vec Ideal S1024 .f32) (b8 : Vec Ideal S1024x3072 .bf16) (b9 : Vec Ideal S1024x3072 .bf16) (b10 : Vec Ideal S1024 .f32) (b11 : Vec Ideal S1024 .f32) (b12 : Vec Ideal S1024 .f32) (b13 : Vec Ideal S1024 .f32) (b14 : Vec Ideal S1024 .f32) (b15 : Vec Ideal S1024 .f32) (b16 : Vec Ideal S1024x1024 .bf16) (b17 : Vec Ideal S1024 .f32) (b18 : Vec Ideal S1024x64 .bf16) (b19 : Vec Ideal S64 .f32) (b20 : Vec Ideal S1024x1024 .bf16) (b21 : Vec Ideal S1536x1024 .bf16) (b22 : Vec Ideal S1024 .f32) (b23 : Vec Ideal S1024x64 .bf16) (b24 : Vec Ideal S64 .f32)

/-- The body's new recurrent state, of the blocks. -/
def kState : FVec Ideal S512x1024 .f32 := k0_pay16 (F := Ideal) (k0_pay2 (F := Ideal) b2 b3) (k0_pay7 (F := Ideal) b2 b4 b1 b5 b6 b7 b8) (k0_pay10 (F := Ideal) b2 b3 b9) (k0_pay11 (F := Ideal) (k0_pay5 (F := Ideal) b2 b4 b1 b5 b6 b7 b8) (k0_pay8 (F := Ideal) b2 b3 b9) b10 b11) b12 b13 (k0_pay14 (F := Ideal) (k0_pay6 (F := Ideal) b2 b4 b1 b5 b6 b7 b8) (k0_pay9 (F := Ideal) b2 b3 b9)) (k0_pay15 (F := Ideal) (k0_pay6 (F := Ideal) b2 b4 b1 b5 b6 b7 b8) (k0_pay9 (F := Ideal) b2 b3 b9)) b14 b15
/-- The prior head's hidden product, of the blocks. -/
def kHidden : FVec Ideal S512x1024 .f32 := k0_pay17 (F := Ideal) (k0_pay2 (F := Ideal) b2 b3) (k0_pay7 (F := Ideal) b2 b4 b1 b5 b6 b7 b8) (k0_pay10 (F := Ideal) b2 b3 b9) (k0_pay11 (F := Ideal) (k0_pay5 (F := Ideal) b2 b4 b1 b5 b6 b7 b8) (k0_pay8 (F := Ideal) b2 b3 b9) b10 b11) b12 b13 (k0_pay14 (F := Ideal) (k0_pay6 (F := Ideal) b2 b4 b1 b5 b6 b7 b8) (k0_pay9 (F := Ideal) b2 b3 b9)) (k0_pay15 (F := Ideal) (k0_pay6 (F := Ideal) b2 b4 b1 b5 b6 b7 b8) (k0_pay9 (F := Ideal) b2 b3 b9)) b14 b15 b16
/-- The body's packed value, of the blocks. -/
def kPacked : FVec Ideal S512x128 .f32 :=
  k0_pay1 (F := Ideal) (k0_pay19 (F := Ideal) (kHidden b1 b2 b3 b4 b5 b6 b7 b8 b9 b10 b11 b12 b13 b14 b15 b16) b17 b18 b19) (k0_pay20 (F := Ideal) (kHidden b1 b2 b3 b4 b5 b6 b7 b8 b9 b10 b11 b12 b13 b14 b15 b16) b17 b18 b19)
    (k0_pay21 (F := Ideal) (kState b1 b2 b3 b4 b5 b6 b7 b8 b9 b10 b11 b12 b13 b14 b15) b0 b20 b21) b22 b23 b24

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

/-- The blocks are one row block of the arguments along ρ. -/
structure Agree (ρ : Fin 512 → Fin 16384) : Prop where
  h0 : ∀ (p : Fin 512) (k : Fin 1536), b0 (ix2 p k) = x0 (ix2 (ρ p) k)
  h1 : ∀ (p : Fin 512) (k : Fin 12), b1 (ix2 p k) = x1 (ix2 (ρ p) k)
  h2 : ∀ (p : Fin 512) (k : Fin 1), b2 (ix2 p k) = x2 (ix2 (ρ p) k)
  h3 : ∀ (p : Fin 512) (k : Fin 1024), b3 (ix2 p k) = x3 (ix2 (ρ p) k)
  h4 : ∀ (p : Fin 512) (k : Fin 32), b4 (ix2 p k) = x4 (ix2 (ρ p) k)
  h5 : ∀ (i : Fin 32) (k : Fin 1024), b5 (ix2 i k) = x5 (ix2 k (⟨i.val, by have := i.isLt; omega⟩ : Fin 44))
  h6 : ∀ (i : Fin 12) (k : Fin 1024), b6 (ix2 i k) = x5 (ix2 k (⟨32 + i.val, by have := i.isLt; omega⟩ : Fin 44))
  h7 : ∀ k : Fin 1024, b7 (ix1 k) = x6 (ix1 k)
  h8 : ∀ (i : Fin 1024) (k : Fin 3072), b8 (ix2 i k) = x7 (ix2 k i)
  h9 : ∀ (i : Fin 1024) (k : Fin 3072), b9 (ix2 i k) = x8 (ix2 k i)
  h10 : ∀ k : Fin 1024, b10 (ix1 k) = x9 (ix1 k)
  h11 : ∀ k : Fin 1024, b11 (ix1 k) = x10 (ix1 k)
  h12 : ∀ k : Fin 1024, b12 (ix1 k) = x11 (ix1 k)
  h13 : ∀ k : Fin 1024, b13 (ix1 k) = x12 (ix1 k)
  h14 : ∀ k : Fin 1024, b14 (ix1 k) = x13 (ix1 k)
  h15 : ∀ k : Fin 1024, b15 (ix1 k) = x14 (ix1 k)
  h16 : ∀ (i : Fin 1024) (k : Fin 1024), b16 (ix2 i k) = x15 (ix2 k i)
  h17 : ∀ k : Fin 1024, b17 (ix1 k) = x16 (ix1 k)
  h18 : ∀ (i : Fin 1024) (k : Fin 64), b18 (ix2 i k) = x17 (ix2 k i)
  h19 : ∀ k : Fin 64, b19 (ix1 k) = x18 (ix1 k)
  h20 : ∀ (i : Fin 1024) (k : Fin 1024), b20 (ix2 i k) = x19 (ix2 k (⟨i.val, by have := i.isLt; omega⟩ : Fin 2560))
  h21 : ∀ (i : Fin 1536) (k : Fin 1024), b21 (ix2 i k) = x19 (ix2 k (⟨1024 + i.val, by have := i.isLt; omega⟩ : Fin 2560))
  h22 : ∀ k : Fin 1024, b22 (ix1 k) = x20 (ix1 k)
  h23 : ∀ (i : Fin 1024) (k : Fin 64), b23 (ix2 i k) = x21 (ix2 k i)
  h24 : ∀ k : Fin 64, b24 (ix1 k) = x22 (ix1 k)

end Cert.Join

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«111823_j61529701482720_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.RowSpec.lean ====
/-
  The row-wise arithmetic of one recurrent state-space step, over the extended reals.

  Every output row of the step depends on one row of each batch input and on the whole weights. The functions
  below are that dependence, one small piece at a time: a dot product of a row with a weight column, a row's mean,
  its variance plus the layer-norm epsilon, the layer-normed row, and softplus in the guarded form
  max(x, 0) + log1p(exp(-|x - 0|)). The three float literals that occur on both sides (1024, 1e-3 as f32, 0.1 as f32)
  are kept as their binary words: the same word denotes the same extended real wherever it is read.
-/
import Idealize.ShloMosaic.PureOps.Ideal.Laws
import Idealize.ShloMosaic.Lib.IdealHost

noncomputable section

namespace Cert.RowSpec

open Idealize.ShloMosaic

/-- The row length 1024 as a float. -/
abbrev cN : EReal := Ideal.ofBits .f32 0x44800000#32
/-- The layer-norm epsilon, the f32 nearest 1e-3. -/
abbrev cEps : EReal := Ideal.ofBits .f32 0x3A83126F#32
/-- The floor of a standard deviation, the f32 nearest 0.1. -/
abbrev cTenth : EReal := Ideal.ofBits .f32 0x3DCCCCCD#32

/-- The mean of a row of 1024 entries: its sum divided by 1024. -/
def meanS (x : Fin 1024 → EReal) : EReal := Ideal.div (∑ k, x k) cN

/-- The variance of a row about its mean, plus the epsilon. -/
def varEpsS (x : Fin 1024 → EReal) : EReal := Ideal.div (∑ k, (x k - meanS x) * (x k - meanS x)) cN + cEps

/-- The layer-normed row: centred, scaled by the reciprocal root of the variance plus epsilon, then by the gain, plus
    the bias. -/
def lnS (x g b : Fin 1024 → EReal) (j : Fin 1024) : EReal :=
  (x j - meanS x) * Ideal.rsqrt (varEpsS x) * g j + b j

/-- Softplus as jax spells it, at an extended real (which is never a NaN): max(x, 0) + log1p(exp(-|x - 0|)). -/
def softplusS (x : EReal) : EReal := max x 0 + Ideal.log1p (Ideal.exp (-(max (x - 0) (-(x - 0)))))

/-- A sum over 44 = 32 + 12 indices is the sum over the first 32 plus the sum over the last 12. -/
theorem sum_split {M : Type*} [AddCommMonoid M] (m n : ℕ) (f : Fin (m + n) → M) :
    ∑ k, f k = ∑ k : Fin m, f (Fin.castAdd n k) + ∑ k : Fin n, f (Fin.natAdd m k) := Fin.sum_univ_add f

/-- An extended real is not different from itself: the ordered-and-unequal comparison of a value with itself is false. -/
theorem cmp_one_self (x : EReal) : Ideal.cmp .one x x = 0#1 := by simp [Ideal.cmp]

/-- Likewise the unordered-or-unequal comparison. -/
theorem cmp_une_self (x : EReal) : Ideal.cmp .une x x = 0#1 := by simp [Ideal.cmp]

end Cert.RowSpec

end
-- ==== Proof.KReadA.lean ====
/-
  The kernel body's first values read at an index, at the ideal instance: the masked state, the two gate
  pre-activation products and their three-way splits.

  Read at row p of the block, each is a row-wise expression of the loaded blocks' row p and the whole weight blocks: a
  product with the row's mask entry; for a matrix product the sum over the contracted axis; for a split the source at
  the shifted lane.
-/
import proofs.«111823_j61529701482720_2_alg».proof.Proof.Gen.KernelIdeal.Skeleton
import proofs.«111823_j61529701482720_2_alg».proof.Proof.LibRowRead
import proofs.«111823_j61529701482720_2_alg».proof.Proof.RowSpec

set_option maxRecDepth 16384

noncomputable section

namespace Cert.KernelIdeal.KReadA

open Idealize.ShloMosaic Idealize.ShloMosaic.ValueIdx Cert.KernelIdeal Cert.KernelIdeal.Gen Cert.RowSpec Cert.Lib.RowRead

/-! The three contractions of this part, read at an index: the contracted shape has one axis, the left operand's
    index at (p, q) and k is (p, k), the right operand's is (k, q). -/

private theorem mmA_l0 (i : S512x1024.Idx) (q : dot_S512x32_S32x1024_S512x1024_1_0_0_1_n_n.contr.Idx) : (dot_S512x32_S32x1024_S512x1024_1_0_0_1_n_n.lhsIdx i q 0).val = (i 0).val := by
  unfold DotDims.lhsIdx
  rw [dif_neg (show ¬(0 : Fin S512x32.rank) ∈ dot_S512x32_S32x1024_S512x1024_1_0_0_1_n_n.lhsBatch by decide), dif_pos (show (0 : Fin S512x32.rank) ∈ dot_S512x32_S32x1024_S512x1024_1_0_0_1_n_n.lhsNonContracting by decide)]
  rfl
private theorem mmA_l1 (i : S512x1024.Idx) (q : dot_S512x32_S32x1024_S512x1024_1_0_0_1_n_n.contr.Idx) : (dot_S512x32_S32x1024_S512x1024_1_0_0_1_n_n.lhsIdx i q 1).val = (q ⟨0, by decide⟩).val :=
  dot_S512x32_S32x1024_S512x1024_1_0_0_1_n_n.lhsIdx_val_of_single rfl i q
private theorem mmA_r0 (i : S512x1024.Idx) (q : dot_S512x32_S32x1024_S512x1024_1_0_0_1_n_n.contr.Idx) : (dot_S512x32_S32x1024_S512x1024_1_0_0_1_n_n.rhsIdx i q 0).val = (q ⟨0, by decide⟩).val :=
  dot_S512x32_S32x1024_S512x1024_1_0_0_1_n_n.rhsIdx_val_of_single rfl i q
private theorem mmA_r1 (i : S512x1024.Idx) (q : dot_S512x32_S32x1024_S512x1024_1_0_0_1_n_n.contr.Idx) : (dot_S512x32_S32x1024_S512x1024_1_0_0_1_n_n.rhsIdx i q 1).val = (i 1).val := by
  unfold DotDims.rhsIdx
  rw [dif_neg (show ¬(1 : Fin S32x1024.rank) ∈ dot_S512x32_S32x1024_S512x1024_1_0_0_1_n_n.rhsBatch by decide), dif_pos (show (1 : Fin S32x1024.rank) ∈ dot_S512x32_S32x1024_S512x1024_1_0_0_1_n_n.rhsNonContracting by decide)]
  rfl

/-- The product [512, 32] · [32, 1024] into zero, at (p, q). -/
private theorem mmA {φ₁ φ₂ : FTy} (lhs : FVec Ideal S512x32 φ₁) (rhs : FVec Ideal S32x1024 φ₂) (p : Fin 512) (q : Fin 1024) :
    matmul dot_S512x32_S32x1024_S512x1024_1_0_0_1_n_n none lhs rhs (constant (F := Ideal) S512x1024 .f32 0x00000000#32) (ix2 p q)
      = ∑ k : Fin 32, lhs (ix2 p k) * rhs (ix2 k q) :=
  matmul_zero_apply dot_S512x32_S32x1024_S512x1024_1_0_0_1_n_n rfl rfl mmA_l0 mmA_l1 mmA_r0 mmA_r1 none lhs rhs p q

private theorem mmB_l0 (i : S512x1024.Idx) (q : dot_S512x12_S12x1024_S512x1024_1_0_0_1_n_n.contr.Idx) : (dot_S512x12_S12x1024_S512x1024_1_0_0_1_n_n.lhsIdx i q 0).val = (i 0).val := by
  unfold DotDims.lhsIdx
  rw [dif_neg (show ¬(0 : Fin S512x12.rank) ∈ dot_S512x12_S12x1024_S512x1024_1_0_0_1_n_n.lhsBatch by decide), dif_pos (show (0 : Fin S512x12.rank) ∈ dot_S512x12_S12x1024_S512x1024_1_0_0_1_n_n.lhsNonContracting by decide)]
  rfl
private theorem mmB_l1 (i : S512x1024.Idx) (q : dot_S512x12_S12x1024_S512x1024_1_0_0_1_n_n.contr.Idx) : (dot_S512x12_S12x1024_S512x1024_1_0_0_1_n_n.lhsIdx i q 1).val = (q ⟨0, by decide⟩).val :=
  dot_S512x12_S12x1024_S512x1024_1_0_0_1_n_n.lhsIdx_val_of_single rfl i q
private theorem mmB_r0 (i : S512x1024.Idx) (q : dot_S512x12_S12x1024_S512x1024_1_0_0_1_n_n.contr.Idx) : (dot_S512x12_S12x1024_S512x1024_1_0_0_1_n_n.rhsIdx i q 0).val = (q ⟨0, by decide⟩).val :=
  dot_S512x12_S12x1024_S512x1024_1_0_0_1_n_n.rhsIdx_val_of_single rfl i q
private theorem mmB_r1 (i : S512x1024.Idx) (q : dot_S512x12_S12x1024_S512x1024_1_0_0_1_n_n.contr.Idx) : (dot_S512x12_S12x1024_S512x1024_1_0_0_1_n_n.rhsIdx i q 1).val = (i 1).val := by
  unfold DotDims.rhsIdx
  rw [dif_neg (show ¬(1 : Fin S12x1024.rank) ∈ dot_S512x12_S12x1024_S512x1024_1_0_0_1_n_n.rhsBatch by decide), dif_pos (show (1 : Fin S12x1024.rank) ∈ dot_S512x12_S12x1024_S512x1024_1_0_0_1_n_n.rhsNonContracting by decide)]
  rfl

/-- The product [512, 12] · [12, 1024] into zero, at (p, q). -/
private theorem mmB {φ₁ φ₂ : FTy} (lhs : FVec Ideal S512x12 φ₁) (rhs : FVec Ideal S12x1024 φ₂) (p : Fin 512) (q : Fin 1024) :
    matmul dot_S512x12_S12x1024_S512x1024_1_0_0_1_n_n none lhs rhs (constant (F := Ideal) S512x1024 .f32 0x00000000#32) (ix2 p q)
      = ∑ k : Fin 12, lhs (ix2 p k) * rhs (ix2 k q) :=
  matmul_zero_apply dot_S512x12_S12x1024_S512x1024_1_0_0_1_n_n rfl rfl mmB_l0 mmB_l1 mmB_r0 mmB_r1 none lhs rhs p q

private theorem mmC_l0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
private theorem mmC_l1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
private theorem mmC_r0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
private theorem mmC_r1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product [512, 1024] · [1024, 3072] into zero, at (p, q). -/
private theorem mmC {φ₁ φ₂ : FTy} (lhs : FVec Ideal S512x1024 φ₁) (rhs : FVec Ideal S1024x3072 φ₂) (p : Fin 512) (q : Fin 3072) :
    matmul dot_S512x1024_S1024x3072_S512x3072_1_0_0_1_n_n none lhs rhs (constant (F := Ideal) S512x3072 .f32 0x00000000#32) (ix2 p q)
      = ∑ k : Fin 1024, lhs (ix2 p k) * rhs (ix2 k q) :=
  matmul_zero_apply dot_S512x1024_S1024x3072_S512x3072_1_0_0_1_n_n rfl rfl mmC_l0 mmC_l1 mmC_r0 mmC_r1 none lhs rhs p q

/-- A vector [1024] cast to a row [1, 1024] and broadcast down the 512 rows reads, at (p, k), the vector at k. -/
private theorem rowvec_apply (v : Vec Ideal S1024 .f32) (p : Fin 512) (k : Fin 1024) :
    broadcastTo S512x1024 (shapeCast S1x1024 v shapeCasts_S1024_S1x1024) broadcasts_S1x1024_S512x1024 (ix2 p k) = v (ix1 k) := by
  refine (broadcastTo_apply _ broadcasts_S1x1024_S512x1024 (ix2 p k) (ix2 (0 : Fin 1) k) fun ax => ?_).trans ?_
  · match ax with
    | ⟨0, _⟩ => rfl
    | ⟨1, _⟩ => rfl
  · exact shapeCast_apply v shapeCasts_S1024_S1x1024 _ _ (by
      rw [Shape.rowMajor_val_two, Shape.rowMajor_val_one]
      show k.val = 0 * 1024 + k.val
      omega)

/-- The first third of the lanes of a [512, 3072] value: lane j of the slice is lane j of the source. -/
private theorem third0 (x : FVec Ideal S512x3072 .f32) (p : Fin 512) (j : Fin 1024) :
    extractStridedSlice S512x1024 ![0, 0] x slices_S512x3072_o0_0_S512x1024 (ix2 p j)
      = x (ix2 p (⟨j.val, by have := j.isLt; omega⟩ : Fin 3072)) :=
  extractStridedSlice_apply ![0, 0] x slices_S512x3072_o0_0_S512x1024 (ix2 p j) _ fun a => by
    match a with
    | ⟨0, _⟩ => show p.val = 0 + p.val; omega
    | ⟨1, _⟩ => show j.val = 0 + j.val; omega

/-- The second third: lane j of the slice is lane 1024 + j of the source. -/
private theorem third1 (x : FVec Ideal S512x3072 .f32) (p : Fin 512) (j : Fin 1024) :
    extractStridedSlice S512x1024 ![0, 1024] x slices_S512x3072_o0_1024_S512x1024 (ix2 p j)
      = x (ix2 p (⟨1024 + j.val, by have := j.isLt; omega⟩ : Fin 3072)) :=
  extractStridedSlice_apply ![0, 1024] x slices_S512x3072_o0_1024_S512x1024 (ix2 p j) _ fun a => by
    match a with
    | ⟨0, _⟩ => show p.val = 0 + p.val; omega
    | ⟨1, _⟩ => show 1024 + j.val = 1024 + j.val; omega

/-- The last third: lane j of the slice is lane 2048 + j of the source. -/
private theorem third2 (x : FVec Ideal S512x3072 .f32) (p : Fin 512) (j : Fin 1024) :
    extractStridedSlice S512x1024 ![0, 2048] x slices_S512x3072_o0_2048_S512x1024 (ix2 p j)
      = x (ix2 p (⟨2048 + j.val, by have := j.isLt; omega⟩ : Fin 3072)) :=
  extractStridedSlice_apply ![0, 2048] x slices_S512x3072_o0_2048_S512x1024 (ix2 p j) _ fun a => by
    match a with
    | ⟨0, _⟩ => show p.val = 0 + p.val; omega
    | ⟨1, _⟩ => show 2048 + j.val = 2048 + j.val; omega

/-- The masked recurrent state: the state's entry times the row's mask entry. -/
theorem pay2_read (v0 : Vec Ideal S512x1 .f32) (v1 : Vec Ideal S512x1024 .f32) (p : Fin 512) (j : Fin 1024) :
    k0_pay2 (F := Ideal) v0 v1 (ix2 p j) = v1 (ix2 p j) * v0 (ix2 p (0 : Fin 1)) := by
  unfold k0_pay2
  exact congrArg (v1 (ix2 p j) * ·) (broadcastTo_a1_ab_apply v0 _ p j)

/-- The input-side gate pre-activations: the rectified pre-layer output of the row against the input weights. The
    pre-layer is two products summed, the masked stochastic state's and the action's, plus the bias. -/
theorem pay3_read (v0 : Vec Ideal S512x1 .f32) (v4 : Vec Ideal S512x32 .f32) (v7 : Vec Ideal S512x12 .f32) (v8 : Vec Ideal S32x1024 .bf16)
    (v12 : Vec Ideal S12x1024 .bf16) (v17 : Vec Ideal S1024 .f32) (v23 : Vec Ideal S1024x3072 .bf16) (p : Fin 512) (q : Fin 3072) :
    k0_pay3 (F := Ideal) v0 v4 v7 v8 v12 v17 v23 (ix2 p q)
      = ∑ k : Fin 1024, max ((∑ i : Fin 32, (v4 (ix2 p i) * v0 (ix2 p (0 : Fin 1))) * v8 (ix2 i k))
          + (∑ i : Fin 12, v7 (ix2 p i) * v12 (ix2 i k)) + v17 (ix1 k)) 0 * v23 (ix2 k q) := by
  unfold k0_pay3
  refine (mmC _ _ p q).trans (Finset.sum_congr rfl fun k _ => ?_)
  refine congrArg₂ (· * ·) ?_ (congrFun (shapeCast_self v23 _) (ix2 k q))
  refine congrArg₂ max (congrArg₂ (· + ·) (congrArg₂ (· + ·) ?_ ?_) (rowvec_apply v17 p k)) Ideal.ofBits_zero_f32
  · refine (mmA _ _ p k).trans (Finset.sum_congr rfl fun i _ => ?_)
    exact congrArg₂ (· * ·) (congrArg (v4 (ix2 p i) * ·) (broadcastTo_a1_ab_apply v0 _ p i)) (congrFun (shapeCast_self v8 _) (ix2 i k))
  · refine (mmB _ _ p k).trans (Finset.sum_congr rfl fun i _ => ?_)
    exact congrArg (v7 (ix2 p i) * ·) (congrFun (shapeCast_self v12 _) (ix2 i k))

/-- The state-side gate pre-activations: the masked state's row against the recurrent weights. -/
theorem pay4_read (v0 : Vec Ideal S512x1 .f32) (v1 : Vec Ideal S512x1024 .f32) (v27 : Vec Ideal S1024x3072 .bf16) (p : Fin 512) (q : Fin 3072) :
    k0_pay4 (F := Ideal) v0 v1 v27 (ix2 p q) = ∑ k : Fin 1024, (v1 (ix2 p k) * v0 (ix2 p (0 : Fin 1))) * v27 (ix2 k q) := by
  unfold k0_pay4
  refine (mmC _ _ p q).trans (Finset.sum_congr rfl fun k _ => ?_)
  exact congrArg₂ (· * ·) (pay2_read v0 v1 p k) (congrFun (shapeCast_self v27 _) (ix2 k q))

/-- The reset third of the input-side product: lanes 0 … 1023. -/
theorem pay5_read (v0 : Vec Ideal S512x1 .f32) (v4 : Vec Ideal S512x32 .f32) (v7 : Vec Ideal S512x12 .f32) (v8 : Vec Ideal S32x1024 .bf16)
    (v12 : Vec Ideal S12x1024 .bf16) (v17 : Vec Ideal S1024 .f32) (v23 : Vec Ideal S1024x3072 .bf16) (p : Fin 512) (j : Fin 1024) :
    k0_pay5 (F := Ideal) v0 v4 v7 v8 v12 v17 v23 (ix2 p j)
      = k0_pay3 (F := Ideal) v0 v4 v7 v8 v12 v17 v23 (ix2 p (⟨j.val, by have := j.isLt; omega⟩ : Fin 3072)) := by
  exact third0 (k0_pay3 (F := Ideal) v0 v4 v7 v8 v12 v17 v23) p j

/-- The update third of the input-side product: lanes 1024 … 2047. -/
theorem pay6_read (v0 : Vec Ideal S512x1 .f32) (v4 : Vec Ideal S512x32 .f32) (v7 : Vec Ideal S512x12 .f32) (v8 : Vec Ideal S32x1024 .bf16)
    (v12 : Vec Ideal S12x1024 .bf16) (v17 : Vec Ideal S1024 .f32) (v23 : Vec Ideal S1024x3072 .bf16) (p : Fin 512) (j : Fin 1024) :
    k0_pay6 (F := Ideal) v0 v4 v7 v8 v12 v17 v23 (ix2 p j)
      = k0_pay3 (F := Ideal) v0 v4 v7 v8 v12 v17 v23 (ix2 p (⟨1024 + j.val, by have := j.isLt; omega⟩ : Fin 3072)) := by
  exact third1 (k0_pay3 (F := Ideal) v0 v4 v7 v8 v12 v17 v23) p j

/-- The candidate third of the input-side product: lanes 2048 … 3071. -/
theorem pay7_read (v0 : Vec Ideal S512x1 .f32) (v4 : Vec Ideal S512x32 .f32) (v7 : Vec Ideal S512x12 .f32) (v8 : Vec Ideal S32x1024 .bf16)
    (v12 : Vec Ideal S12x1024 .bf16) (v17 : Vec Ideal S1024 .f32) (v23 : Vec Ideal S1024x3072 .bf16) (p : Fin 512) (j : Fin 1024) :
    k0_pay7 (F := Ideal) v0 v4 v7 v8 v12 v17 v23 (ix2 p j)
      = k0_pay3 (F := Ideal) v0 v4 v7 v8 v12 v17 v23 (ix2 p (⟨2048 + j.val, by have := j.isLt; omega⟩ : Fin 3072)) := by
  exact third2 (k0_pay3 (F := Ideal) v0 v4 v7 v8 v12 v17 v23) p j

/-- The reset third of the state-side product. -/
theorem pay8_read (v0 : Vec Ideal S512x1 .f32) (v1 : Vec Ideal S512x1024 .f32) (v27 : Vec Ideal S1024x3072 .bf16) (p : Fin 512) (j : Fin 1024) :
    k0_pay8 (F := Ideal) v0 v1 v27 (ix2 p j) = k0_pay4 (F := Ideal) v0 v1 v27 (ix2 p (⟨j.val, by have := j.isLt; omega⟩ : Fin 3072)) := by
  exact third0 (k0_pay4 (F := Ideal) v0 v1 v27) p j

/-- The update third of the state-side product. -/
theorem pay9_read (v0 : Vec Ideal S512x1 .f32) (v1 : Vec Ideal S512x1024 .f32) (v27 : Vec Ideal S1024x3072 .bf16) (p : Fin 512) (j : Fin 1024) :
    k0_pay9 (F := Ideal) v0 v1 v27 (ix2 p j) = k0_pay4 (F := Ideal) v0 v1 v27 (ix2 p (⟨1024 + j.val, by have := j.isLt; omega⟩ : Fin 3072)) := by
  exact third1 (k0_pay4 (F := Ideal) v0 v1 v27) p j

/-- The candidate third of the state-side product. -/
theorem pay10_read (v0 : Vec Ideal S512x1 .f32) (v1 : Vec Ideal S512x1024 .f32) (v27 : Vec Ideal S1024x3072 .bf16) (p : Fin 512) (j : Fin 1024) :
    k0_pay10 (F := Ideal) v0 v1 v27 (ix2 p j) = k0_pay4 (F := Ideal) v0 v1 v27 (ix2 p (⟨2048 + j.val, by have := j.isLt; omega⟩ : Fin 3072)) := by
  exact third2 (k0_pay4 (F := Ideal) v0 v1 v27) p j

end Cert.KernelIdeal.KReadA

end
-- ==== Proof.RReadA.lean ====
/-
  The reference's first stages read at an index, at the ideal instance: the masked state, the rectified pre-layer
  output, the two gate pre-activation products and their three-way splits.

  Read at row r and a lane, each stage is a row-wise expression of the arguments' row r and of the whole weights: the
  pre-layer's product over the 44 joined lanes (32 of the masked stochastic state, then 12 of the action) is the sum
  over the first 32 plus the sum over the last 12; a product with a transposed weight reads the weight at the swapped
  index.
-/
import proofs.«111823_j61529701482720_2_alg».proof.Proof.RefRead
import proofs.«111823_j61529701482720_2_alg».proof.Proof.LibRowRead
import proofs.«111823_j61529701482720_2_alg».proof.Proof.RowSpec

set_option maxRecDepth 16384

noncomputable section

namespace Cert.ReferenceIdeal.RReadA

open Idealize.ShloMosaic Idealize.ShloMosaic.ValueIdx Cert.ReferenceIdeal Cert.ReferenceIdeal.ReadP Cert.RowSpec Cert.Lib.RowRead

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

/-- The masked recurrent state. -/
theorem r1_read (r : Fin 16384) (j : Fin 1024) :
    val_main_v1 (F := Ideal) x2 x3 (ix2 r j) = x3 (ix2 r j) * x2 (ix2 r (0 : Fin 1)) := by
  rw [val_main_v1_apply, val_main_v0_apply]
  have e : idx_main_v0 (ix2 r j) = ix2 r (0 : Fin 1) := by
    funext a; match a with | ⟨0, _⟩ => rfl | ⟨1, _⟩ => rfl
  rw [e]; rfl

/-- A lane below 32 of the joined row is the masked stochastic state's lane. -/
private theorem v4_left (r : Fin 16384) (c : Fin 32) (q : Fin 44) (hq : q.val = c.val) :
    val_main_v4 (F := Ideal) x1 x2 x4 (ix2 r q) = x4 (ix2 r c) * x2 (ix2 r (0 : Fin 1)) := by
  unfold val_main_v4
  refine (concatenate_pair_apply_left (t := S16384x44) (s₁ := S16384x32) (s₂ := S16384x12) 1 _ _ _ (ix2 r q) rfl (ix2 r c) (fun b => ?_)).trans ?_
  · match b with
    | ⟨0, _⟩ => rfl
    | ⟨1, _⟩ => exact hq.symm
  · rw [val_main_v3_apply, val_main_v2_apply]
    have e : idx_main_v2 (ix2 r c) = ix2 r (0 : Fin 1) := by
      funext a; match a with | ⟨0, _⟩ => rfl | ⟨1, _⟩ => rfl
    rw [e]; rfl

/-- A lane from 32 on of the joined row is the action's lane, 32 less. -/
private theorem v4_right (r : Fin 16384) (c : Fin 12) (q : Fin 44) (hq : q.val = 32 + c.val) :
    val_main_v4 (F := Ideal) x1 x2 x4 (ix2 r q) = x1 (ix2 r c) := by
  unfold val_main_v4
  refine concatenate_pair_apply_right (t := S16384x44) (s₁ := S16384x32) (s₂ := S16384x12) 1 _ _ _ (ix2 r q) rfl rfl (ix2 r c) (fun b hb => ?_) ?_
  · match b with
    | ⟨0, _⟩ => rfl
    | ⟨1, _⟩ => exact absurd rfl hb
  · show c.val + 32 = q.val
    omega

/-- One term of the pre-layer's product: the joined row's lane q times the weight's entry (k, q). -/
private theorem v6_term (r : Fin 16384) (k : Fin 1024) (q : Fin 44) :
    val_main_v4 (F := Ideal) x1 x2 x4 (lidx_main_v6 (ix2 r k) q) * val_main_v5 (F := Ideal) x5 (ridx_main_v6 (ix2 r k) q)
      = val_main_v4 (F := Ideal) x1 x2 x4 (ix2 r q) * x5 (ix2 k q) := by
  rw [val_main_v5_apply]
  have el : lidx_main_v6 (ix2 r k) q = ix2 r q := by
    funext a; match a with | ⟨0, _⟩ => rfl | ⟨1, _⟩ => rfl
  have er : idx_main_v5 (ridx_main_v6 (ix2 r k) q) = ix2 k q := by
    funext a; match a with | ⟨0, _⟩ => rfl | ⟨1, _⟩ => rfl
  rw [el, er]

/-- The rectified pre-layer output. -/
theorem r10_read (r : Fin 16384) (k : Fin 1024) :
    val_main_v10 (F := Ideal) x1 x2 x4 x5 x6 (ix2 r k)
      = max ((∑ i : Fin 32, (x4 (ix2 r i) * x2 (ix2 r (0 : Fin 1))) * x5 (ix2 k (⟨i.val, by have := i.isLt; omega⟩ : Fin 44)))
          + (∑ i : Fin 12, x1 (ix2 r i) * x5 (ix2 k (⟨32 + i.val, by have := i.isLt; omega⟩ : Fin 44))) + x6 (ix1 k)) 0 := by
  rw [val_main_v10_apply, val_main_v9_apply, val_main_v6_apply, val_main_v8_apply, val_main_v7_apply,
    val_main_call0_v0_apply, val_main_call0_cst_apply]
  have e6 : idx_main_v7 (idx_main_v8 (ix2 r k)) = ix1 k := by
    funext a; match a with | ⟨0, _⟩ => rfl
  rw [e6]
  show max ((∑ q : Fin (32 + 12), val_main_v4 (F := Ideal) x1 x2 x4 (lidx_main_v6 (ix2 r k) q)
      * val_main_v5 (F := Ideal) x5 (ridx_main_v6 (ix2 r k) q)) + x6 (ix1 k)) (Ideal.ofBits .f32 0x00000000#32) = _
  rw [Ideal.ofBits_zero_f32, sum_split 32 12]
  refine congrArg (fun s => max (s + x6 (ix1 k)) 0) (congrArg₂ (· + ·) ?_ ?_)
  · refine Finset.sum_congr rfl fun c _ => ?_
    rw [v6_term, v4_left x1 x2 x4 r c (Fin.castAdd 12 c) rfl]
    rfl
  · refine Finset.sum_congr rfl fun c _ => ?_
    rw [v6_term, v4_right x1 x2 x4 r c (Fin.natAdd 32 c) rfl]
    rfl

/-- The input-side gate pre-activations. -/
theorem r12_read (r : Fin 16384) (q : Fin 3072) :
    val_main_v12 (F := Ideal) x1 x2 x4 x5 x6 x7 (ix2 r q) = ∑ k : Fin 1024, val_main_v10 (F := Ideal) x1 x2 x4 x5 x6 (ix2 r k) * x7 (ix2 q k) := by
  rw [val_main_v12_apply]
  refine Finset.sum_congr rfl fun k _ => ?_
  rw [val_main_v11_apply]
  have el : lidx_main_v12 (ix2 r q) k = ix2 r k := by
    funext a; match a with | ⟨0, _⟩ => rfl | ⟨1, _⟩ => rfl
  have er : idx_main_v11 (ridx_main_v12 (ix2 r q) k) = ix2 q k := by
    funext a; match a with | ⟨0, _⟩ => rfl | ⟨1, _⟩ => rfl
  rw [el, er]

/-- The state-side gate pre-activations. -/
theorem r14_read (r : Fin 16384) (q : Fin 3072) :
    val_main_v14 (F := Ideal) x2 x3 x8 (ix2 r q) = ∑ k : Fin 1024, (x3 (ix2 r k) * x2 (ix2 r (0 : Fin 1))) * x8 (ix2 q k) := by
  rw [val_main_v14_apply]
  refine Finset.sum_congr rfl fun k _ => ?_
  rw [val_main_v13_apply]
  have el : lidx_main_v14 (ix2 r q) k = ix2 r k := by
    funext a; match a with | ⟨0, _⟩ => rfl | ⟨1, _⟩ => rfl
  have er : idx_main_v13 (ridx_main_v14 (ix2 r q) k) = ix2 q k := by
    funext a; match a with | ⟨0, _⟩ => rfl | ⟨1, _⟩ => rfl
  rw [el, er, r1_read]

/-- The three thirds of the input-side product. -/
theorem r15_read (r : Fin 16384) (j : Fin 1024) :
    val_main_v15 (F := Ideal) x1 x2 x4 x5 x6 x7 (ix2 r j) = val_main_v12 (F := Ideal) x1 x2 x4 x5 x6 x7 (ix2 r (⟨j.val, by have := j.isLt; omega⟩ : Fin 3072)) := by
  rw [val_main_v15_apply]
  have e : idx_main_v15 (ix2 r j) = ix2 r (⟨j.val, by have := j.isLt; omega⟩ : Fin 3072) := by
    funext a; match a with | ⟨0, _⟩ => rfl | ⟨1, _⟩ => rfl
  rw [e]
theorem r16_read (r : Fin 16384) (j : Fin 1024) :
    val_main_v16 (F := Ideal) x1 x2 x4 x5 x6 x7 (ix2 r j) = val_main_v12 (F := Ideal) x1 x2 x4 x5 x6 x7 (ix2 r (⟨1024 + j.val, by have := j.isLt; omega⟩ : Fin 3072)) := by
  rw [val_main_v16_apply]
  have e : idx_main_v16 (ix2 r j) = ix2 r (⟨1024 + j.val, by have := j.isLt; omega⟩ : Fin 3072) := by
    funext a; match a with | ⟨0, _⟩ => rfl | ⟨1, _⟩ => rfl
  rw [e]
theorem r17_read (r : Fin 16384) (j : Fin 1024) :
    val_main_v17 (F := Ideal) x1 x2 x4 x5 x6 x7 (ix2 r j) = val_main_v12 (F := Ideal) x1 x2 x4 x5 x6 x7 (ix2 r (⟨2048 + j.val, by have := j.isLt; omega⟩ : Fin 3072)) := by
  rw [val_main_v17_apply]
  have e : idx_main_v17 (ix2 r j) = ix2 r (⟨2048 + j.val, by have := j.isLt; omega⟩ : Fin 3072) := by
    funext a; match a with | ⟨0, _⟩ => rfl | ⟨1, _⟩ => rfl
  rw [e]

/-- The three thirds of the state-side product. -/
theorem r18_read (r : Fin 16384) (j : Fin 1024) :
    val_main_v18 (F := Ideal) x2 x3 x8 (ix2 r j) = val_main_v14 (F := Ideal) x2 x3 x8 (ix2 r (⟨j.val, by have := j.isLt; omega⟩ : Fin 3072)) := by
  rw [val_main_v18_apply]
  have e : idx_main_v18 (ix2 r j) = ix2 r (⟨j.val, by have := j.isLt; omega⟩ : Fin 3072) := by
    funext a; match a with | ⟨0, _⟩ => rfl | ⟨1, _⟩ => rfl
  rw [e]
theorem r19_read (r : Fin 16384) (j : Fin 1024) :
    val_main_v19 (F := Ideal) x2 x3 x8 (ix2 r j) = val_main_v14 (F := Ideal) x2 x3 x8 (ix2 r (⟨1024 + j.val, by have := j.isLt; omega⟩ : Fin 3072)) := by
  rw [val_main_v19_apply]
  have e : idx_main_v19 (ix2 r j) = ix2 r (⟨1024 + j.val, by have := j.isLt; omega⟩ : Fin 3072) := by
    funext a; match a with | ⟨0, _⟩ => rfl | ⟨1, _⟩ => rfl
  rw [e]
theorem r20_read (r : Fin 16384) (j : Fin 1024) :
    val_main_v20 (F := Ideal) x2 x3 x8 (ix2 r j) = val_main_v14 (F := Ideal) x2 x3 x8 (ix2 r (⟨2048 + j.val, by have := j.isLt; omega⟩ : Fin 3072)) := by
  rw [val_main_v20_apply]
  have e : idx_main_v20 (ix2 r j) = ix2 r (⟨2048 + j.val, by have := j.isLt; omega⟩ : Fin 3072) := by
    funext a; match a with | ⟨0, _⟩ => rfl | ⟨1, _⟩ => rfl
  rw [e]

end Cert.ReferenceIdeal.RReadA

end
-- ==== Proof.JoinA.lean ====
/-
  The body's first values against the reference's first stages, entry by entry, for blocks that are one row block of the
  arguments: the masked state, the two gate products and their three-way lane splits.
-/
import proofs.«111823_j61529701482720_2_alg».proof.Proof.JoinBase
import proofs.«111823_j61529701482720_2_alg».proof.Proof.KReadA
import proofs.«111823_j61529701482720_2_alg».proof.Proof.RReadA

set_option maxRecDepth 16384

noncomputable section

open Idealize.ShloMosaic Idealize.ShloMosaic.ValueIdx

namespace Cert.Join

open Cert.KernelIdeal Cert.KernelIdeal.Gen Cert.RowSpec

variable (b0 : Vec Ideal S512x1536 .f32) (b1 : Vec Ideal S512x12 .f32) (b2 : Vec Ideal S512x1 .f32) (b3 : Vec Ideal S512x1024 .f32) (b4 : Vec Ideal S512x32 .f32) (b5 : Vec Ideal S32x1024 .bf16) (b6 : Vec Ideal S12x1024 .bf16) (b7 : Vec Ideal S1024 .f32) (b8 : Vec Ideal S1024x3072 .bf16) (b9 : Vec Ideal S1024x3072 .bf16) (b10 : Vec Ideal S1024 .f32) (b11 : Vec Ideal S1024 .f32) (b12 : Vec Ideal S1024 .f32) (b13 : Vec Ideal S1024 .f32) (b14 : Vec Ideal S1024 .f32) (b15 : Vec Ideal S1024 .f32) (b16 : Vec Ideal S1024x1024 .bf16) (b17 : Vec Ideal S1024 .f32) (b18 : Vec Ideal S1024x64 .bf16) (b19 : Vec Ideal S64 .f32) (b20 : Vec Ideal S1024x1024 .bf16) (b21 : Vec Ideal S1536x1024 .bf16) (b22 : Vec Ideal S1024 .f32) (b23 : Vec Ideal S1024x64 .bf16) (b24 : Vec Ideal S64 .f32)

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

variable {ρ : Fin 512 → Fin 16384} (H : Agree b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 ρ)

include H

/-- The masked state. -/
theorem masked_eq (p : Fin 512) (j : Fin 1024) :
    k0_pay2 (F := Ideal) b2 b3 (ix2 p j) = Cert.ReferenceIdeal.ReadP.val_main_v1 (F := Ideal) x2 x3 (ix2 (ρ p) j) := by
  rw [Cert.KernelIdeal.KReadA.pay2_read, Cert.ReferenceIdeal.RReadA.r1_read, H.h3, H.h2]

/-- The input-side gate product. -/
theorem gi_eq (p : Fin 512) (q : Fin 3072) :
    k0_pay3 (F := Ideal) b2 b4 b1 b5 b6 b7 b8 (ix2 p q) = Cert.ReferenceIdeal.ReadP.val_main_v12 (F := Ideal) x1 x2 x4 x5 x6 x7 (ix2 (ρ p) q) := by
  rw [Cert.KernelIdeal.KReadA.pay3_read, Cert.ReferenceIdeal.RReadA.r12_read]
  refine Finset.sum_congr rfl fun k _ => ?_
  rw [Cert.ReferenceIdeal.RReadA.r10_read]
  simp only [H.h4, H.h2, H.h5, H.h1, H.h6, H.h7, H.h8]

/-- The state-side gate product. -/
theorem gh_eq (p : Fin 512) (q : Fin 3072) :
    k0_pay4 (F := Ideal) b2 b3 b9 (ix2 p q) = Cert.ReferenceIdeal.ReadP.val_main_v14 (F := Ideal) x2 x3 x8 (ix2 (ρ p) q) := by
  rw [Cert.KernelIdeal.KReadA.pay4_read, Cert.ReferenceIdeal.RReadA.r14_read]
  refine Finset.sum_congr rfl fun k _ => ?_
  rw [H.h3, H.h2, H.h9]

/-- The three thirds of the input-side product. -/
theorem gi0_eq (p : Fin 512) (j : Fin 1024) :
    k0_pay5 (F := Ideal) b2 b4 b1 b5 b6 b7 b8 (ix2 p j) = Cert.ReferenceIdeal.ReadP.val_main_v15 (F := Ideal) x1 x2 x4 x5 x6 x7 (ix2 (ρ p) j) := by
  rw [Cert.KernelIdeal.KReadA.pay5_read, Cert.ReferenceIdeal.RReadA.r15_read]
  exact gi_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨j.val, by have := j.isLt; omega⟩ : Fin 3072)
theorem gi1_eq (p : Fin 512) (j : Fin 1024) :
    k0_pay6 (F := Ideal) b2 b4 b1 b5 b6 b7 b8 (ix2 p j) = Cert.ReferenceIdeal.ReadP.val_main_v16 (F := Ideal) x1 x2 x4 x5 x6 x7 (ix2 (ρ p) j) := by
  rw [Cert.KernelIdeal.KReadA.pay6_read, Cert.ReferenceIdeal.RReadA.r16_read]
  exact gi_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨1024 + j.val, by have := j.isLt; omega⟩ : Fin 3072)
theorem gi2_eq (p : Fin 512) (j : Fin 1024) :
    k0_pay7 (F := Ideal) b2 b4 b1 b5 b6 b7 b8 (ix2 p j) = Cert.ReferenceIdeal.ReadP.val_main_v17 (F := Ideal) x1 x2 x4 x5 x6 x7 (ix2 (ρ p) j) := by
  rw [Cert.KernelIdeal.KReadA.pay7_read, Cert.ReferenceIdeal.RReadA.r17_read]
  exact gi_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨2048 + j.val, by have := j.isLt; omega⟩ : Fin 3072)

/-- The three thirds of the state-side product. -/
theorem gh0_eq (p : Fin 512) (j : Fin 1024) :
    k0_pay8 (F := Ideal) b2 b3 b9 (ix2 p j) = Cert.ReferenceIdeal.ReadP.val_main_v18 (F := Ideal) x2 x3 x8 (ix2 (ρ p) j) := by
  rw [Cert.KernelIdeal.KReadA.pay8_read, Cert.ReferenceIdeal.RReadA.r18_read]
  exact gh_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨j.val, by have := j.isLt; omega⟩ : Fin 3072)
theorem gh1_eq (p : Fin 512) (j : Fin 1024) :
    k0_pay9 (F := Ideal) b2 b3 b9 (ix2 p j) = Cert.ReferenceIdeal.ReadP.val_main_v19 (F := Ideal) x2 x3 x8 (ix2 (ρ p) j) := by
  rw [Cert.KernelIdeal.KReadA.pay9_read, Cert.ReferenceIdeal.RReadA.r19_read]
  exact gh_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨1024 + j.val, by have := j.isLt; omega⟩ : Fin 3072)
theorem gh2_eq (p : Fin 512) (j : Fin 1024) :
    k0_pay10 (F := Ideal) b2 b3 b9 (ix2 p j) = Cert.ReferenceIdeal.ReadP.val_main_v20 (F := Ideal) x2 x3 x8 (ix2 (ρ p) j) := by
  rw [Cert.KernelIdeal.KReadA.pay10_read, Cert.ReferenceIdeal.RReadA.r20_read]
  exact gh_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p (⟨2048 + j.val, by have := j.isLt; omega⟩ : Fin 3072)

end Cert.Join

end
-- ==== Proof.KReadB.lean ====
/-
  The kernel body's gate values read at an index, at the ideal instance: the reset gate, the pieces of the update
  gate's layer norm (the summed pre-activation, its row mean, the centred row, the variance plus epsilon), and the new
  recurrent state.

  Read at row p of the block, a layer norm is the row-wise lnS of that row (RowSpec): the lane sums are sums over the
  1024 lanes of the row, the column broadcasts read the row's own entry, the gain and bias are read at the lane.
-/
import proofs.«111823_j61529701482720_2_alg».proof.Proof.Gen.KernelIdeal.Skeleton
import proofs.«111823_j61529701482720_2_alg».proof.Proof.LibRowRead
import proofs.«111823_j61529701482720_2_alg».proof.Proof.RowSpec

set_option maxRecDepth 16384

noncomputable section

namespace Cert.KernelIdeal.KReadB

open Idealize.ShloMosaic Idealize.ShloMosaic.ValueIdx Cert.KernelIdeal Cert.KernelIdeal.Gen Cert.RowSpec Cert.Lib.RowRead

/-- The lane sum of a block divided by the row length, read at row p of the column: the mean of the block's row p. -/
private theorem mean_read (x : FVec Ideal S512x1024 .f32) (p : Fin 512) (u : Fin 1) :
    divf (shapeCast S512x1 (multiReduction (F := Ideal) .add [1] S512 x 0x00000000#32 reduces_S512x1024_S512 (.inl rfl) rfl) shapeCasts_S512_S512x1)
      (broadcast S512x1 (FloatOps.ofBits .f32 0x44800000#32)) (ix2 p u) = meanS (fun k => x (ix2 p k)) := by
  show Ideal.div (shapeCast S512x1 _ _ (ix2 p u)) cN = _
  unfold meanS
  refine congrArg (fun t => Ideal.div t cN) ?_
  refine (shapeCast_a_a1_apply _ _ p u).trans ?_
  exact rowSum_apply x _ _ _ _ p

/-- The lane sum of the squared centred block divided by the row length, plus the epsilon, read at row p of the
    column: the variance of the block's row p plus the epsilon, when the column m holds the row's mean. -/
private theorem varEps_read (x : FVec Ideal S512x1024 .f32) (m : FVec Ideal S512x1 .f32) (p : Fin 512) (u : Fin 1)
    (hm : m (ix2 p (0 : Fin 1)) = meanS (fun k => x (ix2 p k))) :
    addf (divf (shapeCast S512x1 (multiReduction (F := Ideal) .add [1] S512
            (mulf (subf x (broadcastTo S512x1024 m broadcasts_S512x1_S512x1024)) (subf x (broadcastTo S512x1024 m broadcasts_S512x1_S512x1024)))
            0x00000000#32 reduces_S512x1024_S512 (.inl rfl) rfl) shapeCasts_S512_S512x1)
          (broadcast S512x1 (FloatOps.ofBits .f32 0x44800000#32)))
      (broadcast S512x1 (FloatOps.ofBits .f32 0x3A83126F#32)) (ix2 p u) = varEpsS (fun k => x (ix2 p k)) := by
  refine (congrArg (fun t => t + cEps) (mean_read _ p u)).trans ?_
  show Ideal.div (∑ k, _) cN + cEps = Ideal.div (∑ k, _) cN + cEps
  refine congrArg (fun t => Ideal.div t cN + cEps) (Finset.sum_congr rfl fun k _ => ?_)
  show (x (ix2 p k) - broadcastTo S512x1024 m broadcasts_S512x1_S512x1024 (ix2 p k))
      * (x (ix2 p k) - broadcastTo S512x1024 m broadcasts_S512x1_S512x1024 (ix2 p k)) = _
  rw [broadcastTo_a1_ab_apply, hm]

/-- A gain or bias vector cast to a row [1, 1024] and broadcast down the block reads, at (p, j), the vector at lane j. -/
private theorem rowVec_read (g : Vec Ideal S1024 .f32) (p : Fin 512) (j : Fin 1024) :
    broadcastTo S512x1024 (shapeCast S1x1024 g shapeCasts_S1024_S1x1024) broadcasts_S1x1024_S512x1024 (ix2 p j) = g (ix1 j) :=
  (broadcastTo_1b_ab_apply _ _ p j).trans (shapeCast_a_1a_apply g _ 0 j)

/-- The layer norm's last steps read at (p, j): the centred entry times the reciprocal root of the variance column's
    entry of row p, times the gain at lane j, plus the bias at lane j; with the mean column m and the variance column ve
    holding the row's mean and variance plus epsilon this is the row-wise layer norm. -/
private theorem ln_read (x : FVec Ideal S512x1024 .f32) (g b : Vec Ideal S1024 .f32) (m ve : FVec Ideal S512x1 .f32)
    (p : Fin 512) (j : Fin 1024)
    (hm : m (ix2 p (0 : Fin 1)) = meanS (fun k => x (ix2 p k)))
    (hv : ve (ix2 p (0 : Fin 1)) = varEpsS (fun k => x (ix2 p k))) :
    addf (mulf (mulf (subf x (broadcastTo S512x1024 m broadcasts_S512x1_S512x1024))
              (broadcastTo S512x1024 (rsqrt ve) broadcasts_S512x1_S512x1024))
            (broadcastTo S512x1024 (shapeCast S1x1024 g shapeCasts_S1024_S1x1024) broadcasts_S1x1024_S512x1024))
      (broadcastTo S512x1024 (shapeCast S1x1024 b shapeCasts_S1024_S1x1024) broadcasts_S1x1024_S512x1024) (ix2 p j)
      = lnS (fun k => x (ix2 p k)) (fun k => g (ix1 k)) (fun k => b (ix1 k)) j := by
  show (x (ix2 p j) - broadcastTo S512x1024 m broadcasts_S512x1_S512x1024 (ix2 p j))
        * broadcastTo S512x1024 (rsqrt ve) broadcasts_S512x1_S512x1024 (ix2 p j)
        * broadcastTo S512x1024 (shapeCast S1x1024 g shapeCasts_S1024_S1x1024) broadcasts_S1x1024_S512x1024 (ix2 p j)
      + broadcastTo S512x1024 (shapeCast S1x1024 b shapeCasts_S1024_S1x1024) broadcasts_S1x1024_S512x1024 (ix2 p j) = _
  rw [rowVec_read, rowVec_read, broadcastTo_a1_ab_apply, broadcastTo_a1_ab_apply, hm]
  show _ * Ideal.rsqrt (ve (ix2 p (0 : Fin 1))) * _ + _ = _
  rw [hv]
  rfl

/-- The update gate's pre-activation finished from its centred row v80 and variance column v82, read at (p, j). -/
private theorem gate_read (v80 : FVec Ideal S512x1024 .f32) (v82 : FVec Ideal S512x1 .f32) (v66 v67 : Vec Ideal S1024 .f32)
    (p : Fin 512) (j : Fin 1024) :
    addf (mulf (mulf v80 (broadcastTo S512x1024 (rsqrt v82) broadcasts_S512x1_S512x1024))
            (broadcastTo S512x1024 (shapeCast S1x1024 v66 shapeCasts_S1024_S1x1024) broadcasts_S1x1024_S512x1024))
      (broadcastTo S512x1024 (shapeCast S1x1024 v67 shapeCasts_S1024_S1x1024) broadcasts_S1x1024_S512x1024) (ix2 p j)
      = v80 (ix2 p j) * Ideal.rsqrt (v82 (ix2 p (0 : Fin 1))) * v66 (ix1 j) + v67 (ix1 j) := by
  show v80 (ix2 p j) * broadcastTo S512x1024 (rsqrt v82) broadcasts_S512x1_S512x1024 (ix2 p j)
        * broadcastTo S512x1024 (shapeCast S1x1024 v66 shapeCasts_S1024_S1x1024) broadcasts_S1x1024_S512x1024 (ix2 p j)
      + broadcastTo S512x1024 (shapeCast S1x1024 v67 shapeCasts_S1024_S1x1024) broadcasts_S1x1024_S512x1024 (ix2 p j) = _
  rw [rowVec_read, rowVec_read, broadcastTo_a1_ab_apply]
  rfl

/-- The state update z · c + (1 − z) · h read at (p, j), with z the logistic of G and c the tanh of L. -/
private theorem state_read (G L v3 : FVec Ideal S512x1024 .f32) (p : Fin 512) (j : Fin 1024) (g l : EReal)
    (hg : G (ix2 p j) = g) (hl : L (ix2 p j) = l) :
    addf (mulf (logistic G) (tanh L))
      (mulf (subf (broadcast S512x1024 (FloatOps.ofBits .f32 0x3F800000#32)) (logistic G)) v3) (ix2 p j)
      = Ideal.logistic g * Ideal.tanh l + (1 - Ideal.logistic g) * v3 (ix2 p j) := by
  subst hg hl
  show Ideal.logistic _ * Ideal.tanh _ + (Ideal.ofBits .f32 0x3F800000#32 - Ideal.logistic _) * _ = _
  rw [Ideal.ofBits_one_f32]

/-- The reset gate: the logistic of the layer norm of the two reset thirds' sum. -/
theorem pay11_read (v31 v34 : FVec Ideal S512x1024 .f32) (v38 v39 : Vec Ideal S1024 .f32) (p : Fin 512) (j : Fin 1024) :
    k0_pay11 (F := Ideal) v31 v34 v38 v39 (ix2 p j)
      = Ideal.logistic (lnS (fun k => v31 (ix2 p k) + v34 (ix2 p k)) (fun k => v38 (ix1 k)) (fun k => v39 (ix1 k)) j) := by
  unfold k0_pay11
  refine congrArg Ideal.logistic ?_
  exact ln_read (addf v31 v34) v38 v39 _ _ p j (mean_read _ p 0) (varEps_read _ _ p 0 (mean_read _ p 0))

/-- The update gate's pre-activation: the two update thirds' sum. -/
theorem pay12_read (v32 v35 : FVec Ideal S512x1024 .f32) (p : Fin 512) (j : Fin 1024) :
    k0_pay12 (F := Ideal) v32 v35 (ix2 p j) = v32 (ix2 p j) + v35 (ix2 p j) := rfl

/-- Its row mean, a column. -/
theorem pay13_read (v32 v35 : FVec Ideal S512x1024 .f32) (p : Fin 512) (u : Fin 1) :
    k0_pay13 (F := Ideal) v32 v35 (ix2 p u) = meanS (fun k => v32 (ix2 p k) + v35 (ix2 p k)) := by
  unfold k0_pay13
  exact mean_read (k0_pay12 v32 v35) p u

/-- The centred row. -/
theorem pay14_read (v32 v35 : FVec Ideal S512x1024 .f32) (p : Fin 512) (j : Fin 1024) :
    k0_pay14 (F := Ideal) v32 v35 (ix2 p j)
      = (v32 (ix2 p j) + v35 (ix2 p j)) - meanS (fun k => v32 (ix2 p k) + v35 (ix2 p k)) := by
  unfold k0_pay14
  show k0_pay12 v32 v35 (ix2 p j) - broadcastTo S512x1024 (k0_pay13 v32 v35) broadcasts_S512x1_S512x1024 (ix2 p j) = _
  rw [broadcastTo_a1_ab_apply, pay13_read]
  rfl

/-- The row's variance plus the epsilon, a column. -/
theorem pay15_read (v32 v35 : FVec Ideal S512x1024 .f32) (p : Fin 512) (u : Fin 1) :
    k0_pay15 (F := Ideal) v32 v35 (ix2 p u) = varEpsS (fun k => v32 (ix2 p k) + v35 (ix2 p k)) := by
  unfold k0_pay15
  exact varEps_read (k0_pay12 v32 v35) (k0_pay13 v32 v35) p u (pay13_read v32 v35 p 0)

/-- The new recurrent state: update · candidate + (1 − update) · masked state, the update gate finished from its
    centred row and variance, the candidate the tanh of the layer norm of the candidate thirds (the state-side third
    scaled by the reset gate). -/
theorem pay16_read (v3 v33 v36 v64 : FVec Ideal S512x1024 .f32) (v66 v67 : Vec Ideal S1024 .f32) (v80 : FVec Ideal S512x1024 .f32)
    (v82 : FVec Ideal S512x1 .f32) (v95 v96 : Vec Ideal S1024 .f32) (p : Fin 512) (j : Fin 1024) :
    k0_pay16 (F := Ideal) v3 v33 v36 v64 v66 v67 v80 v82 v95 v96 (ix2 p j)
      = Ideal.logistic (v80 (ix2 p j) * Ideal.rsqrt (v82 (ix2 p (0 : Fin 1))) * v66 (ix1 j) + v67 (ix1 j))
          * Ideal.tanh (lnS (fun k => v33 (ix2 p k) + v64 (ix2 p k) * v36 (ix2 p k)) (fun k => v95 (ix1 k)) (fun k => v96 (ix1 k)) j)
        + (1 - Ideal.logistic (v80 (ix2 p j) * Ideal.rsqrt (v82 (ix2 p (0 : Fin 1))) * v66 (ix1 j) + v67 (ix1 j))) * v3 (ix2 p j) := by
  unfold k0_pay16
  exact state_read _ _ v3 p j _ _ (gate_read v80 v82 v66 v67 p j)
    (ln_read (addf v33 (mulf v64 v36)) v95 v96 _ _ p j (mean_read _ p 0) (varEps_read _ _ p 0 (mean_read _ p 0)))

end Cert.KernelIdeal.KReadB

end
-- ==== Proof.RReadB.lean ====
/-
  The reference's gate stages read at an index, at the ideal instance: the reset gate, the update gate and the new
  recurrent state.

  Read at row r and a lane, a layer norm is the row-wise lnS of that row (RowSpec): the host's sums start from the zero
  word, which is the extended real zero; the logistic spelt as 1 / (1 + exp(−x)) is the logistic.
-/
import proofs.«111823_j61529701482720_2_alg».proof.Proof.RefRead
import proofs.«111823_j61529701482720_2_alg».proof.Proof.LibRowRead
import proofs.«111823_j61529701482720_2_alg».proof.Proof.RowSpec

set_option maxRecDepth 16384

noncomputable section

namespace Cert.ReferenceIdeal.RReadB

open Idealize.ShloMosaic Idealize.ShloMosaic.ValueIdx Cert.ReferenceIdeal Cert.ReferenceIdeal.ReadP Cert.RowSpec Cert.Lib.RowRead

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

/-! ### The layer norm under the reset gate -/

/-- The host's sum of a row, started from the zero word, is the row's sum. -/
private theorem lnA_sum (r : Fin 16384) (Y : Fin 1024 → EReal) (hY : ∀ k : Fin 1024, val_main_v21 (F := Ideal) x1 x2 x3 x4 x5 x6 x7 x8 (ix2 r k) = Y k) :
    val_main_v22 (F := Ideal) x1 x2 x3 x4 x5 x6 x7 x8 (ix1 r) = ∑ k, Y k := by
  refine (val_main_v22_apply x1 x2 x3 x4 x5 x6 x7 x8 (ix1 r)).trans ?_
  refine (congrArg (· + _) Ideal.ofBits_zero_f32).trans ((zero_add _).trans ?_)
  refine Finset.sum_congr rfl fun k _ => ?_
  have hi : idx_main_v22 (ix1 r) k = ix2 r k := by
    funext a; match a with | ⟨0, _⟩ => rfl | ⟨1, _⟩ => rfl
  exact (congrArg (val_main_v21 (F := Ideal) x1 x2 x3 x4 x5 x6 x7 x8) hi).trans (hY k)

/-- The column of means. -/
private theorem lnA_mean (r : Fin 16384) (X : Fin 1024 → EReal) (hX : ∀ k : Fin 1024, val_main_v21 (F := Ideal) x1 x2 x3 x4 x5 x6 x7 x8 (ix2 r k) = X k) (u : Fin 1) :
    val_main_v25 (F := Ideal) x1 x2 x3 x4 x5 x6 x7 x8 (ix2 r u) = meanS X := by
  show Ideal.div (val_main_v23 (F := Ideal) x1 x2 x3 x4 x5 x6 x7 x8 (ix2 r u)) (val_main_v24 (F := Ideal) (ix2 r u)) = Ideal.div (∑ k, X k) cN
  refine congrArg₂ Ideal.div ?_ ?_
  · refine (val_main_v23_apply x1 x2 x3 x4 x5 x6 x7 x8 (ix2 r u)).trans ?_
    exact (congrArg (val_main_v22 (F := Ideal) x1 x2 x3 x4 x5 x6 x7 x8) (show idx_main_v23 (ix2 r u) = ix1 r from by
      funext a; match a with | ⟨0, _⟩ => rfl)).trans (lnA_sum x1 x2 x3 x4 x5 x6 x7 x8 r X hX)
  · exact (val_main_v24_apply (ix2 r u)).trans rfl

/-- The centred row (first copy). -/
private theorem lnA_cen (r : Fin 16384) (X : Fin 1024 → EReal) (hX : ∀ k : Fin 1024, val_main_v21 (F := Ideal) x1 x2 x3 x4 x5 x6 x7 x8 (ix2 r k) = X k) (k : Fin 1024) :
    val_main_v27 (F := Ideal) x1 x2 x3 x4 x5 x6 x7 x8 (ix2 r k) = X k - meanS X := by
  show val_main_v21 (F := Ideal) x1 x2 x3 x4 x5 x6 x7 x8 (ix2 r k) - val_main_v26 (F := Ideal) x1 x2 x3 x4 x5 x6 x7 x8 (ix2 r k) = X k - meanS X
  refine congrArg₂ (· - ·) (hX k) ?_
  refine (val_main_v26_apply x1 x2 x3 x4 x5 x6 x7 x8 (ix2 r k)).trans ?_
  exact (congrArg (val_main_v25 (F := Ideal) x1 x2 x3 x4 x5 x6 x7 x8) (show idx_main_v26 (ix2 r k) = ix2 r (⟨0, Nat.one_pos⟩ : Fin 1) from by
      funext a; match a with | ⟨0, _⟩ => rfl | ⟨1, _⟩ => rfl)).trans (lnA_mean x1 x2 x3 x4 x5 x6 x7 x8 r X hX _)

/-- The centred row (second copy). -/
private theorem lnA_cen' (r : Fin 16384) (X : Fin 1024 → EReal) (hX : ∀ k : Fin 1024, val_main_v21 (F := Ideal) x1 x2 x3 x4 x5 x6 x7 x8 (ix2 r k) = X k) (k : Fin 1024) :
    val_main_v34 (F := Ideal) x1 x2 x3 x4 x5 x6 x7 x8 (ix2 r k) = X k - meanS X := by
  show val_main_v21 (F := Ideal) x1 x2 x3 x4 x5 x6 x7 x8 (ix2 r k) - val_main_v33 (F := Ideal) x1 x2 x3 x4 x5 x6 x7 x8 (ix2 r k) = X k - meanS X
  refine congrArg₂ (· - ·) (hX k) ?_
  refine (val_main_v33_apply x1 x2 x3 x4 x5 x6 x7 x8 (ix2 r k)).trans ?_
  exact (congrArg (val_main_v25 (F := Ideal) x1 x2 x3 x4 x5 x6 x7 x8) (show idx_main_v33 (ix2 r k) = ix2 r (⟨0, Nat.one_pos⟩ : Fin 1) from by
      funext a; match a with | ⟨0, _⟩ => rfl | ⟨1, _⟩ => rfl)).trans (lnA_mean x1 x2 x3 x4 x5 x6 x7 x8 r X hX _)

/-- The host's sum of a row, started from the zero word, is the row's sum. -/
private theorem lnA_sum2 (r : Fin 16384) (Y : Fin 1024 → EReal) (hY : ∀ k : Fin 1024, val_main_v28 (F := Ideal) x1 x2 x3 x4 x5 x6 x7 x8 (ix2 r k) = Y k) :
    val_main_v29 (F := Ideal) x1 x2 x3 x4 x5 x6 x7 x8 (ix1 r) = ∑ k, Y k := by
  refine (val_main_v29_apply x1 x2 x3 x4 x5 x6 x7 x8 (ix1 r)).trans ?_
  refine (congrArg (· + _) Ideal.ofBits_zero_f32).trans ((zero_add _).trans ?_)
  refine Finset.sum_congr rfl fun k _ => ?_
  have hi : idx_main_v29 (ix1 r) k = ix2 r k := by
    funext a; match a with | ⟨0, _⟩ => rfl | ⟨1, _⟩ => rfl
  exact (congrArg (val_main_v28 (F := Ideal) x1 x2 x3 x4 x5 x6 x7 x8) hi).trans (hY k)

/-- The column of variances plus epsilon. -/
private theorem lnA_ve (r : Fin 16384) (X : Fin 1024 → EReal) (hX : ∀ k : Fin 1024, val_main_v21 (F := Ideal) x1 x2 x3 x4 x5 x6 x7 x8 (ix2 r k) = X k) (u : Fin 1) :
    val_main_v36 (F := Ideal) x1 x2 x3 x4 x5 x6 x7 x8 (ix2 r u) = varEpsS X := by
  show Ideal.div (val_main_v30 (F := Ideal) x1 x2 x3 x4 x5 x6 x7 x8 (ix2 r u)) (val_main_v31 (F := Ideal) (ix2 r u)) + val_main_v35 (F := Ideal) (ix2 r u)
    = Ideal.div (∑ k, (X k - meanS X) * (X k - meanS X)) cN + cEps
  refine congrArg₂ (· + ·) (congrArg₂ Ideal.div ?_ ?_) ?_
  · refine (val_main_v30_apply x1 x2 x3 x4 x5 x6 x7 x8 (ix2 r u)).trans ?_
    refine (congrArg (val_main_v29 (F := Ideal) x1 x2 x3 x4 x5 x6 x7 x8) (show idx_main_v30 (ix2 r u) = ix1 r from by
      funext a; match a with | ⟨0, _⟩ => rfl)).trans ?_
    refine lnA_sum2 x1 x2 x3 x4 x5 x6 x7 x8 r _ fun k => ?_
    show val_main_v27 (F := Ideal) x1 x2 x3 x4 x5 x6 x7 x8 (ix2 r k) * val_main_v27 (F := Ideal) x1 x2 x3 x4 x5 x6 x7 x8 (ix2 r k) = _
    rw [lnA_cen x1 x2 x3 x4 x5 x6 x7 x8 r X hX k]
  · exact (val_main_v31_apply (ix2 r u)).trans rfl
  · exact (val_main_v35_apply (ix2 r u)).trans rfl

/-- The layer-normed row. -/
private theorem lnA_out (r : Fin 16384) (X : Fin 1024 → EReal) (hX : ∀ k : Fin 1024, val_main_v21 (F := Ideal) x1 x2 x3 x4 x5 x6 x7 x8 (ix2 r k) = X k) (j : Fin 1024) :
    val_main_v45 (F := Ideal) x1 x2 x3 x4 x5 x6 x7 x8 x9 x10 (ix2 r j) = lnS X (fun k => x9 (ix1 k)) (fun k => x10 (ix1 k)) j := by
  show val_main_v34 (F := Ideal) x1 x2 x3 x4 x5 x6 x7 x8 (ix2 r j) * val_main_v38 (F := Ideal) x1 x2 x3 x4 x5 x6 x7 x8 (ix2 r j) * val_main_v41 (F := Ideal) x9 (ix2 r j) + val_main_v44 (F := Ideal) x10 (ix2 r j)
    = (X j - meanS X) * Ideal.rsqrt (varEpsS X) * x9 (ix1 j) + x10 (ix1 j)
  refine congrArg₂ (· + ·) (congrArg₂ (· * ·) (congrArg₂ (· * ·) (lnA_cen' x1 x2 x3 x4 x5 x6 x7 x8 r X hX j) ?_) ?_) ?_
  · refine (val_main_v38_apply x1 x2 x3 x4 x5 x6 x7 x8 (ix2 r j)).trans ?_
    refine (congrArg (val_main_v37 (F := Ideal) x1 x2 x3 x4 x5 x6 x7 x8) (show idx_main_v38 (ix2 r j) = ix2 r (⟨0, Nat.one_pos⟩ : Fin 1) from by
      funext a; match a with | ⟨0, _⟩ => rfl | ⟨1, _⟩ => rfl)).trans ?_
    show Ideal.rsqrt (val_main_v36 (F := Ideal) x1 x2 x3 x4 x5 x6 x7 x8 (ix2 r (⟨0, Nat.one_pos⟩ : Fin 1))) = _
    rw [lnA_ve x1 x2 x3 x4 x5 x6 x7 x8 r X hX _]
  · refine (val_main_v41_apply x9 (ix2 r j)).trans ((val_main_v40_apply x9 _).trans (congrArg x9 ?_))
    funext a; match a with | ⟨0, _⟩ => rfl
  · refine (val_main_v44_apply x10 (ix2 r j)).trans ((val_main_v43_apply x10 _).trans (congrArg x10 ?_))
    funext a; match a with | ⟨0, _⟩ => rfl

/-- The reset gate. -/
theorem r51_read (r : Fin 16384) (j : Fin 1024) :
    val_main_v51 (F := Ideal) x1 x2 x3 x4 x5 x6 x7 x8 x9 x10 (ix2 r j)
      = Ideal.logistic (lnS (fun k => val_main_v15 (F := Ideal) x1 x2 x4 x5 x6 x7 (ix2 r k) + val_main_v18 (F := Ideal) x2 x3 x8 (ix2 r k)) (fun k => x9 (ix1 k)) (fun k => x10 (ix1 k)) j) := by
  show Ideal.div (val_main_v50 (F := Ideal) (ix2 r j)) (val_main_v48 (F := Ideal) (ix2 r j) + Ideal.exp (-(val_main_v45 (F := Ideal) x1 x2 x3 x4 x5 x6 x7 x8 x9 x10 (ix2 r j)))) = Ideal.div 1 (1 + Ideal.exp (-_))
  refine congrArg₂ Ideal.div ?_ (congrArg₂ (· + ·) ?_ (congrArg Ideal.exp (congrArg Neg.neg ?_)))
  · exact (val_main_v50_apply (ix2 r j)).trans Ideal.ofBits_one_f32
  · exact (val_main_v48_apply (ix2 r j)).trans Ideal.ofBits_one_f32
  · exact lnA_out x1 x2 x3 x4 x5 x6 x7 x8 x9 x10 r _ (fun k => rfl) j

/-! ### The layer norm under the update gate -/

/-- The host's sum of a row, started from the zero word, is the row's sum. -/
private theorem lnB_sum (r : Fin 16384) (Y : Fin 1024 → EReal) (hY : ∀ k : Fin 1024, val_main_v52 (F := Ideal) x1 x2 x3 x4 x5 x6 x7 x8 (ix2 r k) = Y k) :
    val_main_v53 (F := Ideal) x1 x2 x3 x4 x5 x6 x7 x8 (ix1 r) = ∑ k, Y k := by
  refine (val_main_v53_apply x1 x2 x3 x4 x5 x6 x7 x8 (ix1 r)).trans ?_
  refine (congrArg (· + _) Ideal.ofBits_zero_f32).trans ((zero_add _).trans ?_)
  refine Finset.sum_congr rfl fun k _ => ?_
  have hi : idx_main_v53 (ix1 r) k = ix2 r k := by
    funext a; match a with | ⟨0, _⟩ => rfl | ⟨1, _⟩ => rfl
  exact (congrArg (val_main_v52 (F := Ideal) x1 x2 x3 x4 x5 x6 x7 x8) hi).trans (hY k)

/-- The column of means. -/
private theorem lnB_mean (r : Fin 16384) (X : Fin 1024 → EReal) (hX : ∀ k : Fin 1024, val_main_v52 (F := Ideal) x1 x2 x3 x4 x5 x6 x7 x8 (ix2 r k) = X k) (u : Fin 1) :
    val_main_v56 (F := Ideal) x1 x2 x3 x4 x5 x6 x7 x8 (ix2 r u) = meanS X := by
  show Ideal.div (val_main_v54 (F := Ideal) x1 x2 x3 x4 x5 x6 x7 x8 (ix2 r u)) (val_main_v55 (F := Ideal) (ix2 r u)) = Ideal.div (∑ k, X k) cN
  refine congrArg₂ Ideal.div ?_ ?_
  · refine (val_main_v54_apply x1 x2 x3 x4 x5 x6 x7 x8 (ix2 r u)).trans ?_
    exact (congrArg (val_main_v53 (F := Ideal) x1 x2 x3 x4 x5 x6 x7 x8) (show idx_main_v54 (ix2 r u) = ix1 r from by
      funext a; match a with | ⟨0, _⟩ => rfl)).trans (lnB_sum x1 x2 x3 x4 x5 x6 x7 x8 r X hX)
  · exact (val_main_v55_apply (ix2 r u)).trans rfl

/-- The centred row (first copy). -/
private theorem lnB_cen (r : Fin 16384) (X : Fin 1024 → EReal) (hX : ∀ k : Fin 1024, val_main_v52 (F := Ideal) x1 x2 x3 x4 x5 x6 x7 x8 (ix2 r k) = X k) (k : Fin 1024) :
    val_main_v58 (F := Ideal) x1 x2 x3 x4 x5 x6 x7 x8 (ix2 r k) = X k - meanS X := by
  show val_main_v52 (F := Ideal) x1 x2 x3 x4 x5 x6 x7 x8 (ix2 r k) - val_main_v57 (F := Ideal) x1 x2 x3 x4 x5 x6 x7 x8 (ix2 r k) = X k - meanS X
  refine congrArg₂ (· - ·) (hX k) ?_
  refine (val_main_v57_apply x1 x2 x3 x4 x5 x6 x7 x8 (ix2 r k)).trans ?_
  exact (congrArg (val_main_v56 (F := Ideal) x1 x2 x3 x4 x5 x6 x7 x8) (show idx_main_v57 (ix2 r k) = ix2 r (⟨0, Nat.one_pos⟩ : Fin 1) from by
      funext a; match a with | ⟨0, _⟩ => rfl | ⟨1, _⟩ => rfl)).trans (lnB_mean x1 x2 x3 x4 x5 x6 x7 x8 r X hX _)

/-- The centred row (second copy). -/
private theorem lnB_cen' (r : Fin 16384) (X : Fin 1024 → EReal) (hX : ∀ k : Fin 1024, val_main_v52 (F := Ideal) x1 x2 x3 x4 x5 x6 x7 x8 (ix2 r k) = X k) (k : Fin 1024) :
    val_main_v65 (F := Ideal) x1 x2 x3 x4 x5 x6 x7 x8 (ix2 r k) = X k - meanS X := by
  show val_main_v52 (F := Ideal) x1 x2 x3 x4 x5 x6 x7 x8 (ix2 r k) - val_main_v64 (F := Ideal) x1 x2 x3 x4 x5 x6 x7 x8 (ix2 r k) = X k - meanS X
  refine congrArg₂ (· - ·) (hX k) ?_
  refine (val_main_v64_apply x1 x2 x3 x4 x5 x6 x7 x8 (ix2 r k)).trans ?_
  exact (congrArg (val_main_v56 (F := Ideal) x1 x2 x3 x4 x5 x6 x7 x8) (show idx_main_v64 (ix2 r k) = ix2 r (⟨0, Nat.one_pos⟩ : Fin 1) from by
      funext a; match a with | ⟨0, _⟩ => rfl | ⟨1, _⟩ => rfl)).trans (lnB_mean x1 x2 x3 x4 x5 x6 x7 x8 r X hX _)

/-- The host's sum of a row, started from the zero word, is the row's sum. -/
private theorem lnB_sum2 (r : Fin 16384) (Y : Fin 1024 → EReal) (hY : ∀ k : Fin 1024, val_main_v59 (F := Ideal) x1 x2 x3 x4 x5 x6 x7 x8 (ix2 r k) = Y k) :
    val_main_v60 (F := Ideal) x1 x2 x3 x4 x5 x6 x7 x8 (ix1 r) = ∑ k, Y k := by
  refine (val_main_v60_apply x1 x2 x3 x4 x5 x6 x7 x8 (ix1 r)).trans ?_
  refine (congrArg (· + _) Ideal.ofBits_zero_f32).trans ((zero_add _).trans ?_)
  refine Finset.sum_congr rfl fun k _ => ?_
  have hi : idx_main_v60 (ix1 r) k = ix2 r k := by
    funext a; match a with | ⟨0, _⟩ => rfl | ⟨1, _⟩ => rfl
  exact (congrArg (val_main_v59 (F := Ideal) x1 x2 x3 x4 x5 x6 x7 x8) hi).trans (hY k)

/-- The column of variances plus epsilon. -/
private theorem lnB_ve (r : Fin 16384) (X : Fin 1024 → EReal) (hX : ∀ k : Fin 1024, val_main_v52 (F := Ideal) x1 x2 x3 x4 x5 x6 x7 x8 (ix2 r k) = X k) (u : Fin 1) :
    val_main_v67 (F := Ideal) x1 x2 x3 x4 x5 x6 x7 x8 (ix2 r u) = varEpsS X := by
  show Ideal.div (val_main_v61 (F := Ideal) x1 x2 x3 x4 x5 x6 x7 x8 (ix2 r u)) (val_main_v62 (F := Ideal) (ix2 r u)) + val_main_v66 (F := Ideal) (ix2 r u)
    = Ideal.div (∑ k, (X k - meanS X) * (X k - meanS X)) cN + cEps
  refine congrArg₂ (· + ·) (congrArg₂ Ideal.div ?_ ?_) ?_
  · refine (val_main_v61_apply x1 x2 x3 x4 x5 x6 x7 x8 (ix2 r u)).trans ?_
    refine (congrArg (val_main_v60 (F := Ideal) x1 x2 x3 x4 x5 x6 x7 x8) (show idx_main_v61 (ix2 r u) = ix1 r from by
      funext a; match a with | ⟨0, _⟩ => rfl)).trans ?_
    refine lnB_sum2 x1 x2 x3 x4 x5 x6 x7 x8 r _ fun k => ?_
    show val_main_v58 (F := Ideal) x1 x2 x3 x4 x5 x6 x7 x8 (ix2 r k) * val_main_v58 (F := Ideal) x1 x2 x3 x4 x5 x6 x7 x8 (ix2 r k) = _
    rw [lnB_cen x1 x2 x3 x4 x5 x6 x7 x8 r X hX k]
  · exact (val_main_v62_apply (ix2 r u)).trans rfl
  · exact (val_main_v66_apply (ix2 r u)).trans rfl

/-- The layer-normed row. -/
private theorem lnB_out (r : Fin 16384) (X : Fin 1024 → EReal) (hX : ∀ k : Fin 1024, val_main_v52 (F := Ideal) x1 x2 x3 x4 x5 x6 x7 x8 (ix2 r k) = X k) (j : Fin 1024) :
    val_main_v76 (F := Ideal) x1 x2 x3 x4 x5 x6 x7 x8 x11 x12 (ix2 r j) = lnS X (fun k => x11 (ix1 k)) (fun k => x12 (ix1 k)) j := by
  show val_main_v65 (F := Ideal) x1 x2 x3 x4 x5 x6 x7 x8 (ix2 r j) * val_main_v69 (F := Ideal) x1 x2 x3 x4 x5 x6 x7 x8 (ix2 r j) * val_main_v72 (F := Ideal) x11 (ix2 r j) + val_main_v75 (F := Ideal) x12 (ix2 r j)
    = (X j - meanS X) * Ideal.rsqrt (varEpsS X) * x11 (ix1 j) + x12 (ix1 j)
  refine congrArg₂ (· + ·) (congrArg₂ (· * ·) (congrArg₂ (· * ·) (lnB_cen' x1 x2 x3 x4 x5 x6 x7 x8 r X hX j) ?_) ?_) ?_
  · refine (val_main_v69_apply x1 x2 x3 x4 x5 x6 x7 x8 (ix2 r j)).trans ?_
    refine (congrArg (val_main_v68 (F := Ideal) x1 x2 x3 x4 x5 x6 x7 x8) (show idx_main_v69 (ix2 r j) = ix2 r (⟨0, Nat.one_pos⟩ : Fin 1) from by
      funext a; match a with | ⟨0, _⟩ => rfl | ⟨1, _⟩ => rfl)).trans ?_
    show Ideal.rsqrt (val_main_v67 (F := Ideal) x1 x2 x3 x4 x5 x6 x7 x8 (ix2 r (⟨0, Nat.one_pos⟩ : Fin 1))) = _
    rw [lnB_ve x1 x2 x3 x4 x5 x6 x7 x8 r X hX _]
  · refine (val_main_v72_apply x11 (ix2 r j)).trans ((val_main_v71_apply x11 _).trans (congrArg x11 ?_))
    funext a; match a with | ⟨0, _⟩ => rfl
  · refine (val_main_v75_apply x12 (ix2 r j)).trans ((val_main_v74_apply x12 _).trans (congrArg x12 ?_))
    funext a; match a with | ⟨0, _⟩ => rfl

/-- The update gate. -/
theorem r82_read (r : Fin 16384) (j : Fin 1024) :
    val_main_v82 (F := Ideal) x1 x2 x3 x4 x5 x6 x7 x8 x11 x12 (ix2 r j)
      = Ideal.logistic (lnS (fun k => val_main_v16 (F := Ideal) x1 x2 x4 x5 x6 x7 (ix2 r k) + val_main_v19 (F := Ideal) x2 x3 x8 (ix2 r k)) (fun k => x11 (ix1 k)) (fun k => x12 (ix1 k)) j) := by
  show Ideal.div (val_main_v81 (F := Ideal) (ix2 r j)) (val_main_v79 (F := Ideal) (ix2 r j) + Ideal.exp (-(val_main_v76 (F := Ideal) x1 x2 x3 x4 x5 x6 x7 x8 x11 x12 (ix2 r j)))) = Ideal.div 1 (1 + Ideal.exp (-_))
  refine congrArg₂ Ideal.div ?_ (congrArg₂ (· + ·) ?_ (congrArg Ideal.exp (congrArg Neg.neg ?_)))
  · exact (val_main_v81_apply (ix2 r j)).trans Ideal.ofBits_one_f32
  · exact (val_main_v79_apply (ix2 r j)).trans Ideal.ofBits_one_f32
  · exact lnB_out x1 x2 x3 x4 x5 x6 x7 x8 x11 x12 r _ (fun k => rfl) j

/-! ### The layer norm under the candidate state -/

/-- The host's sum of a row, started from the zero word, is the row's sum. -/
private theorem lnC_sum (r : Fin 16384) (Y : Fin 1024 → EReal) (hY : ∀ k : Fin 1024, val_main_v84 (F := Ideal) x1 x2 x3 x4 x5 x6 x7 x8 x9 x10 (ix2 r k) = Y k) :
    val_main_v85 (F := Ideal) x1 x2 x3 x4 x5 x6 x7 x8 x9 x10 (ix1 r) = ∑ k, Y k := by
  refine (val_main_v85_apply x1 x2 x3 x4 x5 x6 x7 x8 x9 x10 (ix1 r)).trans ?_
  refine (congrArg (· + _) Ideal.ofBits_zero_f32).trans ((zero_add _).trans ?_)
  refine Finset.sum_congr rfl fun k _ => ?_
  have hi : idx_main_v85 (ix1 r) k = ix2 r k := by
    funext a; match a with | ⟨0, _⟩ => rfl | ⟨1, _⟩ => rfl
  exact (congrArg (val_main_v84 (F := Ideal) x1 x2 x3 x4 x5 x6 x7 x8 x9 x10) hi).trans (hY k)

/-- The column of means. -/
private theorem lnC_mean (r : Fin 16384) (X : Fin 1024 → EReal) (hX : ∀ k : Fin 1024, val_main_v84 (F := Ideal) x1 x2 x3 x4 x5 x6 x7 x8 x9 x10 (ix2 r k) = X k) (u : Fin 1) :
    val_main_v88 (F := Ideal) x1 x2 x3 x4 x5 x6 x7 x8 x9 x10 (ix2 r u) = meanS X := by
  show Ideal.div (val_main_v86 (F := Ideal) x1 x2 x3 x4 x5 x6 x7 x8 x9 x10 (ix2 r u)) (val_main_v87 (F := Ideal) (ix2 r u)) = Ideal.div (∑ k, X k) cN
  refine congrArg₂ Ideal.div ?_ ?_
  · refine (val_main_v86_apply x1 x2 x3 x4 x5 x6 x7 x8 x9 x10 (ix2 r u)).trans ?_
    exact (congrArg (val_main_v85 (F := Ideal) x1 x2 x3 x4 x5 x6 x7 x8 x9 x10) (show idx_main_v86 (ix2 r u) = ix1 r from by
      funext a; match a with | ⟨0, _⟩ => rfl)).trans (lnC_sum x1 x2 x3 x4 x5 x6 x7 x8 x9 x10 r X hX)
  · exact (val_main_v87_apply (ix2 r u)).trans rfl

/-- The centred row (first copy). -/
private theorem lnC_cen (r : Fin 16384) (X : Fin 1024 → EReal) (hX : ∀ k : Fin 1024, val_main_v84 (F := Ideal) x1 x2 x3 x4 x5 x6 x7 x8 x9 x10 (ix2 r k) = X k) (k : Fin 1024) :
    val_main_v90 (F := Ideal) x1 x2 x3 x4 x5 x6 x7 x8 x9 x10 (ix2 r k) = X k - meanS X := by
  show val_main_v84 (F := Ideal) x1 x2 x3 x4 x5 x6 x7 x8 x9 x10 (ix2 r k) - val_main_v89 (F := Ideal) x1 x2 x3 x4 x5 x6 x7 x8 x9 x10 (ix2 r k) = X k - meanS X
  refine congrArg₂ (· - ·) (hX k) ?_
  refine (val_main_v89_apply x1 x2 x3 x4 x5 x6 x7 x8 x9 x10 (ix2 r k)).trans ?_
  exact (congrArg (val_main_v88 (F := Ideal) x1 x2 x3 x4 x5 x6 x7 x8 x9 x10) (show idx_main_v89 (ix2 r k) = ix2 r (⟨0, Nat.one_pos⟩ : Fin 1) from by
      funext a; match a with | ⟨0, _⟩ => rfl | ⟨1, _⟩ => rfl)).trans (lnC_mean x1 x2 x3 x4 x5 x6 x7 x8 x9 x10 r X hX _)

/-- The centred row (second copy). -/
private theorem lnC_cen' (r : Fin 16384) (X : Fin 1024 → EReal) (hX : ∀ k : Fin 1024, val_main_v84 (F := Ideal) x1 x2 x3 x4 x5 x6 x7 x8 x9 x10 (ix2 r k) = X k) (k : Fin 1024) :
    val_main_v97 (F := Ideal) x1 x2 x3 x4 x5 x6 x7 x8 x9 x10 (ix2 r k) = X k - meanS X := by
  show val_main_v84 (F := Ideal) x1 x2 x3 x4 x5 x6 x7 x8 x9 x10 (ix2 r k) - val_main_v96 (F := Ideal) x1 x2 x3 x4 x5 x6 x7 x8 x9 x10 (ix2 r k) = X k - meanS X
  refine congrArg₂ (· - ·) (hX k) ?_
  refine (val_main_v96_apply x1 x2 x3 x4 x5 x6 x7 x8 x9 x10 (ix2 r k)).trans ?_
  exact (congrArg (val_main_v88 (F := Ideal) x1 x2 x3 x4 x5 x6 x7 x8 x9 x10) (show idx_main_v96 (ix2 r k) = ix2 r (⟨0, Nat.one_pos⟩ : Fin 1) from by
      funext a; match a with | ⟨0, _⟩ => rfl | ⟨1, _⟩ => rfl)).trans (lnC_mean x1 x2 x3 x4 x5 x6 x7 x8 x9 x10 r X hX _)

/-- The host's sum of a row, started from the zero word, is the row's sum. -/
private theorem lnC_sum2 (r : Fin 16384) (Y : Fin 1024 → EReal) (hY : ∀ k : Fin 1024, val_main_v91 (F := Ideal) x1 x2 x3 x4 x5 x6 x7 x8 x9 x10 (ix2 r k) = Y k) :
    val_main_v92 (F := Ideal) x1 x2 x3 x4 x5 x6 x7 x8 x9 x10 (ix1 r) = ∑ k, Y k := by
  refine (val_main_v92_apply x1 x2 x3 x4 x5 x6 x7 x8 x9 x10 (ix1 r)).trans ?_
  refine (congrArg (· + _) Ideal.ofBits_zero_f32).trans ((zero_add _).trans ?_)
  refine Finset.sum_congr rfl fun k _ => ?_
  have hi : idx_main_v92 (ix1 r) k = ix2 r k := by
    funext a; match a with | ⟨0, _⟩ => rfl | ⟨1, _⟩ => rfl
  exact (congrArg (val_main_v91 (F := Ideal) x1 x2 x3 x4 x5 x6 x7 x8 x9 x10) hi).trans (hY k)

/-- The column of variances plus epsilon. -/
private theorem lnC_ve (r : Fin 16384) (X : Fin 1024 → EReal) (hX : ∀ k : Fin 1024, val_main_v84 (F := Ideal) x1 x2 x3 x4 x5 x6 x7 x8 x9 x10 (ix2 r k) = X k) (u : Fin 1) :
    val_main_v99 (F := Ideal) x1 x2 x3 x4 x5 x6 x7 x8 x9 x10 (ix2 r u) = varEpsS X := by
  show Ideal.div (val_main_v93 (F := Ideal) x1 x2 x3 x4 x5 x6 x7 x8 x9 x10 (ix2 r u)) (val_main_v94 (F := Ideal) (ix2 r u)) + val_main_v98 (F := Ideal) (ix2 r u)
    = Ideal.div (∑ k, (X k - meanS X) * (X k - meanS X)) cN + cEps
  refine congrArg₂ (· + ·) (congrArg₂ Ideal.div ?_ ?_) ?_
  · refine (val_main_v93_apply x1 x2 x3 x4 x5 x6 x7 x8 x9 x10 (ix2 r u)).trans ?_
    refine (congrArg (val_main_v92 (F := Ideal) x1 x2 x3 x4 x5 x6 x7 x8 x9 x10) (show idx_main_v93 (ix2 r u) = ix1 r from by
      funext a; match a with | ⟨0, _⟩ => rfl)).trans ?_
    refine lnC_sum2 x1 x2 x3 x4 x5 x6 x7 x8 x9 x10 r _ fun k => ?_
    show val_main_v90 (F := Ideal) x1 x2 x3 x4 x5 x6 x7 x8 x9 x10 (ix2 r k) * val_main_v90 (F := Ideal) x1 x2 x3 x4 x5 x6 x7 x8 x9 x10 (ix2 r k) = _
    rw [lnC_cen x1 x2 x3 x4 x5 x6 x7 x8 x9 x10 r X hX k]
  · exact (val_main_v94_apply (ix2 r u)).trans rfl
  · exact (val_main_v98_apply (ix2 r u)).trans rfl

/-- The layer-normed row. -/
private theorem lnC_out (r : Fin 16384) (X : Fin 1024 → EReal) (hX : ∀ k : Fin 1024, val_main_v84 (F := Ideal) x1 x2 x3 x4 x5 x6 x7 x8 x9 x10 (ix2 r k) = X k) (j : Fin 1024) :
    val_main_v108 (F := Ideal) x1 x2 x3 x4 x5 x6 x7 x8 x9 x10 x13 x14 (ix2 r j) = lnS X (fun k => x13 (ix1 k)) (fun k => x14 (ix1 k)) j := by
  show val_main_v97 (F := Ideal) x1 x2 x3 x4 x5 x6 x7 x8 x9 x10 (ix2 r j) * val_main_v101 (F := Ideal) x1 x2 x3 x4 x5 x6 x7 x8 x9 x10 (ix2 r j) * val_main_v104 (F := Ideal) x13 (ix2 r j) + val_main_v107 (F := Ideal) x14 (ix2 r j)
    = (X j - meanS X) * Ideal.rsqrt (varEpsS X) * x13 (ix1 j) + x14 (ix1 j)
  refine congrArg₂ (· + ·) (congrArg₂ (· * ·) (congrArg₂ (· * ·) (lnC_cen' x1 x2 x3 x4 x5 x6 x7 x8 x9 x10 r X hX j) ?_) ?_) ?_
  · refine (val_main_v101_apply x1 x2 x3 x4 x5 x6 x7 x8 x9 x10 (ix2 r j)).trans ?_
    refine (congrArg (val_main_v100 (F := Ideal) x1 x2 x3 x4 x5 x6 x7 x8 x9 x10) (show idx_main_v101 (ix2 r j) = ix2 r (⟨0, Nat.one_pos⟩ : Fin 1) from by
      funext a; match a with | ⟨0, _⟩ => rfl | ⟨1, _⟩ => rfl)).trans ?_
    show Ideal.rsqrt (val_main_v99 (F := Ideal) x1 x2 x3 x4 x5 x6 x7 x8 x9 x10 (ix2 r (⟨0, Nat.one_pos⟩ : Fin 1))) = _
    rw [lnC_ve x1 x2 x3 x4 x5 x6 x7 x8 x9 x10 r X hX _]
  · refine (val_main_v104_apply x13 (ix2 r j)).trans ((val_main_v103_apply x13 _).trans (congrArg x13 ?_))
    funext a; match a with | ⟨0, _⟩ => rfl
  · refine (val_main_v107_apply x14 (ix2 r j)).trans ((val_main_v106_apply x14 _).trans (congrArg x14 ?_))
    funext a; match a with | ⟨0, _⟩ => rfl

/-- The new recurrent state. -/
theorem r114_read (r : Fin 16384) (j : Fin 1024) :
    val_main_v114 (F := Ideal) x1 x2 x3 x4 x5 x6 x7 x8 x9 x10 x11 x12 x13 x14 (ix2 r j)
      = val_main_v82 (F := Ideal) x1 x2 x3 x4 x5 x6 x7 x8 x11 x12 (ix2 r j)
          * Ideal.tanh (lnS (fun k => val_main_v17 (F := Ideal) x1 x2 x4 x5 x6 x7 (ix2 r k) + val_main_v51 (F := Ideal) x1 x2 x3 x4 x5 x6 x7 x8 x9 x10 (ix2 r k) * val_main_v20 (F := Ideal) x2 x3 x8 (ix2 r k)) (fun k => x13 (ix1 k)) (fun k => x14 (ix1 k)) j)
        + (1 - val_main_v82 (F := Ideal) x1 x2 x3 x4 x5 x6 x7 x8 x11 x12 (ix2 r j)) * val_main_v1 (F := Ideal) x2 x3 (ix2 r j) := by
  show val_main_v82 (F := Ideal) x1 x2 x3 x4 x5 x6 x7 x8 x11 x12 (ix2 r j) * Ideal.tanh (val_main_v108 (F := Ideal) x1 x2 x3 x4 x5 x6 x7 x8 x9 x10 x13 x14 (ix2 r j)) + (val_main_v111 (F := Ideal) (ix2 r j) - val_main_v82 (F := Ideal) x1 x2 x3 x4 x5 x6 x7 x8 x11 x12 (ix2 r j)) * val_main_v1 (F := Ideal) x2 x3 (ix2 r j) = _
  refine congrArg₂ (· + ·) (congrArg (_ * ·) (congrArg Ideal.tanh ?_)) (congrArg (· * _) (congrArg (· - _) ?_))
  · exact lnC_out x1 x2 x3 x4 x5 x6 x7 x8 x9 x10 x13 x14 r _ (fun k => rfl) j
  · exact (val_main_v111_apply (ix2 r j)).trans Ideal.ofBits_one_f32

end Cert.ReferenceIdeal.RReadB

end
-- ==== Proof.JoinG.lean ====
/-
  The body's gate values against the reference's gate stages, entry by entry, for blocks that are one row block of the
  arguments: the reset gate and the new recurrent state. Each layer norm is the same row-wise function on both sides once
  the rows it normalises are known equal.
-/
import proofs.«111823_j61529701482720_2_alg».proof.Proof.JoinA
import proofs.«111823_j61529701482720_2_alg».proof.Proof.KReadB
import proofs.«111823_j61529701482720_2_alg».proof.Proof.RReadB

set_option maxRecDepth 16384

noncomputable section

open Idealize.ShloMosaic Idealize.ShloMosaic.ValueIdx

namespace Cert.Join

open Cert.KernelIdeal Cert.KernelIdeal.Gen Cert.RowSpec

/-- The row-wise layer norm depends only on the entries of the row, the gain and the bias. -/
private theorem lnS_congr {f f' g g' b b' : Fin 1024 → EReal} (hf : ∀ k, f k = f' k) (hg : ∀ k, g k = g' k)
    (hb : ∀ k, b k = b' k) (j : Fin 1024) : lnS f g b j = lnS f' g' b' j := by
  obtain rfl : f = f' := funext hf
  obtain rfl : g = g' := funext hg
  obtain rfl : b = b' := funext hb
  rfl

variable (b0 : Vec Ideal S512x1536 .f32) (b1 : Vec Ideal S512x12 .f32) (b2 : Vec Ideal S512x1 .f32) (b3 : Vec Ideal S512x1024 .f32) (b4 : Vec Ideal S512x32 .f32) (b5 : Vec Ideal S32x1024 .bf16) (b6 : Vec Ideal S12x1024 .bf16) (b7 : Vec Ideal S1024 .f32) (b8 : Vec Ideal S1024x3072 .bf16) (b9 : Vec Ideal S1024x3072 .bf16) (b10 : Vec Ideal S1024 .f32) (b11 : Vec Ideal S1024 .f32) (b12 : Vec Ideal S1024 .f32) (b13 : Vec Ideal S1024 .f32) (b14 : Vec Ideal S1024 .f32) (b15 : Vec Ideal S1024 .f32) (b16 : Vec Ideal S1024x1024 .bf16) (b17 : Vec Ideal S1024 .f32) (b18 : Vec Ideal S1024x64 .bf16) (b19 : Vec Ideal S64 .f32) (b20 : Vec Ideal S1024x1024 .bf16) (b21 : Vec Ideal S1536x1024 .bf16) (b22 : Vec Ideal S1024 .f32) (b23 : Vec Ideal S1024x64 .bf16) (b24 : Vec Ideal S64 .f32)

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

variable {ρ : Fin 512 → Fin 16384} (H : Agree b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 ρ)

include H

/-- The reset gate. -/
theorem reset_eq (p : Fin 512) (j : Fin 1024) :
    k0_pay11 (F := Ideal) (k0_pay5 (F := Ideal) b2 b4 b1 b5 b6 b7 b8) (k0_pay8 (F := Ideal) b2 b3 b9) b10 b11 (ix2 p j)
      = Cert.ReferenceIdeal.ReadP.val_main_v51 (F := Ideal) x1 x2 x3 x4 x5 x6 x7 x8 x9 x10 (ix2 (ρ p) j) := by
  refine (Cert.KernelIdeal.KReadB.pay11_read (k0_pay5 (F := Ideal) b2 b4 b1 b5 b6 b7 b8) (k0_pay8 (F := Ideal) b2 b3 b9) b10 b11 p j).trans ?_
  refine Eq.trans ?_ (Cert.ReferenceIdeal.RReadB.r51_read x1 x2 x3 x4 x5 x6 x7 x8 x9 x10 (ρ p) j).symm
  refine congrArg Ideal.logistic (lnS_congr (fun k => ?_) (fun k => H.h10 k) (fun k => H.h11 k) j)
  exact congrArg₂ (· + ·) (gi0_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (gh0_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k)

/-- The update gate, finished from its centred row and its variance column. -/
private theorem update_eq (p : Fin 512) (j : Fin 1024) :
    Ideal.logistic (k0_pay14 (F := Ideal) (k0_pay6 (F := Ideal) b2 b4 b1 b5 b6 b7 b8) (k0_pay9 (F := Ideal) b2 b3 b9) (ix2 p j)
        * Ideal.rsqrt (k0_pay15 (F := Ideal) (k0_pay6 (F := Ideal) b2 b4 b1 b5 b6 b7 b8) (k0_pay9 (F := Ideal) b2 b3 b9) (ix2 p (0 : Fin 1))) * b12 (ix1 j) + b13 (ix1 j))
      = Cert.ReferenceIdeal.ReadP.val_main_v82 (F := Ideal) x1 x2 x3 x4 x5 x6 x7 x8 x11 x12 (ix2 (ρ p) j) := by
  rw [Cert.KernelIdeal.KReadB.pay14_read, Cert.KernelIdeal.KReadB.pay15_read]
  refine Eq.trans ?_ (Cert.ReferenceIdeal.RReadB.r82_read x1 x2 x3 x4 x5 x6 x7 x8 x11 x12 (ρ p) j).symm
  refine congrArg Ideal.logistic ?_
  refine (lnS_congr (f := fun k => k0_pay6 (F := Ideal) b2 b4 b1 b5 b6 b7 b8 (ix2 p k) + k0_pay9 (F := Ideal) b2 b3 b9 (ix2 p k)) (g := fun k => b12 (ix1 k)) (b := fun k => b13 (ix1 k))
    (fun k => ?_) (fun k => H.h12 k) (fun k => H.h13 k) j)
  exact congrArg₂ (· + ·) (gi1_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (gh1_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k)

/-- The new recurrent state. -/
theorem state_eq (p : Fin 512) (j : Fin 1024) :
    kState b1 b2 b3 b4 b5 b6 b7 b8 b9 b10 b11 b12 b13 b14 b15 (ix2 p j) = Cert.ReferenceIdeal.ReadP.val_main_v114 (F := Ideal) x1 x2 x3 x4 x5 x6 x7 x8 x9 x10 x11 x12 x13 x14 (ix2 (ρ p) j) := by
  unfold kState
  refine (Cert.KernelIdeal.KReadB.pay16_read (k0_pay2 (F := Ideal) b2 b3) (k0_pay7 (F := Ideal) b2 b4 b1 b5 b6 b7 b8) (k0_pay10 (F := Ideal) b2 b3 b9) (k0_pay11 (F := Ideal) (k0_pay5 (F := Ideal) b2 b4 b1 b5 b6 b7 b8) (k0_pay8 (F := Ideal) b2 b3 b9) b10 b11) b12 b13
    (k0_pay14 (F := Ideal) (k0_pay6 (F := Ideal) b2 b4 b1 b5 b6 b7 b8) (k0_pay9 (F := Ideal) b2 b3 b9)) (k0_pay15 (F := Ideal) (k0_pay6 (F := Ideal) b2 b4 b1 b5 b6 b7 b8) (k0_pay9 (F := Ideal) b2 b3 b9)) b14 b15 p j).trans ?_
  refine Eq.trans ?_ (Cert.ReferenceIdeal.RReadB.r114_read x1 x2 x3 x4 x5 x6 x7 x8 x9 x10 x11 x12 x13 x14 (ρ p) j).symm
  have hz := update_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p j
  have hc : lnS (fun k => k0_pay7 (F := Ideal) b2 b4 b1 b5 b6 b7 b8 (ix2 p k) + k0_pay11 (F := Ideal) (k0_pay5 (F := Ideal) b2 b4 b1 b5 b6 b7 b8) (k0_pay8 (F := Ideal) b2 b3 b9) b10 b11 (ix2 p k) * k0_pay10 (F := Ideal) b2 b3 b9 (ix2 p k)) (fun k => b14 (ix1 k)) (fun k => b15 (ix1 k)) j
      = lnS (fun k => Cert.ReferenceIdeal.ReadP.val_main_v17 (F := Ideal) x1 x2 x4 x5 x6 x7 (ix2 (ρ p) k) + Cert.ReferenceIdeal.ReadP.val_main_v51 (F := Ideal) x1 x2 x3 x4 x5 x6 x7 x8 x9 x10 (ix2 (ρ p) k) * Cert.ReferenceIdeal.ReadP.val_main_v20 (F := Ideal) x2 x3 x8 (ix2 (ρ p) k)) (fun k => x13 (ix1 k)) (fun k => x14 (ix1 k)) j :=
    lnS_congr (fun k => congrArg₂ (· + ·) (gi2_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k)
      (congrArg₂ (· * ·) (reset_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (gh2_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k))) (fun k => H.h14 k) (fun k => H.h15 k) j
  exact congrArg₂ (· + ·) (congrArg₂ (· * ·) hz (congrArg Ideal.tanh hc))
    (congrArg₂ (· * ·) (congrArg (1 - ·) hz) (masked_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p j))

end Cert.Join

end
-- ==== Proof.KReadC.lean ====
/-
  The kernel body's head values read at an index, at the ideal instance: the prior head's hidden product, its
  output, mean and standard deviation, the posterior head's hidden product, and the packed store.

  Read at row p of the block: a matrix product is the sum over the contracted axis, the rectifier is max(·, 0), the
  standard deviation is the guarded softplus of the upper half plus 0.1, and lane 32 k + c of the packed value is lane
  c of its k-th piece (posterior mean, posterior deviation, prior mean, prior deviation).
-/
import proofs.«111823_j61529701482720_2_alg».proof.Proof.Gen.KernelIdeal.Skeleton
import proofs.«111823_j61529701482720_2_alg».proof.Proof.LibRowRead
import proofs.«111823_j61529701482720_2_alg».proof.Proof.RowSpec

set_option maxRecDepth 16384

noncomputable section

namespace Cert.KernelIdeal.KReadC

open Idealize.ShloMosaic Idealize.ShloMosaic.ValueIdx Cert.KernelIdeal Cert.KernelIdeal.Gen Cert.RowSpec Cert.Lib.RowRead

/-! The three contractions of this part, read at an index: the contracted shape has one axis, the left operand's
    index at (p, q) and k is (p, k), the right operand's is (k, q). -/

private theorem mmD_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem mmD_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
private theorem mmD_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
private theorem mmD_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product [512, 1024] · [1024, 1024] into zero, at (p, q). -/
private theorem mmD {φ₁ φ₂ : FTy} (lhs : FVec Ideal S512x1024 φ₁) (rhs : FVec Ideal S1024x1024 φ₂) (p : Fin 512) (q : Fin 1024) :
    matmul dot_S512x1024_S1024x1024_S512x1024_1_0_0_1_n_n none lhs rhs (constant (F := Ideal) S512x1024 .f32 0x00000000#32) (ix2 p q)
      = ∑ k : Fin 1024, lhs (ix2 p k) * rhs (ix2 k q) :=
  matmul_zero_apply dot_S512x1024_S1024x1024_S512x1024_1_0_0_1_n_n rfl rfl mmD_l0 mmD_l1 mmD_r0 mmD_r1 none lhs rhs p q

private theorem mmE_l0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
private theorem mmE_l1 (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
private theorem mmE_r0 (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
private theorem mmE_r1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The product [512, 1024] · [1024, 64] into zero, at (p, q). -/
private theorem mmE {φ₁ φ₂ : FTy} (lhs : FVec Ideal S512x1024 φ₁) (rhs : FVec Ideal S1024x64 φ₂) (p : Fin 512) (q : Fin 64) :
    matmul dot_S512x1024_S1024x64_S512x64_1_0_0_1_n_n none lhs rhs (constant (F := Ideal) S512x64 .f32 0x00000000#32) (ix2 p q)
      = ∑ k : Fin 1024, lhs (ix2 p k) * rhs (ix2 k q) :=
  matmul_zero_apply dot_S512x1024_S1024x64_S512x64_1_0_0_1_n_n rfl rfl mmE_l0 mmE_l1 mmE_r0 mmE_r1 none lhs rhs p q

private theorem mmF_l0 (i : S512x1024.Idx) (q : dot_S512x1536_S1536x1024_S512x1024_1_0_0_1_n_n.contr.Idx) : (dot_S512x1536_S1536x1024_S512x1024_1_0_0_1_n_n.lhsIdx i q 0).val = (i 0).val := by
  unfold DotDims.lhsIdx
  rw [dif_neg (show ¬(0 : Fin S512x1536.rank) ∈ dot_S512x1536_S1536x1024_S512x1024_1_0_0_1_n_n.lhsBatch by decide), dif_pos (show (0 : Fin S512x1536.rank) ∈ dot_S512x1536_S1536x1024_S512x1024_1_0_0_1_n_n.lhsNonContracting by decide)]
  rfl
private theorem mmF_l1 (i : S512x1024.Idx) (q : dot_S512x1536_S1536x1024_S512x1024_1_0_0_1_n_n.contr.Idx) : (dot_S512x1536_S1536x1024_S512x1024_1_0_0_1_n_n.lhsIdx i q 1).val = (q ⟨0, by decide⟩).val :=
  dot_S512x1536_S1536x1024_S512x1024_1_0_0_1_n_n.lhsIdx_val_of_single rfl i q
private theorem mmF_r0 (i : S512x1024.Idx) (q : dot_S512x1536_S1536x1024_S512x1024_1_0_0_1_n_n.contr.Idx) : (dot_S512x1536_S1536x1024_S512x1024_1_0_0_1_n_n.rhsIdx i q 0).val = (q ⟨0, by decide⟩).val :=
  dot_S512x1536_S1536x1024_S512x1024_1_0_0_1_n_n.rhsIdx_val_of_single rfl i q
private theorem mmF_r1 (i : S512x1024.Idx) (q : dot_S512x1536_S1536x1024_S512x1024_1_0_0_1_n_n.contr.Idx) : (dot_S512x1536_S1536x1024_S512x1024_1_0_0_1_n_n.rhsIdx i q 1).val = (i 1).val := by
  unfold DotDims.rhsIdx
  rw [dif_neg (show ¬(1 : Fin S1536x1024.rank) ∈ dot_S512x1536_S1536x1024_S512x1024_1_0_0_1_n_n.rhsBatch by decide), dif_pos (show (1 : Fin S1536x1024.rank) ∈ dot_S512x1536_S1536x1024_S512x1024_1_0_0_1_n_n.rhsNonContracting by decide)]
  rfl

/-- The product [512, 1536] · [1536, 1024] into zero, at (p, q). -/
private theorem mmF {φ₁ φ₂ : FTy} (lhs : FVec Ideal S512x1536 φ₁) (rhs : FVec Ideal S1536x1024 φ₂) (p : Fin 512) (q : Fin 1024) :
    matmul dot_S512x1536_S1536x1024_S512x1024_1_0_0_1_n_n none lhs rhs (constant (F := Ideal) S512x1024 .f32 0x00000000#32) (ix2 p q)
      = ∑ k : Fin 1536, lhs (ix2 p k) * rhs (ix2 k q) :=
  matmul_zero_apply dot_S512x1536_S1536x1024_S512x1024_1_0_0_1_n_n rfl rfl mmF_l0 mmF_l1 mmF_r0 mmF_r1 none lhs rhs p q

/-- A vector [1024] cast to a row [1, 1024] and broadcast down the 512 rows reads, at (p, k), the vector at k. -/
private theorem rowvec_apply (v : Vec Ideal S1024 .f32) (p : Fin 512) (k : Fin 1024) :
    broadcastTo S512x1024 (shapeCast S1x1024 v shapeCasts_S1024_S1x1024) broadcasts_S1x1024_S512x1024 (ix2 p k) = v (ix1 k) := by
  refine (broadcastTo_apply _ broadcasts_S1x1024_S512x1024 (ix2 p k) (ix2 (0 : Fin 1) k) fun ax => ?_).trans ?_
  · match ax with
    | ⟨0, _⟩ => rfl
    | ⟨1, _⟩ => rfl
  · exact shapeCast_apply v shapeCasts_S1024_S1x1024 _ _ (by
      rw [Shape.rowMajor_val_two, Shape.rowMajor_val_one]
      show k.val = 0 * 1024 + k.val
      omega)

/-- A vector [64] cast to a row [1, 64] and broadcast down the 512 rows reads, at (p, q), the vector at q. -/
private theorem rowvec64_apply (v : Vec Ideal S64 .f32) (p : Fin 512) (q : Fin 64) :
    broadcastTo S512x64 (shapeCast S1x64 v shapeCasts_S64_S1x64) broadcasts_S1x64_S512x64 (ix2 p q) = v (ix1 q) := by
  refine (broadcastTo_apply _ broadcasts_S1x64_S512x64 (ix2 p q) (ix2 (0 : Fin 1) q) fun ax => ?_).trans ?_
  · match ax with
    | ⟨0, _⟩ => rfl
    | ⟨1, _⟩ => rfl
  · exact shapeCast_apply v shapeCasts_S64_S1x64 _ _ (by
      rw [Shape.rowMajor_val_two, Shape.rowMajor_val_one]
      show q.val = 0 * 64 + q.val
      omega)

/-- The guarded softplus as the kernel spells it at one entry — the self-comparison that would select x + 0 is false on
    the extended reals, and 0 - |x - 0| is -|x - 0| — is the row-wise softplus. -/
private theorem softplus_guard (x : EReal) :
    Scalar.select (Ideal.cmp .one (x - Ideal.ofBits .f32 0x00000000#32) (x - Ideal.ofBits .f32 0x00000000#32)) (x + Ideal.ofBits .f32 0x00000000#32)
      (max x (Ideal.ofBits .f32 0x00000000#32) + Ideal.log1p (Ideal.exp (Ideal.ofBits .f32 0x00000000#32
        - max (x - Ideal.ofBits .f32 0x00000000#32) (-(x - Ideal.ofBits .f32 0x00000000#32))))) = softplusS x := by
  rw [Ideal.ofBits_zero_f32, cmp_one_self, select_zero, sub_eq_add_neg (0 : EReal), zero_add]
  rfl

/-- The prior head's first product: the new state's row against the first prior weights. -/
theorem pay17_read (v3 v33 v36 v64 : FVec Ideal S512x1024 .f32) (v66 v67 : Vec Ideal S1024 .f32) (v80 : FVec Ideal S512x1024 .f32)
    (v82 : FVec Ideal S512x1 .f32) (v95 v96 : Vec Ideal S1024 .f32) (v127 : Vec Ideal S1024x1024 .bf16) (p : Fin 512) (q : Fin 1024) :
    k0_pay17 (F := Ideal) v3 v33 v36 v64 v66 v67 v80 v82 v95 v96 v127 (ix2 p q)
      = ∑ k : Fin 1024, k0_pay16 (F := Ideal) v3 v33 v36 v64 v66 v67 v80 v82 v95 v96 (ix2 p k) * v127 (ix2 k q) := by
  unfold k0_pay17
  refine (mmD _ _ p q).trans (Finset.sum_congr rfl fun k _ => ?_)
  exact congrArg₂ (· * ·) rfl (congrFun (shapeCast_self v127 _) (ix2 k q))

/-- The prior head's output: the rectified hidden row against the second prior weights, plus the bias. -/
theorem pay18_read (v130 : FVec Ideal S512x1024 .f32) (v131 : Vec Ideal S1024 .f32) (v137 : Vec Ideal S1024x64 .bf16) (v141 : Vec Ideal S64 .f32) (p : Fin 512) (q : Fin 64) :
    k0_pay18 (F := Ideal) v130 v131 v137 v141 (ix2 p q)
      = (∑ k : Fin 1024, max (v130 (ix2 p k) + v131 (ix1 k)) 0 * v137 (ix2 k q)) + v141 (ix1 q) := by
  unfold k0_pay18
  refine congrArg₂ (· + ·) ?_ (rowvec64_apply v141 p q)
  refine (mmE _ _ p q).trans (Finset.sum_congr rfl fun k _ => ?_)
  refine congrArg₂ (· * ·) ?_ (congrFun (shapeCast_self v137 _) (ix2 k q))
  exact congrArg₂ max (congrArg (v130 (ix2 p k) + ·) (rowvec_apply v131 p k)) Ideal.ofBits_zero_f32

/-- The prior mean: lanes 0 … 31 of the prior head's output. -/
theorem pay19_read (v130 : FVec Ideal S512x1024 .f32) (v131 : Vec Ideal S1024 .f32) (v137 : Vec Ideal S1024x64 .bf16) (v141 : Vec Ideal S64 .f32) (p : Fin 512) (c : Fin 32) :
    k0_pay19 (F := Ideal) v130 v131 v137 v141 (ix2 p c)
      = k0_pay18 (F := Ideal) v130 v131 v137 v141 (ix2 p (⟨c.val, by have := c.isLt; omega⟩ : Fin 64)) := by
  unfold k0_pay19
  generalize k0_pay18 (F := Ideal) v130 v131 v137 v141 = y
  refine extractStridedSlice_apply ![0, 0] y slices_S512x64_o0_0_S512x32 (ix2 p c) (ix2 p (⟨c.val, by have := c.isLt; omega⟩ : Fin 64)) fun a => ?_
  match a with
  | ⟨0, _⟩ => show p.val = 0 + p.val; omega
  | ⟨1, _⟩ => show c.val = 0 + c.val; omega

/-- The prior standard deviation: the guarded softplus of lanes 32 … 63, plus 0.1. -/
theorem pay20_read (v130 : FVec Ideal S512x1024 .f32) (v131 : Vec Ideal S1024 .f32) (v137 : Vec Ideal S1024x64 .bf16) (v141 : Vec Ideal S64 .f32) (p : Fin 512) (c : Fin 32) :
    k0_pay20 (F := Ideal) v130 v131 v137 v141 (ix2 p c)
      = softplusS (k0_pay18 (F := Ideal) v130 v131 v137 v141 (ix2 p (⟨32 + c.val, by have := c.isLt; omega⟩ : Fin 64))) + cTenth := by
  unfold k0_pay20
  generalize k0_pay18 (F := Ideal) v130 v131 v137 v141 = y
  have hx : extractStridedSlice S512x32 ![0, 32] y slices_S512x64_o0_32_S512x32 (ix2 p c)
      = y (ix2 p (⟨32 + c.val, by have := c.isLt; omega⟩ : Fin 64)) := by
    refine extractStridedSlice_apply ![0, 32] y slices_S512x64_o0_32_S512x32 (ix2 p c) (ix2 p (⟨32 + c.val, by have := c.isLt; omega⟩ : Fin 64)) fun a => ?_
    match a with
    | ⟨0, _⟩ => show p.val = 0 + p.val; omega
    | ⟨1, _⟩ => show 32 + c.val = 32 + c.val; rfl
  refine congrArg (· + cTenth) ?_
  refine Eq.trans ?_ (congrArg softplusS hx)
  exact softplus_guard _

/-- The posterior head's first product, split: the new state's row against the state part of the weights plus the
    embedding's row against the embedding part. -/
theorem pay21_read (v126 : FVec Ideal S512x1024 .f32) (v163 : Vec Ideal S512x1536 .f32) (v164 : Vec Ideal S1024x1024 .bf16)
    (v168 : Vec Ideal S1536x1024 .bf16) (p : Fin 512) (j : Fin 1024) :
    k0_pay21 (F := Ideal) v126 v163 v164 v168 (ix2 p j)
      = (∑ k : Fin 1024, v126 (ix2 p k) * v164 (ix2 k j)) + (∑ k : Fin 1536, v163 (ix2 p k) * v168 (ix2 k j)) := by
  unfold k0_pay21
  refine congrArg₂ (· + ·) ?_ ?_
  · refine (mmD _ _ p j).trans (Finset.sum_congr rfl fun k _ => ?_)
    exact congrArg₂ (· * ·) rfl (congrFun (shapeCast_self v164 _) (ix2 k j))
  · refine (mmF _ _ p j).trans (Finset.sum_congr rfl fun k _ => ?_)
    exact congrArg₂ (· * ·) rfl (congrFun (shapeCast_self v168 _) (ix2 k j))

/-- The packed value, lanes 0 … 31: the posterior mean. -/
theorem pay1_read0 (v145 v162 : FVec Ideal S512x32 .f32) (v172 : FVec Ideal S512x1024 .f32) (v173 : Vec Ideal S1024 .f32) (v179 : Vec Ideal S1024x64 .bf16)
    (v183 : Vec Ideal S64 .f32) (p : Fin 512) (c : Fin 32) :
    k0_pay1 (F := Ideal) v145 v162 v172 v173 v179 v183 (ix2 p (⟨c.val, by have := c.isLt; omega⟩ : Fin 128))
      = ((∑ k : Fin 1024, max (v172 (ix2 p k) + v173 (ix1 k)) 0 * v179 (ix2 k (⟨c.val, by have := c.isLt; omega⟩ : Fin 64))) + v183 (ix1 (⟨c.val, by have := c.isLt; omega⟩ : Fin 64))) := by
  unfold k0_pay1
  refine (concat4_apply _ _ v145 v162 concatenates_S512x32_S512x32_S512x32_S512x32_S512x128_d1 p c 0 _ (by show c.val = 32 * 0 + c.val; omega)).trans ?_
  exact (pay19_read v172 v173 v179 v183 p c).trans (pay18_read v172 v173 v179 v183 p _)

/-- The packed value, lanes 32 … 63: the posterior standard deviation. -/
theorem pay1_read1 (v145 v162 : FVec Ideal S512x32 .f32) (v172 : FVec Ideal S512x1024 .f32) (v173 : Vec Ideal S1024 .f32) (v179 : Vec Ideal S1024x64 .bf16)
    (v183 : Vec Ideal S64 .f32) (p : Fin 512) (c : Fin 32) :
    k0_pay1 (F := Ideal) v145 v162 v172 v173 v179 v183 (ix2 p (⟨32 + c.val, by have := c.isLt; omega⟩ : Fin 128))
      = softplusS ((∑ k : Fin 1024, max (v172 (ix2 p k) + v173 (ix1 k)) 0 * v179 (ix2 k (⟨32 + c.val, by have := c.isLt; omega⟩ : Fin 64))) + v183 (ix1 (⟨32 + c.val, by have := c.isLt; omega⟩ : Fin 64))) + cTenth := by
  unfold k0_pay1
  refine (concat4_apply _ _ v145 v162 concatenates_S512x32_S512x32_S512x32_S512x32_S512x128_d1 p c 1 _ (by show 32 + c.val = 32 * 1 + c.val; omega)).trans ?_
  exact (pay20_read v172 v173 v179 v183 p c).trans (congrArg (fun x => softplusS x + cTenth) (pay18_read v172 v173 v179 v183 p _))

/-- The packed value, lanes 64 … 95: the prior mean. -/
theorem pay1_read2 (v145 v162 : FVec Ideal S512x32 .f32) (v172 : FVec Ideal S512x1024 .f32) (v173 : Vec Ideal S1024 .f32) (v179 : Vec Ideal S1024x64 .bf16)
    (v183 : Vec Ideal S64 .f32) (p : Fin 512) (c : Fin 32) :
    k0_pay1 (F := Ideal) v145 v162 v172 v173 v179 v183 (ix2 p (⟨64 + c.val, by have := c.isLt; omega⟩ : Fin 128)) = v145 (ix2 p c) := by
  unfold k0_pay1
  exact concat4_apply _ _ v145 v162 concatenates_S512x32_S512x32_S512x32_S512x32_S512x128_d1 p c 2 _ (by show 64 + c.val = 32 * 2 + c.val; omega)

/-- The packed value, lanes 96 … 127: the prior standard deviation. -/
theorem pay1_read3 (v145 v162 : FVec Ideal S512x32 .f32) (v172 : FVec Ideal S512x1024 .f32) (v173 : Vec Ideal S1024 .f32) (v179 : Vec Ideal S1024x64 .bf16)
    (v183 : Vec Ideal S64 .f32) (p : Fin 512) (c : Fin 32) :
    k0_pay1 (F := Ideal) v145 v162 v172 v173 v179 v183 (ix2 p (⟨96 + c.val, by have := c.isLt; omega⟩ : Fin 128)) = v162 (ix2 p c) := by
  unfold k0_pay1
  exact concat4_apply _ _ v145 v162 concatenates_S512x32_S512x32_S512x32_S512x32_S512x128_d1 p c 3 _ (by show 96 + c.val = 32 * 3 + c.val; omega)

end Cert.KernelIdeal.KReadC

end
-- ==== Proof.RReadC.lean ====
/-
  The reference's head stages read at an index, at the ideal instance: the prior head (hidden product, output, mean,
  standard deviation) and the posterior head (the product over the 2560 joined lanes — 1024 of the new state, then 1536
  of the embedding — as the sum over the first 1024 plus the sum over the last 1536; output, mean, standard deviation).
-/
import proofs.«111823_j61529701482720_2_alg».proof.Proof.RefRead
import proofs.«111823_j61529701482720_2_alg».proof.Proof.LibRowRead
import proofs.«111823_j61529701482720_2_alg».proof.Proof.RowSpec

set_option maxRecDepth 16384

noncomputable section

namespace Cert.ReferenceIdeal.RReadC

open Idealize.ShloMosaic Idealize.ShloMosaic.ValueIdx Cert.ReferenceIdeal Cert.ReferenceIdeal.ReadP Cert.RowSpec Cert.Lib.RowRead

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

/-- The guarded softplus at an extended real: the guard compares a value with itself for being unordered or unequal,
    which is false, so the second branch is taken; the zero word is zero. -/
private theorem softplus_guarded (x : EReal) :
    Scalar.select (Ideal.cmp .une (x - Ideal.ofBits .f32 0x00000000#32) (x - Ideal.ofBits .f32 0x00000000#32)) (x + Ideal.ofBits .f32 0x00000000#32)
      (max x (Ideal.ofBits .f32 0x00000000#32) + Ideal.log1p (Ideal.exp (-(max (x - Ideal.ofBits .f32 0x00000000#32) (-(x - Ideal.ofBits .f32 0x00000000#32))))))
      = softplusS x := by
  rw [cmp_une_self, Ideal.ofBits_zero_f32]
  unfold softplusS Scalar.select
  rw [if_neg (by decide)]

/-- The prior head's first product. -/
theorem r116_read (r : Fin 16384) (q : Fin 1024) :
    val_main_v116 (F := Ideal) x1 x2 x3 x4 x5 x6 x7 x8 x9 x10 x11 x12 x13 x14 x15 (ix2 r q) = ∑ k : Fin 1024, val_main_v114 (F := Ideal) x1 x2 x3 x4 x5 x6 x7 x8 x9 x10 x11 x12 x13 x14 (ix2 r k) * x15 (ix2 q k) := by
  rw [val_main_v116_apply]
  refine Finset.sum_congr rfl fun k _ => ?_
  rw [val_main_v115_apply]
  have el : lidx_main_v116 (ix2 r q) k = ix2 r k := by
    funext a; match a with | ⟨0, _⟩ => rfl | ⟨1, _⟩ => rfl
  have er : idx_main_v115 (ridx_main_v116 (ix2 r q) k) = ix2 q k := by
    funext a; match a with | ⟨0, _⟩ => rfl | ⟨1, _⟩ => rfl
  rw [el, er]

/-- The prior head's output. -/
theorem r125_read (r : Fin 16384) (q : Fin 64) :
    val_main_v125 (F := Ideal) x1 x2 x3 x4 x5 x6 x7 x8 x9 x10 x11 x12 x13 x14 x15 x16 x17 x18 (ix2 r q)
      = (∑ k : Fin 1024, max (val_main_v116 (F := Ideal) x1 x2 x3 x4 x5 x6 x7 x8 x9 x10 x11 x12 x13 x14 x15 (ix2 r k) + x16 (ix1 k)) 0 * x17 (ix2 q k)) + x18 (ix1 q) := by
  rw [val_main_v125_apply, val_main_v122_apply, val_main_v124_apply, val_main_v123_apply]
  have eb : idx_main_v123 (idx_main_v124 (ix2 r q)) = ix1 q := by
    funext a; match a with | ⟨0, _⟩ => rfl
  rw [eb]
  show (∑ k : Fin 1024, _) + x18 (ix1 q) = _
  refine congrArg (fun s => s + x18 (ix1 q)) (Finset.sum_congr rfl fun k _ => ?_)
  have el : lidx_main_v122 (ix2 r q) k = ix2 r k := by
    funext a; match a with | ⟨0, _⟩ => rfl | ⟨1, _⟩ => rfl
  have er : idx_main_v121 (ridx_main_v122 (ix2 r q) k) = ix2 q k := by
    funext a; match a with | ⟨0, _⟩ => rfl | ⟨1, _⟩ => rfl
  have e1 : idx_main_v117 (idx_main_v118 (ix2 r k)) = ix1 k := by
    funext a; match a with | ⟨0, _⟩ => rfl
  rw [val_main_v121_apply, el, er, val_main_v120_apply, val_main_v119_apply, val_main_v118_apply,
    val_main_v117_apply, e1, val_main_call1_v0_apply, val_main_call1_cst_apply]
  show max (_ + _) (Ideal.ofBits .f32 0x00000000#32) * _ = _
  rw [Ideal.ofBits_zero_f32]

/-- The prior mean. -/
theorem r126_read (r : Fin 16384) (c : Fin 32) :
    val_main_v126 (F := Ideal) x1 x2 x3 x4 x5 x6 x7 x8 x9 x10 x11 x12 x13 x14 x15 x16 x17 x18 (ix2 r c) = val_main_v125 (F := Ideal) x1 x2 x3 x4 x5 x6 x7 x8 x9 x10 x11 x12 x13 x14 x15 x16 x17 x18 (ix2 r (⟨c.val, by have := c.isLt; omega⟩ : Fin 64)) := by
  rw [val_main_v126_apply]
  have e : idx_main_v126 (ix2 r c) = ix2 r (⟨c.val, by have := c.isLt; omega⟩ : Fin 64) := by
    funext a; match a with | ⟨0, _⟩ => rfl | ⟨1, _⟩ => rfl
  rw [e]

/-- The prior standard deviation. -/
theorem r130_read (r : Fin 16384) (c : Fin 32) :
    val_main_v130 (F := Ideal) x1 x2 x3 x4 x5 x6 x7 x8 x9 x10 x11 x12 x13 x14 x15 x16 x17 x18 (ix2 r c) = softplusS (val_main_v125 (F := Ideal) x1 x2 x3 x4 x5 x6 x7 x8 x9 x10 x11 x12 x13 x14 x15 x16 x17 x18 (ix2 r (⟨32 + c.val, by have := c.isLt; omega⟩ : Fin 64))) + cTenth := by
  have e : idx_main_v127 (ix2 r c) = ix2 r (⟨32 + c.val, by have := c.isLt; omega⟩ : Fin 64) := by
    funext a; match a with | ⟨0, _⟩ => rfl | ⟨1, _⟩ => rfl
  rw [val_main_v130_apply, val_main_v128_apply, val_main_call2_v4_apply, val_main_call2_v6_apply,
    val_main_call2_v11_apply, val_main_call2_v1_apply, val_main_call2_v10_apply, val_main_call2_v9_apply,
    val_main_call2_v8_apply, val_main_call2_v7_apply, val_main_call2_v3_apply, val_main_v127_apply, e,
    val_main_call2_v0_apply, val_main_call2_v2_apply, val_main_call2_v5_apply, val_main_v129_apply]
  exact congrArg (fun s => s + cTenth) (softplus_guarded _)

/-- A lane below 1024 of the joined row is the new state's lane. -/
private theorem v131_left (r : Fin 16384) (c : Fin 1024) (q : Fin 2560) (hq : q.val = c.val) :
    val_main_v131 (F := Ideal) x0 x1 x2 x3 x4 x5 x6 x7 x8 x9 x10 x11 x12 x13 x14 (ix2 r q) = val_main_v114 (F := Ideal) x1 x2 x3 x4 x5 x6 x7 x8 x9 x10 x11 x12 x13 x14 (ix2 r c) := by
  unfold val_main_v131
  refine concatenate_pair_apply_left (t := S16384x2560) (s₁ := S16384x1024) (s₂ := S16384x1536) 1 _ _ _ (ix2 r q) rfl (ix2 r c) (fun b => ?_)
  match b with
  | ⟨0, _⟩ => rfl
  | ⟨1, _⟩ => exact hq.symm

/-- A lane from 1024 on of the joined row is the embedding's lane, 1024 less. -/
private theorem v131_right (r : Fin 16384) (c : Fin 1536) (q : Fin 2560) (hq : q.val = 1024 + c.val) :
    val_main_v131 (F := Ideal) x0 x1 x2 x3 x4 x5 x6 x7 x8 x9 x10 x11 x12 x13 x14 (ix2 r q) = x0 (ix2 r c) := by
  unfold val_main_v131
  refine concatenate_pair_apply_right (t := S16384x2560) (s₁ := S16384x1024) (s₂ := S16384x1536) 1 _ _ _ (ix2 r q) rfl rfl (ix2 r c) (fun b hb => ?_) ?_
  · match b with
    | ⟨0, _⟩ => rfl
    | ⟨1, _⟩ => exact absurd rfl hb
  · show c.val + 1024 = q.val
    omega

/-- One term of the posterior head's first product: the joined row's lane q times the weight's entry (j, q). -/
private theorem v133_term (r : Fin 16384) (j : Fin 1024) (q : Fin 2560) :
    val_main_v131 (F := Ideal) x0 x1 x2 x3 x4 x5 x6 x7 x8 x9 x10 x11 x12 x13 x14 (lidx_main_v133 (ix2 r j) q) * val_main_v132 (F := Ideal) x19 (ridx_main_v133 (ix2 r j) q)
      = val_main_v131 (F := Ideal) x0 x1 x2 x3 x4 x5 x6 x7 x8 x9 x10 x11 x12 x13 x14 (ix2 r q) * x19 (ix2 j q) := by
  rw [val_main_v132_apply]
  have el : lidx_main_v133 (ix2 r j) q = ix2 r q := by
    funext a; match a with | ⟨0, _⟩ => rfl | ⟨1, _⟩ => rfl
  have er : idx_main_v132 (ridx_main_v133 (ix2 r j) q) = ix2 j q := by
    funext a; match a with | ⟨0, _⟩ => rfl | ⟨1, _⟩ => rfl
  rw [el, er]

/-- The posterior head's first product over the joined lanes. -/
theorem r133_read (r : Fin 16384) (j : Fin 1024) :
    val_main_v133 (F := Ideal) x0 x1 x2 x3 x4 x5 x6 x7 x8 x9 x10 x11 x12 x13 x14 x19 (ix2 r j)
      = (∑ k : Fin 1024, val_main_v114 (F := Ideal) x1 x2 x3 x4 x5 x6 x7 x8 x9 x10 x11 x12 x13 x14 (ix2 r k) * x19 (ix2 j (⟨k.val, by have := k.isLt; omega⟩ : Fin 2560)))
        + (∑ k : Fin 1536, x0 (ix2 r k) * x19 (ix2 j (⟨1024 + k.val, by have := k.isLt; omega⟩ : Fin 2560))) := by
  rw [val_main_v133_apply]
  show (∑ q : Fin (1024 + 1536), val_main_v131 (F := Ideal) x0 x1 x2 x3 x4 x5 x6 x7 x8 x9 x10 x11 x12 x13 x14 (lidx_main_v133 (ix2 r j) q)
      * val_main_v132 (F := Ideal) x19 (ridx_main_v133 (ix2 r j) q)) = _
  rw [sum_split 1024 1536]
  refine congrArg₂ (· + ·) ?_ ?_
  · refine Finset.sum_congr rfl fun c _ => ?_
    rw [v133_term, v131_left x0 x1 x2 x3 x4 x5 x6 x7 x8 x9 x10 x11 x12 x13 x14 r c (Fin.castAdd 1536 c) rfl]
    rfl
  · refine Finset.sum_congr rfl fun c _ => ?_
    rw [v133_term, v131_right x0 x1 x2 x3 x4 x5 x6 x7 x8 x9 x10 x11 x12 x13 x14 r c (Fin.natAdd 1024 c) rfl]
    rfl

/-- The posterior head's output. -/
theorem r142_read (r : Fin 16384) (q : Fin 64) :
    val_main_v142 (F := Ideal) x0 x1 x2 x3 x4 x5 x6 x7 x8 x9 x10 x11 x12 x13 x14 x19 x20 x21 x22 (ix2 r q)
      = (∑ k : Fin 1024, max (val_main_v133 (F := Ideal) x0 x1 x2 x3 x4 x5 x6 x7 x8 x9 x10 x11 x12 x13 x14 x19 (ix2 r k) + x20 (ix1 k)) 0 * x21 (ix2 q k)) + x22 (ix1 q) := by
  rw [val_main_v142_apply, val_main_v139_apply, val_main_v141_apply, val_main_v140_apply]
  have eb : idx_main_v140 (idx_main_v141 (ix2 r q)) = ix1 q := by
    funext a; match a with | ⟨0, _⟩ => rfl
  rw [eb]
  show (∑ k : Fin 1024, _) + x22 (ix1 q) = _
  refine congrArg (fun s => s + x22 (ix1 q)) (Finset.sum_congr rfl fun k _ => ?_)
  have el : lidx_main_v139 (ix2 r q) k = ix2 r k := by
    funext a; match a with | ⟨0, _⟩ => rfl | ⟨1, _⟩ => rfl
  have er : idx_main_v138 (ridx_main_v139 (ix2 r q) k) = ix2 q k := by
    funext a; match a with | ⟨0, _⟩ => rfl | ⟨1, _⟩ => rfl
  have e1 : idx_main_v134 (idx_main_v135 (ix2 r k)) = ix1 k := by
    funext a; match a with | ⟨0, _⟩ => rfl
  rw [val_main_v138_apply, el, er, val_main_v137_apply, val_main_v136_apply, val_main_v135_apply,
    val_main_v134_apply, e1, val_main_call3_v0_apply, val_main_call3_cst_apply]
  show max (_ + _) (Ideal.ofBits .f32 0x00000000#32) * _ = _
  rw [Ideal.ofBits_zero_f32]

/-- The posterior mean. -/
theorem r143_read (r : Fin 16384) (c : Fin 32) :
    val_main_v143 (F := Ideal) x0 x1 x2 x3 x4 x5 x6 x7 x8 x9 x10 x11 x12 x13 x14 x19 x20 x21 x22 (ix2 r c) = val_main_v142 (F := Ideal) x0 x1 x2 x3 x4 x5 x6 x7 x8 x9 x10 x11 x12 x13 x14 x19 x20 x21 x22 (ix2 r (⟨c.val, by have := c.isLt; omega⟩ : Fin 64)) := by
  rw [val_main_v143_apply]
  have e : idx_main_v143 (ix2 r c) = ix2 r (⟨c.val, by have := c.isLt; omega⟩ : Fin 64) := by
    funext a; match a with | ⟨0, _⟩ => rfl | ⟨1, _⟩ => rfl
  rw [e]

/-- The posterior standard deviation. -/
theorem r147_read (r : Fin 16384) (c : Fin 32) :
    val_main_v147 (F := Ideal) x0 x1 x2 x3 x4 x5 x6 x7 x8 x9 x10 x11 x12 x13 x14 x19 x20 x21 x22 (ix2 r c) = softplusS (val_main_v142 (F := Ideal) x0 x1 x2 x3 x4 x5 x6 x7 x8 x9 x10 x11 x12 x13 x14 x19 x20 x21 x22 (ix2 r (⟨32 + c.val, by have := c.isLt; omega⟩ : Fin 64))) + cTenth := by
  have e : idx_main_v144 (ix2 r c) = ix2 r (⟨32 + c.val, by have := c.isLt; omega⟩ : Fin 64) := by
    funext a; match a with | ⟨0, _⟩ => rfl | ⟨1, _⟩ => rfl
  rw [val_main_v147_apply, val_main_v145_apply, val_main_call4_v4_apply, val_main_call4_v6_apply,
    val_main_call4_v11_apply, val_main_call4_v1_apply, val_main_call4_v10_apply, val_main_call4_v9_apply,
    val_main_call4_v8_apply, val_main_call4_v7_apply, val_main_call4_v3_apply, val_main_v144_apply, e,
    val_main_call4_v0_apply, val_main_call4_v2_apply, val_main_call4_v5_apply, val_main_v146_apply]
  exact congrArg (fun s => s + cTenth) (softplus_guarded _)

end Cert.ReferenceIdeal.RReadC

end
-- ==== Proof.JoinH.lean ====
/-
  The body's head values against the reference's head stages, entry by entry, for blocks that are one row block of the
  arguments: the prior head's hidden product and output, the posterior head's hidden product, and the four lane quarters
  of the packed value (posterior mean, posterior deviation, prior mean, prior deviation).
-/
import proofs.«111823_j61529701482720_2_alg».proof.Proof.JoinG
import proofs.«111823_j61529701482720_2_alg».proof.Proof.KReadC
import proofs.«111823_j61529701482720_2_alg».proof.Proof.RReadC

set_option maxRecDepth 16384

noncomputable section

open Idealize.ShloMosaic Idealize.ShloMosaic.ValueIdx

namespace Cert.Join

open Cert.KernelIdeal Cert.KernelIdeal.Gen Cert.RowSpec

variable (b0 : Vec Ideal S512x1536 .f32) (b1 : Vec Ideal S512x12 .f32) (b2 : Vec Ideal S512x1 .f32) (b3 : Vec Ideal S512x1024 .f32) (b4 : Vec Ideal S512x32 .f32) (b5 : Vec Ideal S32x1024 .bf16) (b6 : Vec Ideal S12x1024 .bf16) (b7 : Vec Ideal S1024 .f32) (b8 : Vec Ideal S1024x3072 .bf16) (b9 : Vec Ideal S1024x3072 .bf16) (b10 : Vec Ideal S1024 .f32) (b11 : Vec Ideal S1024 .f32) (b12 : Vec Ideal S1024 .f32) (b13 : Vec Ideal S1024 .f32) (b14 : Vec Ideal S1024 .f32) (b15 : Vec Ideal S1024 .f32) (b16 : Vec Ideal S1024x1024 .bf16) (b17 : Vec Ideal S1024 .f32) (b18 : Vec Ideal S1024x64 .bf16) (b19 : Vec Ideal S64 .f32) (b20 : Vec Ideal S1024x1024 .bf16) (b21 : Vec Ideal S1536x1024 .bf16) (b22 : Vec Ideal S1024 .f32) (b23 : Vec Ideal S1024x64 .bf16) (b24 : Vec Ideal S64 .f32)

variable (x0 : (⟨S16384x1536, .f32⟩ : BufTy).Contents (Elt Ideal)) (x1 : (⟨S16384x12, .f32⟩ : BufTy).Contents (Elt Ideal)) (x2 : (⟨S16384x1, .f32⟩ : BufTy).Contents (Elt Ideal)) (x3 : (⟨S16384x1024, .f32⟩ : BufTy).Contents (Elt Ideal)) (x4 : (⟨S16384x32, .f32⟩ : BufTy).Contents (Elt Ideal)) (x5 : (⟨S1024x44, .f32⟩ : BufTy).Contents (Elt Ideal)) (x6 : (⟨S1024, .f32⟩ : BufTy).Contents (Elt Ideal)) (x7 : (⟨S3072x1024, .f32⟩ : BufTy).Contents (Elt Ideal)) (x8 : (⟨S3072x1024, .f32⟩ : BufTy).Contents (Elt Ideal)) (x9 : (⟨S1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S64x1024, .f32⟩ : BufTy).Contents (Elt Ideal)) (x18 : (⟨S64, .f32⟩ : BufTy).Contents (Elt Ideal)) (x19 : (⟨S1024x2560, .f32⟩ : BufTy).Contents (Elt Ideal)) (x20 : (⟨S1024, .f32⟩ : BufTy).Contents (Elt Ideal)) (x21 : (⟨S64x1024, .f32⟩ : BufTy).Contents (Elt Ideal)) (x22 : (⟨S64, .f32⟩ : BufTy).Contents (Elt Ideal))

variable {ρ : Fin 512 → Fin 16384} (H : Agree b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 ρ)

include H

/-- The prior head's hidden product. -/
theorem hidden_eq (p : Fin 512) (q : Fin 1024) :
    kHidden b1 b2 b3 b4 b5 b6 b7 b8 b9 b10 b11 b12 b13 b14 b15 b16 (ix2 p q) = Cert.ReferenceIdeal.ReadP.val_main_v116 (F := Ideal) x1 x2 x3 x4 x5 x6 x7 x8 x9 x10 x11 x12 x13 x14 x15 (ix2 (ρ p) q) := by
  unfold kHidden
  refine (KReadC.pay17_read _ _ _ _ _ _ _ _ _ _ b16 p q).trans ?_
  refine Eq.trans ?_ (Cert.ReferenceIdeal.RReadC.r116_read x1 x2 x3 x4 x5 x6 x7 x8 x9 x10 x11 x12 x13 x14 x15 (ρ p) q).symm
  refine Finset.sum_congr rfl fun k _ => ?_
  exact congrArg₂ (· * ·) (state_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (H.h16 k q)

/-- The prior head's output. -/
theorem prior_eq (p : Fin 512) (q : Fin 64) :
    k0_pay18 (F := Ideal) (kHidden b1 b2 b3 b4 b5 b6 b7 b8 b9 b10 b11 b12 b13 b14 b15 b16) b17 b18 b19 (ix2 p q) = Cert.ReferenceIdeal.ReadP.val_main_v125 (F := Ideal) x1 x2 x3 x4 x5 x6 x7 x8 x9 x10 x11 x12 x13 x14 x15 x16 x17 x18 (ix2 (ρ p) q) := by
  refine (KReadC.pay18_read _ b17 b18 b19 p q).trans ?_
  refine Eq.trans ?_ (Cert.ReferenceIdeal.RReadC.r125_read x1 x2 x3 x4 x5 x6 x7 x8 x9 x10 x11 x12 x13 x14 x15 x16 x17 x18 (ρ p) q).symm
  refine congrArg₂ (· + ·) (Finset.sum_congr rfl fun k _ => ?_) (H.h19 q)
  exact congrArg₂ (· * ·) (congrArg₂ max (congrArg₂ (· + ·) (hidden_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (H.h17 k)) rfl) (H.h18 k q)

/-- The posterior head's hidden product. -/
theorem postHidden_eq (p : Fin 512) (j : Fin 1024) :
    k0_pay21 (F := Ideal) (kState b1 b2 b3 b4 b5 b6 b7 b8 b9 b10 b11 b12 b13 b14 b15) b0 b20 b21 (ix2 p j) = Cert.ReferenceIdeal.ReadP.val_main_v133 (F := Ideal) x0 x1 x2 x3 x4 x5 x6 x7 x8 x9 x10 x11 x12 x13 x14 x19 (ix2 (ρ p) j) := by
  refine (KReadC.pay21_read _ b0 b20 b21 p j).trans ?_
  refine Eq.trans ?_ (Cert.ReferenceIdeal.RReadC.r133_read x0 x1 x2 x3 x4 x5 x6 x7 x8 x9 x10 x11 x12 x13 x14 x19 (ρ p) j).symm
  refine congrArg₂ (· + ·) (Finset.sum_congr rfl fun k _ => ?_) (Finset.sum_congr rfl fun k _ => ?_)
  · exact congrArg₂ (· * ·) (state_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (H.h20 k j)
  · exact congrArg₂ (· * ·) (H.h0 p k) (H.h21 k j)

/-- Lanes 0 … 31 of the packed value: the posterior mean. -/
theorem packed0_eq (p : Fin 512) (c : Fin 32) :
    kPacked b0 b1 b2 b3 b4 b5 b6 b7 b8 b9 b10 b11 b12 b13 b14 b15 b16 b17 b18 b19 b20 b21 b22 b23 b24 (ix2 p (⟨c.val, by have := c.isLt; omega⟩ : Fin 128)) = Cert.ReferenceIdeal.ReadP.val_main_v143 (F := Ideal) x0 x1 x2 x3 x4 x5 x6 x7 x8 x9 x10 x11 x12 x13 x14 x19 x20 x21 x22 (ix2 (ρ p) c) := by
  unfold kPacked
  refine (KReadC.pay1_read0 _ _ _ b22 b23 b24 p c).trans ?_
  refine Eq.trans ?_ ((Cert.ReferenceIdeal.RReadC.r143_read x0 x1 x2 x3 x4 x5 x6 x7 x8 x9 x10 x11 x12 x13 x14 x19 x20 x21 x22 (ρ p) c).trans
    (Cert.ReferenceIdeal.RReadC.r142_read x0 x1 x2 x3 x4 x5 x6 x7 x8 x9 x10 x11 x12 x13 x14 x19 x20 x21 x22 (ρ p) _)).symm
  refine congrArg₂ (· + ·) (Finset.sum_congr rfl fun k _ => ?_) (H.h24 _)
  exact congrArg₂ (· * ·) (congrArg₂ max (congrArg₂ (· + ·) (postHidden_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (H.h22 k)) rfl) (H.h23 k _)

/-- Lanes 32 … 63: the posterior deviation. -/
theorem packed1_eq (p : Fin 512) (c : Fin 32) :
    kPacked b0 b1 b2 b3 b4 b5 b6 b7 b8 b9 b10 b11 b12 b13 b14 b15 b16 b17 b18 b19 b20 b21 b22 b23 b24 (ix2 p (⟨32 + c.val, by have := c.isLt; omega⟩ : Fin 128)) = Cert.ReferenceIdeal.ReadP.val_main_v147 (F := Ideal) x0 x1 x2 x3 x4 x5 x6 x7 x8 x9 x10 x11 x12 x13 x14 x19 x20 x21 x22 (ix2 (ρ p) c) := by
  unfold kPacked
  refine (KReadC.pay1_read1 _ _ _ b22 b23 b24 p c).trans ?_
  refine Eq.trans ?_ (Cert.ReferenceIdeal.RReadC.r147_read x0 x1 x2 x3 x4 x5 x6 x7 x8 x9 x10 x11 x12 x13 x14 x19 x20 x21 x22 (ρ p) c).symm
  refine congrArg (fun s => softplusS s + cTenth) ?_
  refine Eq.trans ?_ (Cert.ReferenceIdeal.RReadC.r142_read x0 x1 x2 x3 x4 x5 x6 x7 x8 x9 x10 x11 x12 x13 x14 x19 x20 x21 x22 (ρ p) _).symm
  refine congrArg₂ (· + ·) (Finset.sum_congr rfl fun k _ => ?_) (H.h24 _)
  exact congrArg₂ (· * ·) (congrArg₂ max (congrArg₂ (· + ·) (postHidden_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p k) (H.h22 k)) rfl) (H.h23 k _)

/-- Lanes 64 … 95: the prior mean. -/
theorem packed2_eq (p : Fin 512) (c : Fin 32) :
    kPacked b0 b1 b2 b3 b4 b5 b6 b7 b8 b9 b10 b11 b12 b13 b14 b15 b16 b17 b18 b19 b20 b21 b22 b23 b24 (ix2 p (⟨64 + c.val, by have := c.isLt; omega⟩ : Fin 128)) = Cert.ReferenceIdeal.ReadP.val_main_v126 (F := Ideal) x1 x2 x3 x4 x5 x6 x7 x8 x9 x10 x11 x12 x13 x14 x15 x16 x17 x18 (ix2 (ρ p) c) := by
  unfold kPacked
  refine (KReadC.pay1_read2 _ _ _ b22 b23 b24 p c).trans ?_
  refine (KReadC.pay19_read _ b17 b18 b19 p c).trans ?_
  exact (prior_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p _).trans (Cert.ReferenceIdeal.RReadC.r126_read x1 x2 x3 x4 x5 x6 x7 x8 x9 x10 x11 x12 x13 x14 x15 x16 x17 x18 (ρ p) c).symm

/-- Lanes 96 … 127: the prior deviation. -/
theorem packed3_eq (p : Fin 512) (c : Fin 32) :
    kPacked b0 b1 b2 b3 b4 b5 b6 b7 b8 b9 b10 b11 b12 b13 b14 b15 b16 b17 b18 b19 b20 b21 b22 b23 b24 (ix2 p (⟨96 + c.val, by have := c.isLt; omega⟩ : Fin 128)) = Cert.ReferenceIdeal.ReadP.val_main_v130 (F := Ideal) x1 x2 x3 x4 x5 x6 x7 x8 x9 x10 x11 x12 x13 x14 x15 x16 x17 x18 (ix2 (ρ p) c) := by
  unfold kPacked
  refine (KReadC.pay1_read3 _ _ _ b22 b23 b24 p c).trans ?_
  refine (KReadC.pay20_read _ b17 b18 b19 p c).trans ?_
  refine Eq.trans ?_ (Cert.ReferenceIdeal.RReadC.r130_read x1 x2 x3 x4 x5 x6 x7 x8 x9 x10 x11 x12 x13 x14 x15 x16 x17 x18 (ρ p) c).symm
  exact congrArg (fun s => softplusS s + cTenth) (prior_eq b0 b1 b2 b3 b4 b5 b6 b7 b8 b9 b10 b11 b12 b13 b14 b15 b16 b17 b18 b19 b20 b21 b22 b23 b24 x0 x1 x2 x3 x4 x5 x6 x7 x8 x9 x10 x11 x12 x13 x14 x15 x16 x17 x18 x19 x20 x21 x22 H p _)

end Cert.Join

end
-- ==== Proof.Join.lean ====
/-
  The kernel's two output blocks against the reference's stages, entry by entry.

  For a grid point t, entry (p, j) of the new-state block the body leaves is the reference's new recurrent state at row
  512 t + p and lane j; lane 32 k + c of the packed block is lane c of the posterior mean, the posterior deviation, the
  prior mean or the prior deviation (k = 0, 1, 2, 3) at that row. The reference's stages are taken at the kernel
  program's own argument arrays. The body's one store into each output buffer covers it, so the buffer holds the stored
  value; the blocks the body loaded are one row block of the arguments along p ↦ 512 t + p.
-/
import proofs.«111823_j61529701482720_2_alg».proof.Proof.BlockRead
import proofs.«111823_j61529701482720_2_alg».proof.Proof.JoinH

set_option maxRecDepth 16384

noncomputable section

open Idealize.ShloMosaic Idealize.ShloMosaic.TcCoe Idealize.SL.Sem Idealize.ShloMosaic.ValueIdx

namespace Cert.Join

open Cert.KernelIdeal Cert.KernelIdeal.Gen Cert.KernelIdeal.BlockRead

theorem hz : (![0, 0] : Fin 2 → Nat) = fun _ => 0 := funext fun a => by fin_cases a <;> rfl
theorem hz1 : (![0] : Fin 1 → Nat) = fun _ => 0 := funext fun a => by fin_cases a; rfl

section Blocks

variable (b0 : Vec Ideal S512x1536 .f32) (b1 : Vec Ideal S512x12 .f32) (b2 : Vec Ideal S512x1 .f32) (b3 : Vec Ideal S512x1024 .f32) (b4 : Vec Ideal S512x32 .f32) (b5 : Vec Ideal S32x1024 .bf16) (b6 : Vec Ideal S12x1024 .bf16) (b7 : Vec Ideal S1024 .f32) (b8 : Vec Ideal S1024x3072 .bf16) (b9 : Vec Ideal S1024x3072 .bf16) (b10 : Vec Ideal S1024 .f32) (b11 : Vec Ideal S1024 .f32) (b12 : Vec Ideal S1024 .f32) (b13 : Vec Ideal S1024 .f32) (b14 : Vec Ideal S1024 .f32) (b15 : Vec Ideal S1024 .f32) (b16 : Vec Ideal S1024x1024 .bf16) (b17 : Vec Ideal S1024 .f32) (b18 : Vec Ideal S1024x64 .bf16) (b19 : Vec Ideal S64 .f32) (b20 : Vec Ideal S1024x1024 .bf16) (b21 : Vec Ideal S1536x1024 .bf16) (b22 : Vec Ideal S1024 .f32) (b23 : Vec Ideal S1024x64 .bf16) (b24 : Vec Ideal S64 .f32)

/-- The new-state buffer after the body holds the body's new-state value. -/
theorem out26_eq : out0_26 (F := Ideal) b0 b1 b2 b3 b4 b5 b6 b7 b8 b9 b10 b11 b12 b13 b14 b15 b16 b17 b18 b19 b20 b21 b22 b23 b24 = kState b1 b2 b3 b4 b5 b6 b7 b8 b9 b10 b11 b12 b13 b14 b15 := by
  unfold out0_26 kState
  rw [View.canon_unit_zero hz]
  simp only [View.ld_unit_zero (S := S512x1) hz, View.ld_unit_zero (S := S512x1024) hz, View.ld_unit_zero (S := S512x32) hz, View.ld_unit_zero (S := S512x12) hz, View.ld_unit_zero (S := S32x1024) hz, View.ld_unit_zero (S := S12x1024) hz, View.ld_unit_zero (S := S1024x3072) hz, View.ld_unit_zero (S := S1024x1024) hz, View.ld_unit_zero (S := S1024x64) hz, View.ld_unit_zero (S := S512x1536) hz, View.ld_unit_zero (S := S1536x1024) hz, View.ld_unit_zero (S := S512x128) hz, View.ld_unit_zero (S := S1024) hz1, View.ld_unit_zero (S := S64) hz1]

/-- The packed buffer after the body holds the body's packed value. -/
theorem out25_eq : out0_25 (F := Ideal) b0 b1 b2 b3 b4 b5 b6 b7 b8 b9 b10 b11 b12 b13 b14 b15 b16 b17 b18 b19 b20 b21 b22 b23 b24 = kPacked b0 b1 b2 b3 b4 b5 b6 b7 b8 b9 b10 b11 b12 b13 b14 b15 b16 b17 b18 b19 b20 b21 b22 b23 b24 := by
  unfold out0_25 kPacked kHidden kState
  rw [View.canon_unit_zero hz]
  simp only [View.ld_unit_zero (S := S512x1) hz, View.ld_unit_zero (S := S512x1024) hz, View.ld_unit_zero (S := S512x32) hz, View.ld_unit_zero (S := S512x12) hz, View.ld_unit_zero (S := S32x1024) hz, View.ld_unit_zero (S := S12x1024) hz, View.ld_unit_zero (S := S1024x3072) hz, View.ld_unit_zero (S := S1024x1024) hz, View.ld_unit_zero (S := S1024x64) hz, View.ld_unit_zero (S := S512x1536) hz, View.ld_unit_zero (S := S1536x1024) hz, View.ld_unit_zero (S := S512x128) hz, View.ld_unit_zero (S := S1024) hz1, View.ld_unit_zero (S := S64) hz1]

end Blocks

variable (m : (ℓ : Loc nD τ sig) → Buf (Elt Ideal) ℓ)

/-- The reference's new recurrent state, of the kernel program's arguments. -/
def G114 (c : Dev nD) : S16384x1024.Idx → EReal :=
  Cert.ReferenceIdeal.ReadP.val_main_v114 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The reference's prior mean. -/
def G126 (c : Dev nD) : S16384x32.Idx → EReal :=
  Cert.ReferenceIdeal.ReadP.val_main_v126 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The reference's prior deviation. -/
def G130 (c : Dev nD) : S16384x32.Idx → EReal :=
  Cert.ReferenceIdeal.ReadP.val_main_v130 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The reference's posterior mean. -/
def G143 (c : Dev nD) : S16384x32.Idx → EReal :=
  Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22))
/-- The reference's posterior deviation. -/
def G147 (c : Dev nD) : S16384x32.Idx → EReal :=
  Cert.ReferenceIdeal.ReadP.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22))

/-- The blocks of point t are one row block of the arguments along p ↦ 512 t + p. -/
theorem agree (c : Dev nD) (t : Fin cfg0.N) :
    Agree (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (row t) :=
  ⟨iblk0_apply m c t, iblk1_apply m c t, iblk2_apply m c t, iblk3_apply m c t, iblk4_apply m c t, iblk5_apply m c t, iblk6_apply m c t, iblk7_apply m c t, iblk8_apply m c t, iblk9_apply m c t, iblk10_apply m c t, iblk11_apply m c t, iblk12_apply m c t, iblk13_apply m c t, iblk14_apply m c t, iblk15_apply m c t, iblk16_apply m c t, iblk17_apply m c t, iblk18_apply m c t, iblk19_apply m c t, iblk20_apply m c t, iblk21_apply m c t, iblk22_apply m c t, iblk23_apply m c t, iblk24_apply m c t⟩

/-- The new-state block of point t, entry (p, j). -/
theorem out26_apply (c : Dev nD) (t : Fin cfg0.N) (p : Fin 512) (j : Fin 1024) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) : Vec Ideal S512x1024 .f32) (ix2 p j) = G114 m c (ix2 (row t p) j) :=
  (congrFun (out26_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (ix2 p j)).trans (state_eq _ _ _ _ _ _ _ _ _ _ _ _ _ _ _ _ _ _ _ _ _ _ _ _ _ _ _ _ _ _ _ _ _ _ _ _ _ _ _ _ _ _ _ _ _ _ _ _ (agree m c t) p j)

/-- The packed block of point t, entry (p, 32 k + cc). -/
theorem out25_apply (c : Dev nD) (t : Fin cfg0.N) (p : Fin 512) (cc : Fin 32) (k : Fin 4) (q : Fin 128) (hq : q.val = 32 * k.val + cc.val) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) : Vec Ideal S512x128 .f32) (ix2 p q)
      = (![G143 m c, G147 m c, G126 m c, G130 m c] k) (ix2 (row t p) cc) := by
  have e := congrFun (out25_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (ix2 p q)
  refine e.trans ?_
  have A := agree m c t
  fin_cases k
  · have hb : cc.val < 128 := by have := cc.isLt; omega
    rw [show q = (⟨cc.val, hb⟩ : Fin 128) from Fin.ext (by simpa using hq)]
    exact packed0_eq _ _ _ _ _ _ _ _ _ _ _ _ _ _ _ _ _ _ _ _ _ _ _ _ _ _ _ _ _ _ _ _ _ _ _ _ _ _ _ _ _ _ _ _ _ _ _ _ A p cc
  · have hb : 32 + cc.val < 128 := by have := cc.isLt; omega
    rw [show q = (⟨32 + cc.val, hb⟩ : Fin 128) from Fin.ext (by simpa using hq)]
    exact packed1_eq _ _ _ _ _ _ _ _ _ _ _ _ _ _ _ _ _ _ _ _ _ _ _ _ _ _ _ _ _ _ _ _ _ _ _ _ _ _ _ _ _ _ _ _ _ _ _ _ A p cc
  · have hb : 64 + cc.val < 128 := by have := cc.isLt; omega
    rw [show q = (⟨64 + cc.val, hb⟩ : Fin 128) from Fin.ext (by simpa using hq)]
    exact packed2_eq _ _ _ _ _ _ _ _ _ _ _ _ _ _ _ _ _ _ _ _ _ _ _ _ _ _ _ _ _ _ _ _ _ _ _ _ _ _ _ _ _ _ _ _ _ _ _ _ A p cc
  · have hb : 96 + cc.val < 128 := by have := cc.isLt; omega
    rw [show q = (⟨96 + cc.val, hb⟩ : Fin 128) from Fin.ext (by simpa using hq)]
    exact packed3_eq _ _ _ _ _ _ _ _ _ _ _ _ _ _ _ _ _ _ _ _ _ _ _ _ _ _ _ _ _ _ _ _ _ _ _ _ _ _ _ _ _ _ _ _ _ _ _ _ A p cc

end Cert.Join

end
-- ==== Proof.KRun.lean ====
/-
  The kernel program's run, read back: each of its six result arrays as one function of the argument arrays.

  Every grid point t writes back a block of 512 rows, rows 512 t … 512 t + 511, of the new-state array and of the packed
  array; the 32 points' blocks tile the 16384 rows, so each array ends holding, row by row, what the points' blocks
  hold. Lane 32 k + c of the packed array is lane c of the posterior mean, the posterior deviation, the prior mean or
  the prior deviation (k = 0, 1, 2, 3), and the program's last four operations cut the packed array back into those
  four arrays.
-/
import proofs.«111823_j61529701482720_2_alg».proof.Proof.Join
import proofs.«111823_j61529701482720_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KRun

open Cert.KernelIdeal Cert.KernelIdeal.Gen Cert.KernelIdeal.BlockRead

variable (m : (ℓ : Loc nD τ sig) → Buf (Elt Ideal) ℓ) (ρ : Dev nD → PrngReg)

/-- What point t writes back to the new-state array is rows 512 t … 512 t + 511 of the reference's new state. -/
theorem flushed26_eq (c : Dev nD) (t : Fin cfg0.N) :
    (dats m 0 c).flushed 26 t = ((cfg0.win 26).blk t).view.read (Elt Ideal) (Cert.Join.G114 m c) := by
  obtain ⟨-, -, -, -, -, -, -, -, -, -, -, -, e0, e1⟩ := idx_batch t
  show (cfg0.win 26).cut (grid0.coords t) ((dats m 0 c).after 26 t) = _
  rw [after0_26]
  funext y
  obtain ⟨p, j, rfl⟩ : ∃ (p : Fin 512) (j : Fin 1024), y = ix2 p j := ⟨y 0, y 1, eq_ix2 y⟩
  rw [View.read_apply]
  refine (Cert.Join.out26_apply m c t p j).trans ?_
  show _ = Cert.Join.G114 m c (((cfg0.win 26).blk t).view.emb (ix2 p j))
  refine congrArg _ (funext fun a => Fin.ext ?_)
  match a with
  | ⟨0, _⟩ => show 512 * t.val + p.val = win0_26.index t (0 : Fin 2) * 512 + 1 * p.val; rw [e0]; omega
  | ⟨1, _⟩ => show j.val = win0_26.index t (1 : Fin 2) * 1024 + 1 * j.val; rw [e1]; omega

/-- An index of the new-state array is in point t's block iff each coordinate is in the block's range on its axis. -/
theorem mem_blk26 (t : Fin cfg0.N) (i : S16384x1024.Idx) :
    i ∈ ((cfg0.win 26).blk t).view.set ↔ ∀ a : Fin 2, win0_26.index t a * S512x1024.size a ≤ (i a).val ∧ (i a).val < win0_26.index t a * S512x1024.size a + S512x1024.size a := by
  show i ∈ ((View.whole main_v18_1).slice (win0_26.rect t)).set ↔ _
  rw [View.set_slice_whole, Rect.mem_set_unit]
  exact Iff.rfl

/-- The 32 blocks of 512 rows tile the 16384 rows, so the new-state array ends holding the reference's new state. -/
theorem final26 (c : Dev nD) : (dats m 0 c).arrAt 26 cfg0.N = Cert.Join.G114 m c :=
  (dats m 0 c).arrAt_eq_of_cover 26 (Cert.Join.G114 m c) (fun t _ => flushed26_eq m c t) fun i => by
    have hN : cfg0.N = 32 := N_0
    have h0 : (i 0).val < 16384 := (i 0).isLt
    have h1 : (i 1).val < 1024 := (i 1).isLt
    obtain ⟨t, ht⟩ : ∃ t : Fin cfg0.N, t.val = (i 0).val / 512 := ⟨⟨(i 0).val / 512, by omega⟩, rfl⟩
    obtain ⟨-, -, -, -, -, -, -, -, -, -, -, -, e0, e1⟩ := idx_batch t
    refine ⟨t, flush0_26 t, ?_⟩
    rw [mem_blk26]
    intro a
    match a with
    | ⟨0, _⟩ =>
      show win0_26.index t (0 : Fin 2) * 512 ≤ (i 0).val ∧ (i 0).val < win0_26.index t (0 : Fin 2) * 512 + 512
      rw [e0]; omega
    | ⟨1, _⟩ =>
      show win0_26.index t (1 : Fin 2) * 1024 ≤ (i 1).val ∧ (i 1).val < win0_26.index t (1 : Fin 2) * 1024 + 1024
      rw [e1]; omega

/-- Which of the four heads lane q of the packed array belongs to. -/
def headOf (q : Fin 128) : Fin 4 := ⟨q.val / 32, by have := q.isLt; omega⟩

/-- The lane inside its head of lane q of the packed array. -/
def laneOf (q : Fin 128) : Fin 32 := ⟨q.val % 32, Nat.mod_lt _ (by decide)⟩

/-- The packed array: lane 32 k + cc of row r is lane cc of row r of the posterior mean, the posterior deviation, the
    prior mean or the prior deviation (k = 0, 1, 2, 3). -/
def P (c : Dev nD) : S16384x128.Idx → EReal := fun i =>
  (![Cert.Join.G143 m c, Cert.Join.G147 m c, Cert.Join.G126 m c, Cert.Join.G130 m c] (headOf (i 1)))
    (ix2 (⟨(i 0).val, (i 0).isLt⟩ : Fin 16384) (laneOf (i 1)))

/-- The packed array at an index whose row is r and whose lane is 32 k + cc. -/
theorem P_apply (c : Dev nD) (r : Fin 16384) (cc : Fin 32) (k : Fin 4) (i : S16384x128.Idx)
    (h0 : (i 0).val = r.val) (h1 : (i 1).val = 32 * k.val + cc.val) :
    P m c i = (![Cert.Join.G143 m c, Cert.Join.G147 m c, Cert.Join.G126 m c, Cert.Join.G130 m c] k) (ix2 r cc) := by
  have hk := k.isLt
  have hc := cc.isLt
  have e0 : (⟨(i 0).val, (i 0).isLt⟩ : Fin 16384) = r := Fin.ext h0
  have e1 : headOf (i 1) = k := Fin.ext (by show (i 1).val / 32 = k.val; omega)
  have e2 : laneOf (i 1) = cc := Fin.ext (by show (i 1).val % 32 = cc.val; omega)
  unfold P
  rw [e0, e1, e2]

/-- What point t writes back to the packed array is rows 512 t … 512 t + 511 of the packed array of the reference's
    four heads. -/
theorem flushed25_eq (c : Dev nD) (t : Fin cfg0.N) :
    (dats m 0 c).flushed 25 t = ((cfg0.win 25).blk t).view.read (Elt Ideal) (P m c) := by
  obtain ⟨-, -, -, -, -, -, -, -, -, -, e0, e1, -⟩ := idx_batch t
  show (cfg0.win 25).cut (grid0.coords t) ((dats m 0 c).after 25 t) = _
  rw [after0_25]
  funext y
  obtain ⟨p, q, rfl⟩ : ∃ (p : Fin 512) (q : Fin 128), y = ix2 p q := ⟨y 0, y 1, eq_ix2 y⟩
  rw [View.read_apply]
  have hq : q.val < 128 := q.isLt
  have hq' : q.val = 32 * (headOf q).val + (laneOf q).val := by
    show q.val = 32 * (q.val / 32) + q.val % 32; omega
  refine (Cert.Join.out25_apply m c t p (laneOf q) (headOf q) q hq').trans ?_
  show _ = P m c (((cfg0.win 25).blk t).view.emb (ix2 p q))
  refine (P_apply m c (row t p) (laneOf q) (headOf q) _ ?_ ?_).symm
  · show win0_25.index t (0 : Fin 2) * 512 + 1 * p.val = 512 * t.val + p.val; rw [e0]; omega
  · show win0_25.index t (1 : Fin 2) * 128 + 1 * q.val = _; rw [e1]; omega

/-- An index of the packed array is in point t's block iff each coordinate is in the block's range on its axis. -/
theorem mem_blk25 (t : Fin cfg0.N) (i : S16384x128.Idx) :
    i ∈ ((cfg0.win 25).blk t).view.set ↔ ∀ a : Fin 2, win0_25.index t a * S512x128.size a ≤ (i a).val ∧ (i a).val < win0_25.index t a * S512x128.size a + S512x128.size a := by
  show i ∈ ((View.whole main_v18_0).slice (win0_25.rect t)).set ↔ _
  rw [View.set_slice_whole, Rect.mem_set_unit]
  exact Iff.rfl

/-- The 32 blocks of 512 rows tile the 16384 rows, so the packed array ends holding the reference's four heads packed. -/
theorem final25 (c : Dev nD) : (dats m 0 c).arrAt 25 cfg0.N = P m c :=
  (dats m 0 c).arrAt_eq_of_cover 25 (P m c) (fun t _ => flushed25_eq m c t) fun i => by
    have hN : cfg0.N = 32 := N_0
    have h0 : (i 0).val < 16384 := (i 0).isLt
    have h1 : (i 1).val < 128 := (i 1).isLt
    obtain ⟨t, ht⟩ : ∃ t : Fin cfg0.N, t.val = (i 0).val / 512 := ⟨⟨(i 0).val / 512, by omega⟩, rfl⟩
    obtain ⟨-, -, -, -, -, -, -, -, -, -, e0, e1, -⟩ := idx_batch t
    refine ⟨t, flush0_25 t, ?_⟩
    rw [mem_blk25]
    intro a
    match a with
    | ⟨0, _⟩ =>
      show win0_25.index t (0 : Fin 2) * 512 ≤ (i 0).val ∧ (i 0).val < win0_25.index t (0 : Fin 2) * 512 + 512
      rw [e0]; omega
    | ⟨1, _⟩ =>
      show win0_25.index t (1 : Fin 2) * 128 ≤ (i 1).val ∧ (i 1).val < win0_25.index t (1 : Fin 2) * 128 + 128
      rw [e1]; omega

/-- After the region the packed array's buffer holds the packed array of the reference's four heads. -/
theorem packed_eq (c : Dev nD) :
    Pipeline.withArrays (cfgs 0).spec c (V0 m c) (fun w => (dats m 0 c).arrAt w (cfgs 0).N) (Proc.tc.devRef main_v18_0) = P m c :=
  (Pipeline.withArrays_arr spec0 launch0.win.arr_inj c _ _ 25).trans (final25 m c)

/-- The cut of the packed array at lane offset 32 k, 32 lanes wide, is the k-th head. -/
theorem slice_P (c : Dev nD) (k : Fin 4) (off : Fin 2 → Nat) (h : S16384x128.Slices off S16384x32)
    (h0 : off 0 = 0) (h1 : off 1 = 32 * k.val) :
    extractStridedSlice S16384x32 off (P m c) h
      = ![Cert.Join.G143 m c, Cert.Join.G147 m c, Cert.Join.G126 m c, Cert.Join.G130 m c] k := by
  funext y
  obtain ⟨r, cc, rfl⟩ : ∃ (r : Fin 16384) (cc : Fin 32), y = ix2 r cc := ⟨y 0, y 1, eq_ix2 y⟩
  have hk := k.isLt
  have hc := cc.isLt
  refine (extractStridedSlice_apply off (P m c) h (ix2 r cc) (ix2 r (⟨32 * k.val + cc.val, by omega⟩ : Fin 128)) (fun a => ?_)).trans ?_
  · match a with
    | ⟨0, _⟩ => show r.val = off 0 + r.val; rw [h0]; omega
    | ⟨1, _⟩ => show 32 * k.val + cc.val = off 1 + cc.val; rw [h1]
  · exact P_apply m c r cc k _ rfl rfl

/-- The first head cut from the packed array is the reference's posterior mean. -/
theorem tail19 (c : Dev nD) : Pipeline.afterTail₀ cfgs (dats m) 0 (V0 m) [hostOps1] c main_v19 = Cert.Join.G143 m c := by
  unfold Pipeline.afterTail₀
  show StableHlo.after hostOps1 _ (Proc.devRef .tc main_v19) = _
  after_results
  rw [packed_eq]
  exact slice_P m c 0 _ _ rfl rfl

/-- The second head cut from the packed array is the reference's posterior deviation. -/
theorem tail20 (c : Dev nD) : Pipeline.afterTail₀ cfgs (dats m) 0 (V0 m) [hostOps1] c main_v20 = Cert.Join.G147 m c := by
  unfold Pipeline.afterTail₀
  show StableHlo.after hostOps1 _ (Proc.devRef .tc main_v20) = _
  after_results
  rw [packed_eq]
  exact slice_P m c 1 _ _ rfl rfl

/-- The third head cut from the packed array is the reference's prior mean. -/
theorem tail21 (c : Dev nD) : Pipeline.afterTail₀ cfgs (dats m) 0 (V0 m) [hostOps1] c main_v21 = Cert.Join.G126 m c := by
  unfold Pipeline.afterTail₀
  show StableHlo.after hostOps1 _ (Proc.devRef .tc main_v21) = _
  after_results
  rw [packed_eq]
  exact slice_P m c 2 _ _ rfl rfl

/-- The fourth head cut from the packed array is the reference's prior deviation. -/
theorem tail22 (c : Dev nD) : Pipeline.afterTail₀ cfgs (dats m) 0 (V0 m) [hostOps1] c main_v22 = Cert.Join.G130 m c := by
  unfold Pipeline.afterTail₀
  show StableHlo.after hostOps1 _ (Proc.devRef .tc main_v22) = _
  after_results
  rw [packed_eq]
  exact slice_P m c 3 _ _ rfl rfl

set_option maxHeartbeats 1620000 in
/-- The run, read: the four heads at the reference's posterior mean, posterior deviation, prior mean and prior
    deviation, the new-state array at the reference's new recurrent state, each of the program's own arguments; the
    arguments unchanged. -/
theorem run : θ_run defs (onTc (τ := τ) (main (F := Ideal))) ⟨m, fun _ => 0, ρ⟩ fun r => ∀ c : Dev nD,
      r.2.mem ((c.tc : Thread nD τ).loc main_v19) = Cert.Join.G143 m c
      ∧ r.2.mem ((c.tc : Thread nD τ).loc main_v20) = Cert.Join.G147 m c
      ∧ r.2.mem ((c.tc : Thread nD τ).loc main_v21) = Cert.Join.G126 m c
      ∧ r.2.mem ((c.tc : Thread nD τ).loc main_v22) = Cert.Join.G130 m c
      ∧ r.2.mem ((c.tc : Thread nD τ).loc main_v18_1) = Cert.Join.G114 m c
      ∧ r.2.mem ((c.tc : Thread nD τ).loc main_v19) = Cert.Join.G143 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨
      ((h c).2 main_v19 (Pipeline.mem_restRefs_of main_v19 (by decide) (by decide))).trans (tail19 m c),
      ((h c).2 main_v20 (Pipeline.mem_restRefs_of main_v20 (by decide) (by decide))).trans (tail20 m c),
      ((h c).2 main_v21 (Pipeline.mem_restRefs_of main_v21 (by decide) (by decide))).trans (tail21 m c),
      ((h c).2 main_v22 (Pipeline.mem_restRefs_of main_v22 (by decide) (by decide))).trans (tail22 m c),
      ((h c).1 26).trans (final26 m c),
      ((h c).2 main_v19 (Pipeline.mem_restRefs_of main_v19 (by decide) (by decide))).trans (tail19 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).1 14).trans (((dats m 0 c).arrAt_in 14 rfl _).trans ((A_eq m c 14).trans (V_main_arg13 m c))),
      ((h c).1 15).trans (((dats m 0 c).arrAt_in 15 rfl _).trans ((A_eq m c 15).trans (V_main_arg14 m c))),
      (((h c).2 main_arg15 (Pipeline.mem_restRefs_of main_arg15 (by decide) (by decide))).trans (W_main_arg15 m (dats m) c)),
      ((h c).1 17).trans (((dats m 0 c).arrAt_in 17 rfl _).trans ((A_eq m c 17).trans (V_main_arg16 m c))),
      (((h c).2 main_arg17 (Pipeline.mem_restRefs_of main_arg17 (by decide) (by decide))).trans (W_main_arg17 m (dats m) c)),
      ((h c).1 19).trans (((dats m 0 c).arrAt_in 19 rfl _).trans ((A_eq m c 19).trans (V_main_arg18 m c))),
      (((h c).2 main_arg19 (Pipeline.mem_restRefs_of main_arg19 (by decide) (by decide))).trans (W_main_arg19 m (dats m) c)),
      ((h c).1 22).trans (((dats m 0 c).arrAt_in 22 rfl _).trans ((A_eq m c 22).trans (V_main_arg20 m c))),
      (((h c).2 main_arg21 (Pipeline.mem_restRefs_of main_arg21 (by decide) (by decide))).trans (W_main_arg21 m (dats m) c)),
      ((h c).1 24).trans (((dats m 0 c).arrAt_in 24 rfl _).trans ((A_eq m c 24).trans (V_main_arg22 m c)))⟩) (run_main m ρ)

end Cert.KRun

end
-- ==== Proof.lean ====
/-
  One recurrent state-space step, as a row-blocked kernel and as whole-array host operations, computes the same five
  arrays over the extended reals.

  The step takes a batch of 16384 rows (an embedding, an action, a mask entry, a recurrent state of 1024 lanes and a
  stochastic state of 32 lanes per row) and fixed weights. Row by row it masks the two states, applies a rectified
  pre-layer to the masked stochastic state joined with the action, forms the input-side and state-side gate products,
  layer-norms their three thirds (reset, update, candidate: mean and variance over the 1024 lanes, epsilon the f32 nearest
  1e-3), takes logistic, logistic and tanh, and mixes the candidate with the masked state into the new recurrent state.
  Two heads follow, each a rectified hidden layer and an output of 64 lanes split into a mean (lanes 0 … 31) and a
  deviation (the guarded softplus of lanes 32 … 63, plus the f32 nearest 0.1): the prior head on the new state, the
  posterior head on the new state joined with the embedding.

  The kernel works on 512 rows at a grid point and stores the new state and, packed along the lanes, the four head
  outputs; the program then cuts the packed array into four. Every value of a row depends on that row of the batch
  inputs and on the whole weights only, so entry (p, j) of the block of point t is the reference's value at row 512 t + p
  (Join). The two sides differ in how they spell the same extended real: a matrix product into a zero accumulator against
  a dot_general; a product over joined lanes (32 + 12, 1024 + 1536) as the sum of two products, which is a sum over a
  disjoint union of index sets regrouped, needing associativity and commutativity of addition only; a lane reduction
  against a host reduction started from the zero word; a change of float format, which is the identity; the logistic as
  one operation against 1 / (1 + exp (-x)), its definition; a NaN guard comparing a value with itself, false on both
  sides. No law used needs the inputs finite, so the precondition is never opened.

  The three frames are the generated runs. Nothing was rewritten between the two kernel programs, so preserves is trivial.
-/
import proofs.«111823_j61529701482720_2_alg».proof.Defs
import proofs.«111823_j61529701482720_2_alg».proof.Proof.Gen.Kernel
import proofs.«111823_j61529701482720_2_alg».proof.Proof.Gen.Kernel.Skeleton
import proofs.«111823_j61529701482720_2_alg».proof.Proof.Gen.Kernel.Launch
import proofs.«111823_j61529701482720_2_alg».proof.Proof.Gen.Kernel.Points
import proofs.«111823_j61529701482720_2_alg».proof.Proof.Gen.Kernel.Frame
import proofs.«111823_j61529701482720_2_alg».proof.Proof.Gen.KernelIdeal
import proofs.«111823_j61529701482720_2_alg».proof.Proof.Gen.KernelIdeal.Skeleton
import proofs.«111823_j61529701482720_2_alg».proof.Proof.Gen.KernelIdeal.Launch
import proofs.«111823_j61529701482720_2_alg».proof.Proof.Gen.KernelIdeal.Points
import proofs.«111823_j61529701482720_2_alg».proof.Proof.Gen.KernelIdeal.Frame
import proofs.«111823_j61529701482720_2_alg».proof.Proof.Gen.ReferenceIdeal
import proofs.«111823_j61529701482720_2_alg».proof.Proof.Gen.Pre_finite_inputs
import proofs.«111823_j61529701482720_2_alg».proof.Proof.RefRunV
import proofs.«111823_j61529701482720_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel program's frame: its generated run. -/
theorem frame_k : Cert.frame_Kernel := fun m ρ _ => Cert.Kernel.Gen.frame m ρ

/-- The idealized kernel program's frame: its generated run. -/
theorem frame_ki : Cert.frame_KernelIdeal := fun m ρ _ => Cert.KernelIdeal.Gen.frame m ρ

/-- The reference's frame: its run read back, the six results dropped. -/
theorem frame_ri : Cert.frame_ReferenceIdeal := fun m ρ _ =>
  (θ_run Cert.ReferenceIdeal.defs _ _).mono (fun _ h c => (h c).2.2.2.2.2.2)
    (Cert.ReferenceIdeal.ValueQ.run (F := Ideal) m ρ)

/-- Nothing was rewritten between the two kernel programs. -/
theorem preserves : Cert.preserves_Kernel_KernelIdeal := trivial

/-- Run from memories that agree on the arguments, the kernel program ends with its six results at the reference's
    stages of its own arguments (KRun), the reference with its results at the same stages of its arguments (its run read
    back): the same arrays. -/
theorem algebraic : Cert.algebraic_KernelIdeal_ReferenceIdeal := by
  intro m ρ m' ρ' _ hagree
  refine ⟨fun c => Cert.Join.G143 m c, fun c => Cert.Join.G147 m c, fun c => Cert.Join.G126 m c,
    fun c => Cert.Join.G130 m c, fun c => Cert.Join.G114 m c, fun c => Cert.Join.G143 m c, Cert.KRun.run m ρ, ?_⟩
  refine (θ_run Cert.ReferenceIdeal.defs _ _).mono (fun _ h c => ?_)
    (Cert.ReferenceIdeal.ValueQ.run (F := Ideal) m' ρ')
  obtain ⟨r0, r1, r2, r3, r4, r5, rargs⟩ := h c
  obtain ⟨a0, a1, a2, a3, a4, a5, a6, a7, a8, a9, a10, a11, a12, a13, a14, a15, a16, a17, a18, a19, a20, a21, a22⟩ := hagree c
  have e143 : Cert.ReferenceIdeal.ReadP.val_main_v143 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = Cert.Join.G143 m c := by
    rw [a0, a1, a2, a3, a4, a5, a6, a7, a8, a9, a10, a11, a12, a13, a14, a19, a20, a21, a22]
    rfl
  have e147 : Cert.ReferenceIdeal.ReadP.val_main_v147 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = Cert.Join.G147 m c := by
    rw [a0, a1, a2, a3, a4, a5, a6, a7, a8, a9, a10, a11, a12, a13, a14, a19, a20, a21, a22]
    rfl
  have e126 : Cert.ReferenceIdeal.ReadP.val_main_v126 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.Join.G126 m c := by
    rw [a1, a2, a3, a4, a5, a6, a7, a8, a9, a10, a11, a12, a13, a14, a15, a16, a17, a18]
    rfl
  have e130 : Cert.ReferenceIdeal.ReadP.val_main_v130 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.Join.G130 m c := by
    rw [a1, a2, a3, a4, a5, a6, a7, a8, a9, a10, a11, a12, a13, a14, a15, a16, a17, a18]
    rfl
  have e114 : Cert.ReferenceIdeal.ReadP.val_main_v114 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = Cert.Join.G114 m c := by
    rw [a1, a2, a3, a4, a5, a6, a7, a8, a9, a10, a11, a12, a13, a14]
    rfl
  exact ⟨r0.trans e143, r1.trans e147, r2.trans e126, r3.trans e130, r4.trans e114, r5.trans e143, rargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
